-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x133 : Shape := ⟨2, ![65536, 133]⟩
abbrev S131072x147 : Shape := ⟨2, ![131072, 147]⟩
abbrev S147x512 : Shape := ⟨2, ![147, 512]⟩
abbrev S512x512 : Shape := ⟨2, ![512, 512]⟩
abbrev S645x512 : Shape := ⟨2, ![645, 512]⟩
abbrev S512 : Shape := ⟨1, ![512]⟩
abbrev S512x1 : Shape := ⟨2, ![512, 1]⟩
abbrev S1 : Shape := ⟨1, ![1]⟩
abbrev S131072 : Shape := ⟨1, ![131072]⟩
abbrev S65536 : Shape := ⟨1, ![65536]⟩
abbrev S_ : Shape := ⟨0, ![]⟩

class Facts : Prop where
  bcast_S_S65536x133 : S_.BroadcastsInDim S65536x133 (![] : Fin 0 → Fin S65536x133.rank)
  reducesTo_S65536x133_S_d0_1 : S65536x133.ReducesTo [0, 1] S_
  h_S_ : 0 < S_.numel
  bcast_S_S131072x147 : S_.BroadcastsInDim S131072x147 (![] : Fin 0 → Fin S131072x147.rank)
  reducesTo_S131072x147_S_d0_1 : S131072x147.ReducesTo [0, 1] S_
  bcast_S_S147x512 : S_.BroadcastsInDim S147x512 (![] : Fin 0 → Fin S147x512.rank)
  reducesTo_S147x512_S_d0_1 : S147x512.ReducesTo [0, 1] S_
  bcast_S_S512x512 : S_.BroadcastsInDim S512x512 (![] : Fin 0 → Fin S512x512.rank)
  reducesTo_S512x512_S_d0_1 : S512x512.ReducesTo [0, 1] S_
  bcast_S_S645x512 : S_.BroadcastsInDim S645x512 (![] : Fin 0 → Fin S645x512.rank)
  reducesTo_S645x512_S_d0_1 : S645x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S512x1 .f32) (main_arg12 : FVec F S1 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x1 .f32 := Host.absf main_arg11
  let main_cst_20 : FVec F S_ .f32 := constant S_ .f32 0x7F800000#32
  let main_v55 : FVec F S512x1 .f32 := broadcastInDim S512x1 ![] bcast_S_S512x1 main_cst_20
  let main_v56 : IVec S512x1 1 := cmpf .olt main_v54 main_v55
  let main_c_21 : IVec S_ 1 := constantI S_ 1 1#1
  let main_v57 : IVec S_ 1 := (fun x v => Host.reduce IntOp.andi x v reducesTo_S512x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S512x512 .f32) (main_arg8 : FVec F S512 .f32) (main_arg9 : FVec F S512x512 .f32) (main_arg10 : FVec F S512 .f32) (main_arg11 : FVec F S512x1 .f32) (main_arg12 : FVec F S1 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_v48 main_v49 main_v50

def fn_part1 {F : FTy → Type} [FloatOps F] (main_arg4 : FVec F S645x512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x1 .f32) (main_arg12 : FVec F S1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S645x512 .f32 := Host.absf main_arg4
  let main_cst_6 : FVec F S_ .f32 := constant S_ .f32 0x7F800000#32
  let main_v20 : FVec F S645x512 .f32 := broadcastInDim S645x512 ![] bcast_S_S645x512 main_cst_6
  let main_v21 : IVec S645x512 1 := cmpf .olt main_v19 main_v20
  let main_c_7 : IVec S_ 1 := constantI S_ 1 1#1
  let main_v22 : IVec S_ 1 := (fun x v => Host.reduce IntOp.andi x v reducesTo_S645x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S65536x133 .f32) (main_arg1 : FVec F S131072x147 .f32) (main_arg2 : FVec F S147x512 .f32) (main_arg3 : FVec F S512x512 .f32) (main_arg4 : FVec F S645x512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x1 .f32) (main_arg12 : FVec F S1 .f32) (main_arg13 : IVec S131072 32) (main_arg14 : IVec S131072 32) (main_arg15 : IVec S131072 32) (main_arg16 : IVec S65536 32) : IVec S_ 1 :=
  let main_v0 : FVec F S65536x133 .f32 := Host.absf main_arg0
  let main_cst : FVec F S_ .f32 := constant S_ .f32 0x7F800000#32
  let main_v1 : FVec F S65536x133 .f32 := broadcastInDim S65536x133 ![] bcast_S_S65536x133 main_cst
  let main_v2 : IVec S65536x133 1 := cmpf .olt main_v0 main_v1
  let main_c : IVec S_ 1 := constantI S_ 1 1#1
  let main_v3 : IVec S_ 1 := (fun x v => Host.reduce IntOp.andi x v reducesTo_S65536x133_S_d0_1 h_S_) main_v2 main_c
  let main_v4 : FVec F S131072x147 .f32 := Host.absf main_arg1
  let main_cst_0 : FVec F S_ .f32 := constant S_ .f32 0x7F800000#32
  let main_v5 : FVec F S131072x147 .f32 := broadcastInDim S131072x147 ![] bcast_S_S131072x147 main_cst_0
  let main_v6 : IVec S131072x147 1 := cmpf .olt main_v4 main_v5
  let main_c_1 : IVec S_ 1 := constantI S_ 1 1#1
  let main_v7 : IVec S_ 1 := (fun x v => Host.reduce IntOp.andi x v reducesTo_S131072x147_S_d0_1 h_S_) main_v6 main_c_1
  let main_v8 : IVec S_ 1 := andi main_v3 main_v7
  let main_v9 : FVec F S147x512 .f32 := Host.absf main_arg2
  let main_cst_2 : FVec F S_ .f32 := constant S_ .f32 0x7F800000#32
  let main_v10 : FVec F S147x512 .f32 := broadcastInDim S147x512 ![] bcast_S_S147x512 main_cst_2
  let main_v11 : IVec S147x512 1 := cmpf .olt main_v9 main_v10
  let main_c_3 : IVec S_ 1 := constantI S_ 1 1#1
  let main_v12 : IVec S_ 1 := (fun x v => Host.reduce IntOp.andi x v reducesTo_S147x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_v13 main_v16
-- ==== Kernel.lean ====
abbrev S65536x133 : Shape := ⟨2, ![65536, 133]⟩
abbrev S131072x147 : Shape := ⟨2, ![131072, 147]⟩
abbrev S147x512 : Shape := ⟨2, ![147, 512]⟩
abbrev S512x512 : Shape := ⟨2, ![512, 512]⟩
abbrev S645x512 : Shape := ⟨2, ![645, 512]⟩
abbrev S512 : Shape := ⟨1, ![512]⟩
abbrev S512x1 : Shape := ⟨2, ![512, 1]⟩
abbrev S1 : Shape := ⟨1, ![1]⟩
abbrev S131072 : Shape := ⟨1, ![131072]⟩
abbrev S65536 : Shape := ⟨1, ![65536]⟩
abbrev S131072x512 : Shape := ⟨2, ![131072, 512]⟩
abbrev S1024x147 : Shape := ⟨2, ![1024, 147]⟩
abbrev S1024x512 : Shape := ⟨2, ![1024, 512]⟩
abbrev S_ : Shape := ⟨0, ![]⟩
abbrev S65536x512 : Shape := ⟨2, ![65536, 512]⟩
abbrev S131072x1 : Shape := ⟨2, ![131072, 1]⟩
abbrev S133x512 : Shape := ⟨2, ![133, 512]⟩
abbrev S1024x133 : Shape := ⟨2, ![1024, 133]⟩
abbrev S2048x512 : Shape := ⟨2, ![2048, 512]⟩
abbrev S65536x1 : Shape := ⟨2, ![65536, 1]⟩
abbrev S2048 : Shape := ⟨1, ![2048]⟩
abbrev S2048x1 : Shape := ⟨2, ![2048, 1]⟩
abbrev S1x512 : Shape := ⟨2, ![1, 512]⟩
abbrev S1x1 : Shape := ⟨2, ![1, 1]⟩
abbrev S1024x1 : Shape := ⟨2, ![1024, 1]⟩

abbrev nBuf : Space → Nat
  | .hbm => 92
  | .vmem => 41
  | .smem => 0
  | _ => 0

abbrev bufTy : (tb : Table) → Fin (tcTables nBuf tb) → BufTy
  | .hbm, ⟨0, _⟩ => ⟨S65536x133, .f32⟩
  | .hbm, ⟨1, _⟩ => ⟨S131072x147, .f32⟩
  | .hbm, ⟨2, _⟩ => ⟨S147x512, .f32⟩
  | .hbm, ⟨3, _⟩ => ⟨S512x512, .f32⟩
  | .hbm, ⟨4, _⟩ => ⟨S645x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x1, .f32⟩
  | .hbm, ⟨12, _⟩ => ⟨S1, .f32⟩
  | .hbm, ⟨13, _⟩ => ⟨S131072, .i32⟩
  | .hbm, ⟨14, _⟩ => ⟨S131072, .i32⟩
  | .hbm, ⟨15, _⟩ => ⟨S131072, .i32⟩
  | .hbm, ⟨16, _⟩ => ⟨S65536, .i32⟩
  | .hbm, ⟨17, _⟩ => ⟨S131072x512, .f32⟩
  | .hbm, ⟨18, _⟩ => ⟨S131072x512, .f32⟩
  | .hbm, ⟨19, _⟩ => ⟨S_, .f32⟩
  | .hbm, ⟨20, _⟩ => ⟨S65536x512, .f32⟩
  | .hbm, ⟨21, _⟩ => ⟨S131072x1, .i32⟩
  | .hbm, ⟨22, _⟩ => ⟨S65536x512, .f32⟩
  | .hbm, ⟨23, _⟩ => ⟨S_, .i32⟩
  | .hbm, ⟨24, _⟩ => ⟨S131072, .i32⟩
  | .hbm, ⟨25, _⟩ => ⟨S131072, .i1⟩
  | .hbm, ⟨26, _⟩ => ⟨S_, .i32⟩
  | .hbm, ⟨27, _⟩ => ⟨S131072, .i32⟩
  | .hbm, ⟨28, _⟩ => ⟨S131072, .i32⟩
  | .hbm, ⟨29, _⟩ => ⟨S131072, .i32⟩
  | .hbm, ⟨30, _⟩ => ⟨S131072x1, .i32⟩
  | .hbm, ⟨31, _⟩ => ⟨S131072x512, .f32⟩
  | .hbm, ⟨32, _⟩ => ⟨S_, .i32⟩
  | .hbm, ⟨33, _⟩ => ⟨S131072, .i32⟩
  | .hbm, ⟨34, _⟩ => ⟨S131072, .i1⟩
  | .hbm, ⟨35, _⟩ => ⟨S_, .i32⟩
  | .hbm, ⟨36, _⟩ => ⟨S131072, .i32⟩
  | .hbm, ⟨37, _⟩ => ⟨S131072, .i32⟩
  | .hbm, ⟨38, _⟩ => ⟨S131072, .i32⟩
  | .hbm, ⟨39, _⟩ => ⟨S131072x1, .i32⟩
  | .hbm, ⟨40, _⟩ => ⟨S131072x512, .f32⟩
  | .hbm, ⟨41, _⟩ => ⟨S131072x512, .f32⟩
  | .hbm, ⟨42, _⟩ => ⟨S131072x512, .f32⟩
  | .hbm, ⟨43, _⟩ => ⟨S_, .f32⟩
  | .hbm, ⟨44, _⟩ => ⟨S65536x512, .f32⟩
  | .hbm, ⟨45, _⟩ => ⟨S131072x1, .i32⟩
  | .hbm, ⟨46, _⟩ => ⟨S65536x512, .f32⟩
  | .hbm, ⟨47, _⟩ => ⟨S_, .i32⟩
  | .hbm, ⟨48, _⟩ => ⟨S131072, .i32⟩
  | .hbm, ⟨49, _⟩ => ⟨S131072, .i1⟩
  | .hbm, ⟨50, _⟩ => ⟨S_, .i32⟩
  | .hbm, ⟨51, _⟩ => ⟨S131072, .i32⟩
  | .hbm, ⟨52, _⟩ => ⟨S131072, .i32⟩
  | .hbm, ⟨53, _⟩ => ⟨S131072, .i32⟩
  | .hbm, ⟨54, _⟩ => ⟨S131072x1, .i32⟩
  | .hbm, ⟨55, _⟩ => ⟨S131072x512, .f32⟩
  | .hbm, ⟨56, _⟩ => ⟨S_, .i32⟩
  | .hbm, ⟨57, _⟩ => ⟨S131072, .i32⟩
  | .hbm, ⟨58, _⟩ => ⟨S131072, .i1⟩
  | .hbm, ⟨59, _⟩ => ⟨S_, .i32⟩
  | .hbm, ⟨60, _⟩ => ⟨S131072, .i32⟩
  | .hbm, ⟨61, _⟩ => ⟨S131072, .i32⟩
  | .hbm, ⟨62, _⟩ => ⟨S131072, .i32⟩
  | .hbm, ⟨63, _⟩ => ⟨S131072x1, .i32⟩
  | .hbm, ⟨64, _⟩ => ⟨S131072x512, .f32⟩
  | .hbm, ⟨65, _⟩ => ⟨S131072x512, .f32⟩
  | .hbm, ⟨66, _⟩ => ⟨S131072x512, .f32⟩
  | .hbm, ⟨67, _⟩ => ⟨S_, .f32⟩
  | .hbm, ⟨68, _⟩ => ⟨S65536x512, .f32⟩
  | .hbm, ⟨69, _⟩ => ⟨S131072x1, .i32⟩
  | .hbm, ⟨70, _⟩ => ⟨S65536x512, .f32⟩
  | .hbm, ⟨71, _⟩ => ⟨S133x512, .f32⟩
  | .hbm, ⟨72, _⟩ => ⟨S512x512, .f32⟩
  | .hbm, ⟨73, _⟩ => ⟨S65536x512, .f32⟩
  | .hbm, ⟨74, _⟩ => ⟨S_, .f32⟩
  | .hbm, ⟨75, _⟩ => ⟨S2048x512, .f32⟩
  | .hbm, ⟨76, _⟩ => ⟨S65536x1, .i32⟩
  | .hbm, ⟨77, _⟩ => ⟨S2048x512, .f32⟩
  | .hbm, ⟨78, _⟩ => ⟨S_, .f32⟩
  | .hbm, ⟨79, _⟩ => ⟨S65536, .f32⟩
  | .hbm, ⟨80, _⟩ => ⟨S_, .f32⟩
  | .hbm, ⟨81, _⟩ => ⟨S2048, .f32⟩
  | .hbm, ⟨82, _⟩ => ⟨S65536x1, .i32⟩
  | .hbm, ⟨83, _⟩ => ⟨S2048, .f32⟩
  | .hbm, ⟨84, _⟩ => ⟨S2048x1, .f32⟩
  | .hbm, ⟨85, _⟩ => ⟨S2048x512, .f32⟩
  | .hbm, ⟨86, _⟩ => ⟨S2048x512, .f32⟩
  | .hbm, ⟨87, _⟩ => ⟨S1x512, .f32⟩
  | .hbm, ⟨88, _⟩ => ⟨S1x512, .f32⟩
  | .hbm, ⟨89, _⟩ => ⟨S1x512, .f32⟩
  | .hbm, ⟨90, _⟩ => ⟨S1x1, .f32⟩
  | .hbm, ⟨91, _⟩ => ⟨S2048x1, .f32⟩
  | .local _ .vmem, ⟨0, _⟩ => ⟨S1024x147, .f32⟩
  | .local _ .vmem, ⟨1, _⟩ => ⟨S1024x147, .f32⟩
  | .local _ .vmem, ⟨2, _⟩ => ⟨S147x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S512x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S512x512, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | .local _ .vmem, ⟨21, _⟩ => ⟨S1024x133, .f32⟩
  | .local _ .vmem, ⟨22, _⟩ => ⟨S1024x133, .f32⟩
  | .local _ .vmem, ⟨23, _⟩ => ⟨S133x512, .f32⟩
  | .local _ .vmem, ⟨24, _⟩ => ⟨S1024x512, .f32⟩
  | .local _ .vmem, ⟨25, _⟩ => ⟨S1024x512, .f32⟩
  | .local _ .vmem, ⟨26, _⟩ => ⟨S512x512, .f32⟩
  | .local _ .vmem, ⟨27, _⟩ => ⟨S1024x512, .f32⟩
  | .local _ .vmem, ⟨28, _⟩ => ⟨S1024x512, .f32⟩
  | .local _ .vmem, ⟨29, _⟩ => ⟨S1024x512, .f32⟩
  | .local _ .vmem, ⟨30, _⟩ => ⟨S1024x512, .f32⟩
  | .local _ .vmem, ⟨31, _⟩ => ⟨S512x512, .f32⟩
  | .local _ .vmem, ⟨32, _⟩ => ⟨S1x512, .f32⟩
  | .local _ .vmem, ⟨33, _⟩ => ⟨S512x512, .f32⟩
  | .local _ .vmem, ⟨34, _⟩ => ⟨S1x512, .f32⟩
  | .local _ .vmem, ⟨35, _⟩ => ⟨S512x512, .f32⟩
  | .local _ .vmem, ⟨36, _⟩ => ⟨S1x512, .f32⟩
  | .local _ .vmem, ⟨37, _⟩ => ⟨S512x1, .f32⟩
  | .local _ .vmem, ⟨38, _⟩ => ⟨S1x1, .f32⟩
  | .local _ .vmem, ⟨39, _⟩ => ⟨S1024x1, .f32⟩
  | .local _ .vmem, ⟨40, _⟩ => ⟨S1024x1, .f32⟩
  | _, _ => ⟨S65536x133, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_3 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_v23 : Ref sig .tc := ⟨.hbm, 48, rfl⟩
abbrev main_v24 : Ref sig .tc := ⟨.hbm, 49, rfl⟩
abbrev main_c_5 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_6 : Ref sig .tc := ⟨.hbm, 56, rfl⟩
abbrev main_v30 : Ref sig .tc := ⟨.hbm, 57, rfl⟩
abbrev main_v31 : Ref sig .tc := ⟨.hbm, 58, rfl⟩
abbrev main_c_7 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_cst_11 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg4_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg6_0 : Ref sig .tc := ⟨.vmem, 36, rfl⟩
abbrev cc4_stg7_0 : Ref sig .tc := ⟨.vmem, 37, rfl⟩
abbrev cc4_stg8_0 : Ref sig .tc := ⟨.vmem, 38, rfl⟩
abbrev cc4_stg9_0 : Ref sig .tc := ⟨.vmem, 39, rfl⟩
abbrev cc4_stg9_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem4_0 : DmaSem sig := 27
abbrev cc3_sem4_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem3_0 : DmaSem sig := 33
abbrev cc4_sem4_0 : DmaSem sig := 34
abbrev cc4_sem5_0 : DmaSem sig := 35
abbrev cc4_sem6_0 : DmaSem sig := 36
abbrev cc4_sem7_0 : DmaSem sig := 37
abbrev cc4_sem8_0 : DmaSem sig := 38
abbrev cc4_sem9_0 : DmaSem sig := 39
abbrev cc4_sem9_1 : DmaSem sig := 40

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x147 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S147x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x133 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S133x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S512x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1024x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![2], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x512 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x512 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S512x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S1024x1 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

class Facts₀ : Prop where
  inb_S1024x147_S1024x147_0_0 : ∀ a, (![0, 0] : Fin 2 → Nat) a + S1024x147.size a ≤ S1024x147.size a
  h_S1024x147 : 0 < S1024x147.numel
  bitsLt_bf16_f32 : FTy.bits .bf16 < FTy.bits .f32
  inb_S147x512_S147x512_0_0 : ∀ a, (![0, 0] : Fin 2 → Nat) a + S147x512.size a ≤ S147x512.size a
  h_S147x512 : 0 < S147x512.numel
  inb_S1024x512_S1024x512_0_0 : ∀ a, (![0, 0] : Fin 2 → Nat) a + S1024x512.size a ≤ S1024x512.size a
  h_S1024x512 : 0 < S1024x512.numel
  bcast_S_S65536x512 : S_.BroadcastsInDim S65536x512 (![] : Fin 0 → Fin S65536x512.rank)
  bcast_S131072_S131072x1_0 : S131072.BroadcastsInDim S131072x1 (![0] : Fin 1 → Fin S131072x1.rank)
  bcast_S_S131072 : S_.BroadcastsInDim S131072 (![] : Fin 0 → Fin S131072.rank)
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  slices_S645x512_S133x512_0_0 : S645x512.Slices ![0, 0] S133x512
  slices_S645x512_S512x512_133_0 : S645x512.Slices ![133, 0] S512x512
  inb_S1024x133_S1024x133_0_0 : ∀ a, (![0, 0] : Fin 2 → Nat) a + S1024x133.size a ≤ S1024x133.size a
  h_S1024x133 : 0 < S1024x133.numel
  inb_S133x512_S133x512_0_0 : ∀ a, (![0, 0] : Fin 2 → Nat) a + S133x512.size a ≤ S133x512.size a
  h_S133x512 : 0 < S133x512.numel
  shapeCasts_S133x512_S133x512 : S133x512.ShapeCasts S133x512
  shapeCasts_S512x512_S512x512 : S512x512.ShapeCasts S512x512
  bcast_S_S2048x512 : S_.BroadcastsInDim S2048x512 (![] : Fin 0 → Fin S2048x512.rank)
  bcast_S65536_S65536x1_0 : S65536.BroadcastsInDim S65536x1 (![0] : Fin 1 → Fin S65536x1.rank)
  bcast_S_S65536 : S_.BroadcastsInDim S65536 (![] : Fin 0 → Fin S65536.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x512_0_1 : S2048x1.BroadcastsInDim S2048x512 (![0, 1] : Fin 2 → Fin S2048x512.rank)
  shapeCasts_S512_S1x512 : S512.ShapeCasts S1x512
  shapeCasts_S1_S1x1 : S1.ShapeCasts S1x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x1_S512x1_0_0 : ∀ a, (![0, 0] : Fin 2 → Nat) a + S512x1.size a ≤ S512x1.size a
  h_S512x1 : 0 < S512x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x147_S147x512_S1024x512_1_0_0_1_n_n_wf : DotDims.WF S1024x147 S147x512 S1024x512 [1] [0] [0] [1] [] []
  scatter_S65536x512_S131072x1_S131072x512_1_0_0_1_wf : ScatterDims.WF S65536x512 S131072x1 S131072x512 [1] [0] [0] 1
  gather_S65536x512_S131072x1_S131072x512_1_0_n_n_0_1_1512_wf : GatherDims.WF S65536x512 S131072x1 S131072x512 [1] [0] [] [0] [] 1 ![1, 512]
  gather_S131072x512_S131072x1_S131072x512_1_0_n_n_0_1_1512_wf : GatherDims.WF S131072x512 S131072x1 S131072x512 [1] [0] [] [0] [] 1 ![1, 512]
  dot_S1024x512_S512x512_S1024x512_1_0_0_1_n_n_wf : DotDims.WF S1024x512 S512x512 S1024x512 [1] [0] [0] [1] [] []
  dot_S1024x133_S133x512_S1024x512_1_0_0_1_n_n_wf : DotDims.WF S1024x133 S133x512 S1024x512 [1] [0] [0] [1] [] []
  scatter_S2048x512_S65536x1_S65536x512_1_0_0_1_wf : ScatterDims.WF S2048x512 S65536x1 S65536x512 [1] [0] [0] 1
  scatter_S2048_S65536x1_S65536_n_0_0_1_wf : ScatterDims.WF S2048 S65536x1 S65536 [] [0] [0] 1
  dot_S1024x512_S512x1_S1024x1_1_0_0_1_n_n_wf : DotDims.WF S1024x512 S512x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x147.size a ≤ S131072x147.size a
  hwx0_0 : ∀ i : grid0.Coords, EltTy.bits .f32 = 32 ∨ (Rect.block (s := S131072x147) S1024x147.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S147x512.size a ≤ S147x512.size a
  hwx0_1 : ∀ i : grid0.Coords, EltTy.bits .f32 = 32 ∨ (Rect.block (s := S147x512) S147x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S131072x512.size a
  hwx0_2 : ∀ i : grid0.Coords, EltTy.bits .f32 = 32 ∨ (Rect.block (s := S131072x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S131072x512.size a
  hwx0_3 : ∀ i : grid0.Coords, EltTy.bits .f32 = 32 ∨ (Rect.block (s := S131072x512) S1024x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S131072x512.size a
  hwx1_0 : ∀ i : grid1.Coords, EltTy.bits .f32 = 32 ∨ (Rect.block (s := S131072x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S131072x512.size a
  hwx1_2 : ∀ i : grid1.Coords, EltTy.bits .f32 = 32 ∨ (Rect.block (s := S131072x512) S1024x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S131072x512.size a
  hwx1_3 : ∀ i : grid1.Coords, EltTy.bits .f32 = 32 ∨ (Rect.block (s := S131072x512) S1024x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S131072x512.size a
  hwx2_0 : ∀ i : grid2.Coords, EltTy.bits .f32 = 32 ∨ (Rect.block (s := S131072x512) S1024x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S131072x512.size a
  hwx2_2 : ∀ i : grid2.Coords, EltTy.bits .f32 = 32 ∨ (Rect.block (s := S131072x512) S1024x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S131072x512.size a
  hwx2_3 : ∀ i : grid2.Coords, EltTy.bits .f32 = 32 ∨ (Rect.block (s := S131072x512) S1024x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x133.size a ≤ S65536x133.size a
  hwx3_0 : ∀ i : grid3.Coords, EltTy.bits .f32 = 32 ∨ (Rect.block (s := S65536x133) S1024x133.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S133x512.size a ≤ S133x512.size a
  hwx3_1 : ∀ i : grid3.Coords, EltTy.bits .f32 = 32 ∨ (Rect.block (s := S133x512) S133x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x512.size a ≤ S65536x512.size a
  hwx3_2 : ∀ i : grid3.Coords, EltTy.bits .f32 = 32 ∨ (Rect.block (s := S65536x512) S1024x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S512x512.size a
  hwx3_3 : ∀ i : grid3.Coords, EltTy.bits .f32 = 32 ∨ (Rect.block (s := S512x512) S512x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x512.size a ≤ S65536x512.size a
  hwx3_4 : ∀ i : grid3.Coords, EltTy.bits .f32 = 32 ∨ (Rect.block (s := S65536x512) S1024x512.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S2048x512.size a
  hwx4_0 : ∀ i : grid4.Coords, EltTy.bits .f32 = 32 ∨ (Rect.block (s := S2048x512) S1024x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S512x512.size a
  hwx4_1 : ∀ i : grid4.Coords, EltTy.bits .f32 = 32 ∨ (Rect.block (s := S512x512) S512x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x512.size a ≤ S512x512.size a
  hwx4_3 : ∀ i : grid4.Coords, EltTy.bits .f32 = 32 ∨ (Rect.block (s := S512x512) S512x512.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x512.size a ≤ S1x512.size a
  hwx4_4 : ∀ i : grid4.Coords, EltTy.bits .f32 = 32 ∨ (Rect.block (s := S1x512) S1x512.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x512.size a ≤ S512x512.size a
  hwx4_5 : ∀ i : grid4.Coords, EltTy.bits .f32 = 32 ∨ (Rect.block (s := S512x512) S512x512.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x512.size a ≤ S1x512.size a
  hwx4_6 : ∀ i : grid4.Coords, EltTy.bits .f32 = 32 ∨ (Rect.block (s := S1x512) S1x512.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S512x1.size a ≤ S512x1.size a
  hwx4_7 : ∀ i : grid4.Coords, EltTy.bits .f32 = 32 ∨ (Rect.block (s := S512x1) S512x1.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x1.size a ≤ S1x1.size a
  hwx4_8 : ∀ i : grid4.Coords, EltTy.bits .f32 = 32 ∨ (Rect.block (s := S1x1) S1x1.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S1024x1.size a ≤ S2048x1.size a
  hwx4_9 : ∀ i : grid4.Coords, EltTy.bits .f32 = 32 ∨ (Rect.block (s := S2048x1) S1024x1.size (cc4_transform_9 i) (hinb4_9 i)).WholeWords (EltTy.packing .f32)

variable [Facts₀]

def dot_S1024x147_S147x512_S1024x512_1_0_0_1_n_n : DotDims S1024x147 S147x512 S1024x512 where
  lhsContracting := [1]
  rhsContracting := [0]
  lhsNonContracting := [0]
  rhsNonContracting := [1]
  lhsBatch := []
  rhsBatch := []
  wf := dot_S1024x147_S147x512_S1024x512_1_0_0_1_n_n_wf
def scatter_S65536x512_S131072x1_S131072x512_1_0_0_1 : ScatterDims S65536x512 S131072x1 S131072x512 where
  updateWindowDims := [1]
  insertedWindowDims := [0]
  scatterDimsToOperandDims := [0]
  indexVectorDim := 1
  wf := scatter_S65536x512_S131072x1_S131072x512_1_0_0_1_wf
def gather_S65536x512_S131072x1_S131072x512_1_0_n_n_0_1_1512 : GatherDims S65536x512 S131072x1 S131072x512 where
  offsetDims := [1]
  collapsedSliceDims := [0]
  operandBatchingDims := []
  startIndicesBatchingDims := []
  startIndexMap := [0]
  indexVectorDim := 1
  sliceSizes := ![1, 512]
  wf := gather_S65536x512_S131072x1_S131072x512_1_0_n_n_0_1_1512_wf
def gather_S131072x512_S131072x1_S131072x512_1_0_n_n_0_1_1512 : GatherDims S131072x512 S131072x1 S131072x512 where
  offsetDims := [1]
  collapsedSliceDims := [0]
  operandBatchingDims := []
  startIndicesBatchingDims := []
  startIndexMap := [0]
  indexVectorDim := 1
  sliceSizes := ![1, 512]
  wf := gather_S131072x512_S131072x1_S131072x512_1_0_n_n_0_1_1512_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x133_S133x512_S1024x512_1_0_0_1_n_n : DotDims S1024x133 S133x512 S1024x512 where
  lhsContracting := [1]
  rhsContracting := [0]
  lhsNonContracting := [0]
  rhsNonContracting := [1]
  lhsBatch := []
  rhsBatch := []
  wf := dot_S1024x133_S133x512_S1024x512_1_0_0_1_n_n_wf
def scatter_S2048x512_S65536x1_S65536x512_1_0_0_1 : ScatterDims S2048x512 S65536x1 S65536x512 where
  updateWindowDims := [1]
  insertedWindowDims := [0]
  scatterDimsToOperandDims := [0]
  indexVectorDim := 1
  wf := scatter_S2048x512_S65536x1_S65536x512_1_0_0_1_wf
def scatter_S2048_S65536x1_S65536_n_0_0_1 : ScatterDims S2048 S65536x1 S65536 where
  updateWindowDims := []
  insertedWindowDims := [0]
  scatterDimsToOperandDims := [0]
  indexVectorDim := 1
  wf := scatter_S2048_S65536x1_S65536_n_0_0_1_wf
def dot_S1024x512_S512x1_S1024x1_1_0_0_1_n_n : DotDims S1024x512 S512x1 S1024x1 where
  lhsContracting := [1]
  rhsContracting := [0]
  lhsNonContracting := [0]
  rhsNonContracting := [1]
  lhsBatch := []
  rhsBatch := []
  wf := dot_S1024x512_S512x1_S1024x1_1_0_0_1_n_n_wf

abbrev win0_0 : Pipeline.Window sig grid0 :=
  Pipeline.Window.ofSpec (Memref.whole main_arg1) S1024x147.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S147x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v37) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0_0) S1024x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S1024x133.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S133x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v41) S1024x512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v43) S512x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S1024x512.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v54) S1024x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S512x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v55) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg7) S512x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v56) S1x512.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg9) S512x512.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v57) S1x512.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg11) S512x1.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v58) S1x1.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v59) S1024x1.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

class Facts : Prop extends Facts₀ where

variable [Facts]
-- ==== ReferenceIdeal.lean ====
abbrev S65536x133 : Shape := ⟨2, ![65536, 133]⟩
abbrev S131072x147 : Shape := ⟨2, ![131072, 147]⟩
abbrev S147x512 : Shape := ⟨2, ![147, 512]⟩
abbrev S512x512 : Shape := ⟨2, ![512, 512]⟩
abbrev S645x512 : Shape := ⟨2, ![645, 512]⟩
abbrev S512 : Shape := ⟨1, ![512]⟩
abbrev S512x1 : Shape := ⟨2, ![512, 1]⟩
abbrev S1 : Shape := ⟨1, ![1]⟩
abbrev S131072 : Shape := ⟨1, ![131072]⟩
abbrev S65536 : Shape := ⟨1, ![65536]⟩
abbrev S131072x512 : Shape := ⟨2, ![131072, 512]⟩
abbrev S_ : Shape := ⟨0, ![]⟩
abbrev S65536x512 : Shape := ⟨2, ![65536, 512]⟩
abbrev S131072x1 : Shape := ⟨2, ![131072, 1]⟩
abbrev S65536x645 : Shape := ⟨2, ![65536, 645]⟩
abbrev S2048x512 : Shape := ⟨2, ![2048, 512]⟩
abbrev S65536x1 : Shape := ⟨2, ![65536, 1]⟩
abbrev S2048 : Shape := ⟨1, ![2048]⟩
abbrev S2048x1 : Shape := ⟨2, ![2048, 1]⟩
abbrev S1x512 : Shape := ⟨2, ![1, 512]⟩
abbrev S1x1 : Shape := ⟨2, ![1, 1]⟩

abbrev nBuf : Space → Nat
  | .hbm => 127
  | .vmem => 0
  | .smem => 0
  | _ => 0

abbrev bufTy : (tb : Table) → Fin (tcTables nBuf tb) → BufTy
  | .hbm, ⟨0, _⟩ => ⟨S65536x133, .f32⟩
  | .hbm, ⟨1, _⟩ => ⟨S131072x147, .f32⟩
  | .hbm, ⟨2, _⟩ => ⟨S147x512, .f32⟩
  | .hbm, ⟨3, _⟩ => ⟨S512x512, .f32⟩
  | .hbm, ⟨4, _⟩ => ⟨S645x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x1, .f32⟩
  | .hbm, ⟨12, _⟩ => ⟨S1, .f32⟩
  | .hbm, ⟨13, _⟩ => ⟨S131072, .i32⟩
  | .hbm, ⟨14, _⟩ => ⟨S131072, .i32⟩
  | .hbm, ⟨15, _⟩ => ⟨S131072, .i32⟩
  | .hbm, ⟨16, _⟩ => ⟨S65536, .i32⟩
  | .hbm, ⟨17, _⟩ => ⟨S131072x512, .f32⟩
  | .hbm, ⟨18, _⟩ => ⟨S_, .f32⟩
  | .hbm, ⟨19, _⟩ => ⟨S131072x512, .f32⟩
  | .hbm, ⟨20, _⟩ => ⟨S131072x512, .f32⟩
  | .hbm, ⟨21, _⟩ => ⟨S_, .f32⟩
  | .hbm, ⟨22, _⟩ => ⟨S65536x512, .f32⟩
  | .hbm, ⟨23, _⟩ => ⟨S131072x1, .i32⟩
  | .hbm, ⟨24, _⟩ => ⟨S65536x512, .f32⟩
  | .hbm, ⟨25, _⟩ => ⟨S_, .i32⟩
  | .hbm, ⟨26, _⟩ => ⟨S131072, .i32⟩
  | .hbm, ⟨27, _⟩ => ⟨S131072, .i1⟩
  | .hbm, ⟨28, _⟩ => ⟨S_, .i32⟩
  | .hbm, ⟨29, _⟩ => ⟨S131072, .i32⟩
  | .hbm, ⟨30, _⟩ => ⟨S131072, .i32⟩
  | .hbm, ⟨31, _⟩ => ⟨S131072, .i32⟩
  | .hbm, ⟨32, _⟩ => ⟨S131072x1, .i32⟩
  | .hbm, ⟨33, _⟩ => ⟨S131072x512, .f32⟩
  | .hbm, ⟨34, _⟩ => ⟨S_, .i32⟩
  | .hbm, ⟨35, _⟩ => ⟨S131072, .i32⟩
  | .hbm, ⟨36, _⟩ => ⟨S131072, .i1⟩
  | .hbm, ⟨37, _⟩ => ⟨S_, .i32⟩
  | .hbm, ⟨38, _⟩ => ⟨S131072, .i32⟩
  | .hbm, ⟨39, _⟩ => ⟨S131072, .i32⟩
  | .hbm, ⟨40, _⟩ => ⟨S131072, .i32⟩
  | .hbm, ⟨41, _⟩ => ⟨S131072x1, .i32⟩
  | .hbm, ⟨42, _⟩ => ⟨S131072x512, .f32⟩
  | .hbm, ⟨43, _⟩ => ⟨S131072x512, .f32⟩
  | .hbm, ⟨44, _⟩ => ⟨S131072x512, .f32⟩
  | .hbm, ⟨45, _⟩ => ⟨S131072x512, .f32⟩
  | .hbm, ⟨46, _⟩ => ⟨S_, .f32⟩
  | .hbm, ⟨47, _⟩ => ⟨S131072x512, .f32⟩
  | .hbm, ⟨48, _⟩ => ⟨S131072x512, .f32⟩
  | .hbm, ⟨49, _⟩ => ⟨S_, .f32⟩
  | .hbm, ⟨50, _⟩ => ⟨S65536x512, .f32⟩
  | .hbm, ⟨51, _⟩ => ⟨S131072x1, .i32⟩
  | .hbm, ⟨52, _⟩ => ⟨S65536x512, .f32⟩
  | .hbm, ⟨53, _⟩ => ⟨S_, .i32⟩
  | .hbm, ⟨54, _⟩ => ⟨S131072, .i32⟩
  | .hbm, ⟨55, _⟩ => ⟨S131072, .i1⟩
  | .hbm, ⟨56, _⟩ => ⟨S_, .i32⟩
  | .hbm, ⟨57, _⟩ => ⟨S131072, .i32⟩
  | .hbm, ⟨58, _⟩ => ⟨S131072, .i32⟩
  | .hbm, ⟨59, _⟩ => ⟨S131072, .i32⟩
  | .hbm, ⟨60, _⟩ => ⟨S131072x1, .i32⟩
  | .hbm, ⟨61, _⟩ => ⟨S131072x512, .f32⟩
  | .hbm, ⟨62, _⟩ => ⟨S_, .i32⟩
  | .hbm, ⟨63, _⟩ => ⟨S131072, .i32⟩
  | .hbm, ⟨64, _⟩ => ⟨S131072, .i1⟩
  | .hbm, ⟨65, _⟩ => ⟨S_, .i32⟩
  | .hbm, ⟨66, _⟩ => ⟨S131072, .i32⟩
  | .hbm, ⟨67, _⟩ => ⟨S131072, .i32⟩
  | .hbm, ⟨68, _⟩ => ⟨S131072, .i32⟩
  | .hbm, ⟨69, _⟩ => ⟨S131072x1, .i32⟩
  | .hbm, ⟨70, _⟩ => ⟨S131072x512, .f32⟩
  | .hbm, ⟨71, _⟩ => ⟨S131072x512, .f32⟩
  | .hbm, ⟨72, _⟩ => ⟨S131072x512, .f32⟩
  | .hbm, ⟨73, _⟩ => ⟨S131072x512, .f32⟩
  | .hbm, ⟨74, _⟩ => ⟨S_, .f32⟩
  | .hbm, ⟨75, _⟩ => ⟨S131072x512, .f32⟩
  | .hbm, ⟨76, _⟩ => ⟨S131072x512, .f32⟩
  | .hbm, ⟨77, _⟩ => ⟨S_, .f32⟩
  | .hbm, ⟨78, _⟩ => ⟨S65536x512, .f32⟩
  | .hbm, ⟨79, _⟩ => ⟨S131072x1, .i32⟩
  | .hbm, ⟨80, _⟩ => ⟨S65536x512, .f32⟩
  | .hbm, ⟨81, _⟩ => ⟨S65536x645, .f32⟩
  | .hbm, ⟨82, _⟩ => ⟨S65536x512, .f32⟩
  | .hbm, ⟨83, _⟩ => ⟨S_, .f32⟩
  | .hbm, ⟨84, _⟩ => ⟨S65536x512, .f32⟩
  | .hbm, ⟨85, _⟩ => ⟨S65536x512, .f32⟩
  | .hbm, ⟨86, _⟩ => ⟨S_, .f32⟩
  | .hbm, ⟨87, _⟩ => ⟨S2048x512, .f32⟩
  | .hbm, ⟨88, _⟩ => ⟨S65536x1, .i32⟩
  | .hbm, ⟨89, _⟩ => ⟨S2048x512, .f32⟩
  | .hbm, ⟨90, _⟩ => ⟨S_, .f32⟩
  | .hbm, ⟨91, _⟩ => ⟨S65536, .f32⟩
  | .hbm, ⟨92, _⟩ => ⟨S_, .f32⟩
  | .hbm, ⟨93, _⟩ => ⟨S2048, .f32⟩
  | .hbm, ⟨94, _⟩ => ⟨S65536x1, .i32⟩
  | .hbm, ⟨95, _⟩ => ⟨S2048, .f32⟩
  | .hbm, ⟨96, _⟩ => ⟨S2048x1, .f32⟩
  | .hbm, ⟨97, _⟩ => ⟨S2048x512, .f32⟩
  | .hbm, ⟨98, _⟩ => ⟨S2048x512, .f32⟩
  | .hbm, ⟨99, _⟩ => ⟨S2048x512, .f32⟩
  | .hbm, ⟨100, _⟩ => ⟨S1x512, .f32⟩
  | .hbm, ⟨101, _⟩ => ⟨S2048x512, .f32⟩
  | .hbm, ⟨102, _⟩ => ⟨S2048x512, .f32⟩
  | .hbm, ⟨103, _⟩ => ⟨S_, .f32⟩
  | .hbm, ⟨104, _⟩ => ⟨S2048x512, .f32⟩
  | .hbm, ⟨105, _⟩ => ⟨S2048x512, .f32⟩
  | .hbm, ⟨106, _⟩ => ⟨S2048x512, .f32⟩
  | .hbm, ⟨107, _⟩ => ⟨S1x512, .f32⟩
  | .hbm, ⟨108, _⟩ => ⟨S2048x512, .f32⟩
  | .hbm, ⟨109, _⟩ => ⟨S2048x512, .f32⟩
  | .hbm, ⟨110, _⟩ => ⟨S_, .f32⟩
  | .hbm, ⟨111, _⟩ => ⟨S2048x512, .f32⟩
  | .hbm, ⟨112, _⟩ => ⟨S2048x512, .f32⟩
  | .hbm, ⟨113, _⟩ => ⟨S2048x512, .f32⟩
  | .hbm, ⟨114, _⟩ => ⟨S1x512, .f32⟩
  | .hbm, ⟨115, _⟩ => ⟨S2048x512, .f32⟩
  | .hbm, ⟨116, _⟩ => ⟨S2048x512, .f32⟩
  | .hbm, ⟨117, _⟩ => ⟨S_, .f32⟩
  | .hbm, ⟨118, _⟩ => ⟨S2048x512, .f32⟩
  | .hbm, ⟨119, _⟩ => ⟨S2048x512, .f32⟩
  | .hbm, ⟨120, _⟩ => ⟨S_, .f32⟩
  | .hbm, ⟨121, _⟩ => ⟨S2048x512, .f32⟩
  | .hbm, ⟨122, _⟩ => ⟨S2048x512, .f32⟩
  | .hbm, ⟨123, _⟩ => ⟨S2048x1, .f32⟩
  | .hbm, ⟨124, _⟩ => ⟨S1x1, .f32⟩
  | .hbm, ⟨125, _⟩ => ⟨S2048x1, .f32⟩
  | .hbm, ⟨126, _⟩ => ⟨S2048x1, .f32⟩
  | _, _ => ⟨S65536x133, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_call0_cst : Ref sig .tc := ⟨.hbm, 18, rfl⟩
abbrev main_call0_v0 : Ref sig .tc := ⟨.hbm, 19, rfl⟩
abbrev main_v1 : Ref sig .tc := ⟨.hbm, 20, rfl⟩
abbrev main_cst : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_c : Ref sig .tc := ⟨.hbm, 25, rfl⟩
abbrev main_v5 : Ref sig .tc := ⟨.hbm, 26, rfl⟩
abbrev main_v6 : Ref sig .tc := ⟨.hbm, 27, rfl⟩
abbrev main_c_0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c_1 : Ref sig .tc := ⟨.hbm, 34, rfl⟩
abbrev main_v12 : Ref sig .tc := ⟨.hbm, 35, rfl⟩
abbrev main_v13 : Ref sig .tc := ⟨.hbm, 36, rfl⟩
abbrev main_c_2 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_call1_cst : Ref sig .tc := ⟨.hbm, 46, rfl⟩
abbrev main_call1_v0 : Ref sig .tc := ⟨.hbm, 47, rfl⟩
abbrev main_v22 : Ref sig .tc := ⟨.hbm, 48, rfl⟩
abbrev main_cst_3 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c_4 : Ref sig .tc := ⟨.hbm, 53, rfl⟩
abbrev main_v26 : Ref sig .tc := ⟨.hbm, 54, rfl⟩
abbrev main_v27 : Ref sig .tc := ⟨.hbm, 55, rfl⟩
abbrev main_c_5 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_6 : Ref sig .tc := ⟨.hbm, 62, rfl⟩
abbrev main_v33 : Ref sig .tc := ⟨.hbm, 63, rfl⟩
abbrev main_v34 : Ref sig .tc := ⟨.hbm, 64, rfl⟩
abbrev main_c_7 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_call2_cst : Ref sig .tc := ⟨.hbm, 74, rfl⟩
abbrev main_call2_v0 : Ref sig .tc := ⟨.hbm, 75, rfl⟩
abbrev main_v43 : Ref sig .tc := ⟨.hbm, 76, rfl⟩
abbrev main_cst_8 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_call3_cst : Ref sig .tc := ⟨.hbm, 83, rfl⟩
abbrev main_call3_v0 : Ref sig .tc := ⟨.hbm, 84, rfl⟩
abbrev main_v49 : Ref sig .tc := ⟨.hbm, 85, rfl⟩
abbrev main_cst_9 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_10 : Ref sig .tc := ⟨.hbm, 90, rfl⟩
abbrev main_v53 : Ref sig .tc := ⟨.hbm, 91, rfl⟩
abbrev main_cst_11 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_call4_cst : Ref sig .tc := ⟨.hbm, 103, rfl⟩
abbrev main_call4_v0 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_call5_cst : Ref sig .tc := ⟨.hbm, 110, rfl⟩
abbrev main_call5_v0 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_call6_cst : Ref sig .tc := ⟨.hbm, 117, rfl⟩
abbrev main_call6_v0 : Ref sig .tc := ⟨.hbm, 118, rfl⟩
abbrev main_v74 : Ref sig .tc := ⟨.hbm, 119, rfl⟩
abbrev main_call7_cst : Ref sig .tc := ⟨.hbm, 120, rfl⟩
abbrev main_call7_v0 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩

abbrev nD : Nat := 1
abbrev τ : Topo := Topo.v7x

variable {F : FTy → Type} [FloatOps F]

class Facts₀ : Prop where
  bcast_S_S131072x512 : S_.BroadcastsInDim S131072x512 (![] : Fin 0 → Fin S131072x512.rank)
  bcast_S_S65536x512 : S_.BroadcastsInDim S65536x512 (![] : Fin 0 → Fin S65536x512.rank)
  bcast_S131072_S131072x1_0 : S131072.BroadcastsInDim S131072x1 (![0] : Fin 1 → Fin S131072x1.rank)
  bcast_S_S131072 : S_.BroadcastsInDim S131072 (![] : Fin 0 → Fin S131072.rank)
  concatenates_S65536x133_S65536x512_S65536x645_d1 : Shape.Concatenates [S65536x133, S65536x512] S65536x645 1
  bcast_S_S2048x512 : S_.BroadcastsInDim S2048x512 (![] : Fin 0 → Fin S2048x512.rank)
  bcast_S65536_S65536x1_0 : S65536.BroadcastsInDim S65536x1 (![0] : Fin 1 → Fin S65536x1.rank)
  bcast_S_S65536 : S_.BroadcastsInDim S65536 (![] : Fin 0 → Fin S65536.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x512_0_1 : S2048x1.BroadcastsInDim S2048x512 (![0, 1] : Fin 2 → Fin S2048x512.rank)
  bcast_S512_S1x512_1 : S512.BroadcastsInDim S1x512 (![1] : Fin 1 → Fin S1x512.rank)
  bcast_S1x512_S2048x512_0_1 : S1x512.BroadcastsInDim S2048x512 (![0, 1] : Fin 2 → Fin S2048x512.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  dot_S131072x147_S147x512_S131072x512_1_0_0_1_n_n_wf : DotDims.WF S131072x147 S147x512 S131072x512 [1] [0] [0] [1] [] []
  scatter_S65536x512_S131072x1_S131072x512_1_0_0_1_wf : ScatterDims.WF S65536x512 S131072x1 S131072x512 [1] [0] [0] 1
  gather_S65536x512_S131072x1_S131072x512_1_0_n_n_0_1_1512_wf : GatherDims.WF S65536x512 S131072x1 S131072x512 [1] [0] [] [0] [] 1 ![1, 512]
  gather_S131072x512_S131072x1_S131072x512_1_0_n_n_0_1_1512_wf : GatherDims.WF S131072x512 S131072x1 S131072x512 [1] [0] [] [0] [] 1 ![1, 512]
  dot_S131072x512_S512x512_S131072x512_1_0_0_1_n_n_wf : DotDims.WF S131072x512 S512x512 S131072x512 [1] [0] [0] [1] [] []
  dot_S65536x645_S645x512_S65536x512_1_0_0_1_n_n_wf : DotDims.WF S65536x645 S645x512 S65536x512 [1] [0] [0] [1] [] []
  scatter_S2048x512_S65536x1_S65536x512_1_0_0_1_wf : ScatterDims.WF S2048x512 S65536x1 S65536x512 [1] [0] [0] 1
  scatter_S2048_S65536x1_S65536_n_0_0_1_wf : ScatterDims.WF S2048 S65536x1 S65536 [] [0] [0] 1
  dot_S2048x512_S512x512_S2048x512_1_0_0_1_n_n_wf : DotDims.WF S2048x512 S512x512 S2048x512 [1] [0] [0] [1] [] []
  dot_S2048x512_S512x1_S2048x1_1_0_0_1_n_n_wf : DotDims.WF S2048x512 S512x1 S2048x1 [1] [0] [0] [1] [] []

variable [Facts₀]

def dot_S131072x147_S147x512_S131072x512_1_0_0_1_n_n : DotDims S131072x147 S147x512 S131072x512 where
  lhsContracting := [1]
  rhsContracting := [0]
  lhsNonContracting := [0]
  rhsNonContracting := [1]
  lhsBatch := []
  rhsBatch := []
  wf := dot_S131072x147_S147x512_S131072x512_1_0_0_1_n_n_wf
def scatter_S65536x512_S131072x1_S131072x512_1_0_0_1 : ScatterDims S65536x512 S131072x1 S131072x512 where
  updateWindowDims := [1]
  insertedWindowDims := [0]
  scatterDimsToOperandDims := [0]
  indexVectorDim := 1
  wf := scatter_S65536x512_S131072x1_S131072x512_1_0_0_1_wf
def gather_S65536x512_S131072x1_S131072x512_1_0_n_n_0_1_1512 : GatherDims S65536x512 S131072x1 S131072x512 where
  offsetDims := [1]
  collapsedSliceDims := [0]
  operandBatchingDims := []
  startIndicesBatchingDims := []
  startIndexMap := [0]
  indexVectorDim := 1
  sliceSizes := ![1, 512]
  wf := gather_S65536x512_S131072x1_S131072x512_1_0_n_n_0_1_1512_wf
def gather_S131072x512_S131072x1_S131072x512_1_0_n_n_0_1_1512 : GatherDims S131072x512 S131072x1 S131072x512 where
  offsetDims := [1]
  collapsedSliceDims := [0]
  operandBatchingDims := []
  startIndicesBatchingDims := []
  startIndexMap := [0]
  indexVectorDim := 1
  sliceSizes := ![1, 512]
  wf := gather_S131072x512_S131072x1_S131072x512_1_0_n_n_0_1_1512_wf
def dot_S131072x512_S512x512_S131072x512_1_0_0_1_n_n : DotDims S131072x512 S512x512 S131072x512 where
  lhsContracting := [1]
  rhsContracting := [0]
  lhsNonContracting := [0]
  rhsNonContracting := [1]
  lhsBatch := []
  rhsBatch := []
  wf := dot_S131072x512_S512x512_S131072x512_1_0_0_1_n_n_wf
def dot_S65536x645_S645x512_S65536x512_1_0_0_1_n_n : DotDims S65536x645 S645x512 S65536x512 where
  lhsContracting := [1]
  rhsContracting := [0]
  lhsNonContracting := [0]
  rhsNonContracting := [1]
  lhsBatch := []
  rhsBatch := []
  wf := dot_S65536x645_S645x512_S65536x512_1_0_0_1_n_n_wf
def scatter_S2048x512_S65536x1_S65536x512_1_0_0_1 : ScatterDims S2048x512 S65536x1 S65536x512 where
  updateWindowDims := [1]
  insertedWindowDims := [0]
  scatterDimsToOperandDims := [0]
  indexVectorDim := 1
  wf := scatter_S2048x512_S65536x1_S65536x512_1_0_0_1_wf
def scatter_S2048_S65536x1_S65536_n_0_0_1 : ScatterDims S2048 S65536x1 S65536 where
  updateWindowDims := []
  insertedWindowDims := [0]
  scatterDimsToOperandDims := [0]
  indexVectorDim := 1
  wf := scatter_S2048_S65536x1_S65536_n_0_0_1_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x1_S2048x1_1_0_0_1_n_n : DotDims S2048x512 S512x1 S2048x1 where
  lhsContracting := [1]
  rhsContracting := [0]
  lhsNonContracting := [0]
  rhsNonContracting := [1]
  lhsBatch := []
  rhsBatch := []
  wf := dot_S2048x512_S512x1_S2048x1_1_0_0_1_n_n_wf

class Facts : Prop extends Facts₀ where

variable [Facts]
-- ==== Proof.KernelRun.lean ====
/-
  The idealized kernel's run, read at every buffer.

  @main is five kernel regions among four stretches of host operations.  The buffer contents at the nine segment
  boundaries are a fold from the launch memory: a stretch of host operations applies them in order, a region puts each
  of its output arrays at what its write-backs leave and keeps every other buffer.  Every weakly fair execution
  terminates, and at the end every buffer that outlives a region holds the last boundary's contents.  In particular
  the result array is the last region's output, and it is read here beside the arguments.
-/
import proofs.«130696_j36455682408490_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and in every final state each buffer that outlives a region
    holds the contents of the last segment boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The same run read at the result array and the arguments: the result array is the last region's output as its
    write-backs leave it; no host operation and no region writes an argument. -/
theorem run_result : θ_run defs (onTc (τ := τ) (main (F := F))) ⟨m, fun _ => 0, ρ⟩ (fun r => ∀ c : Dev nD,
      r.2.mem ((c.tc : Thread nD τ).loc main_v59) = (dat4 (V8 m ρ) c).arrAt 9 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
      ⟨(h c _ (mem_uc main_v59 (by decide))).trans (W9_arr m ρ c 9),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c)⟩)
    (run_all m ρ)

end Cert.KernelIdeal.WholeRun

end
-- ==== Proof.KernelKept.lean ====
/-
  The arguments through the fold.

  No host operation and no region of @main writes an argument array: a stretch of host operations writes its own result
  buffers only, and a region writes its output arrays only, reading an argument through an input window or not at
  all.  So at every segment boundary an argument array holds its launch contents.  One fact per argument and boundary,
  each from the boundary before it.
-/
import proofs.«130696_j36455682408490_1_alg».proof.Proof.Gen.KernelIdeal.Frame
import Idealize.ShloMosaic.Lib.StableHlo.Run

set_option maxRecDepth 16384

noncomputable section

namespace Cert.KernelIdeal.Kept

open Cert.KernelIdeal Cert.KernelIdeal.Gen
open Idealize.ShloMosaic Idealize.ShloMosaic.TcCoe Idealize.ShloMosaic.StableHlo Idealize.SL.Sem
open Idealize.ShloMosaic.Pipeline (Dat)

variable {F : FTy → Type} [FloatOps F]
variable (m : (ℓ : Loc nD τ sig) → Buf (Elt F) ℓ) (ρ : Dev nD → PrngReg) (c : Dev nD)

theorem at1_arg13 : W1 m ρ c (Proc.devRef .tc main_arg13) = m ((c : Thread nD τ).loc main_arg13) :=
  (W1_of_ne m ρ c main_arg13 (by decide)).trans rfl
theorem at2_arg13 : W2 m ρ c (Proc.devRef .tc main_arg13) = m ((c : Thread nD τ).loc main_arg13) := by
  show StableHlo.after hostOps1 (W1 m ρ c) (Proc.devRef .tc main_arg13) = _
  after_results
  exact at1_arg13 m ρ c
theorem at3_arg13 : W3 m ρ c (Proc.devRef .tc main_arg13) = m ((c : Thread nD τ).loc main_arg13) :=
  (W3_of_ne m ρ c main_arg13 (by decide)).trans (at2_arg13 m ρ c)

theorem at1_arg14 : W1 m ρ c (Proc.devRef .tc main_arg14) = m ((c : Thread nD τ).loc main_arg14) :=
  (W1_of_ne m ρ c main_arg14 (by decide)).trans rfl
theorem at2_arg14 : W2 m ρ c (Proc.devRef .tc main_arg14) = m ((c : Thread nD τ).loc main_arg14) := by
  show StableHlo.after hostOps1 (W1 m ρ c) (Proc.devRef .tc main_arg14) = _
  after_results
  exact at1_arg14 m ρ c
theorem at3_arg14 : W3 m ρ c (Proc.devRef .tc main_arg14) = m ((c : Thread nD τ).loc main_arg14) :=
  (W3_of_ne m ρ c main_arg14 (by decide)).trans (at2_arg14 m ρ c)
theorem at4_arg14 : W4 m ρ c (Proc.devRef .tc main_arg14) = m ((c : Thread nD τ).loc main_arg14) := by
  show StableHlo.after hostOps2 (W3 m ρ c) (Proc.devRef .tc main_arg14) = _
  after_results
  exact at3_arg14 m ρ c
theorem at5_arg14 : W5 m ρ c (Proc.devRef .tc main_arg14) = m ((c : Thread nD τ).loc main_arg14) :=
  (W5_of_ne m ρ c main_arg14 (by decide)).trans (at4_arg14 m ρ c)

theorem at1_arg15 : W1 m ρ c (Proc.devRef .tc main_arg15) = m ((c : Thread nD τ).loc main_arg15) :=
  (W1_of_ne m ρ c main_arg15 (by decide)).trans rfl
theorem at2_arg15 : W2 m ρ c (Proc.devRef .tc main_arg15) = m ((c : Thread nD τ).loc main_arg15) := by
  show StableHlo.after hostOps1 (W1 m ρ c) (Proc.devRef .tc main_arg15) = _
  after_results
  exact at1_arg15 m ρ c
theorem at3_arg15 : W3 m ρ c (Proc.devRef .tc main_arg15) = m ((c : Thread nD τ).loc main_arg15) :=
  (W3_of_ne m ρ c main_arg15 (by decide)).trans (at2_arg15 m ρ c)

theorem at1_arg16 : W1 m ρ c (Proc.devRef .tc main_arg16) = m ((c : Thread nD τ).loc main_arg16) :=
  (W1_of_ne m ρ c main_arg16 (by decide)).trans rfl
theorem at2_arg16 : W2 m ρ c (Proc.devRef .tc main_arg16) = m ((c : Thread nD τ).loc main_arg16) := by
  show StableHlo.after hostOps1 (W1 m ρ c) (Proc.devRef .tc main_arg16) = _
  after_results
  exact at1_arg16 m ρ c
theorem at3_arg16 : W3 m ρ c (Proc.devRef .tc main_arg16) = m ((c : Thread nD τ).loc main_arg16) :=
  (W3_of_ne m ρ c main_arg16 (by decide)).trans (at2_arg16 m ρ c)
theorem at4_arg16 : W4 m ρ c (Proc.devRef .tc main_arg16) = m ((c : Thread nD τ).loc main_arg16) := by
  show StableHlo.after hostOps2 (W3 m ρ c) (Proc.devRef .tc main_arg16) = _
  after_results
  exact at3_arg16 m ρ c
theorem at5_arg16 : W5 m ρ c (Proc.devRef .tc main_arg16) = m ((c : Thread nD τ).loc main_arg16) :=
  (W5_of_ne m ρ c main_arg16 (by decide)).trans (at4_arg16 m ρ c)
theorem at6_arg16 : W6 m ρ c (Proc.devRef .tc main_arg16) = m ((c : Thread nD τ).loc main_arg16) := by
  show StableHlo.after hostOps3 (W5 m ρ c) (Proc.devRef .tc main_arg16) = _
  after_results
  exact at5_arg16 m ρ c
theorem at7_arg16 : W7 m ρ c (Proc.devRef .tc main_arg16) = m ((c : Thread nD τ).loc main_arg16) :=
  (W7_of_ne m ρ c main_arg16 (by decide)).trans (at6_arg16 m ρ c)

theorem at1_arg4 : W1 m ρ c (Proc.devRef .tc main_arg4) = m ((c : Thread nD τ).loc main_arg4) :=
  (W1_of_ne m ρ c main_arg4 (by decide)).trans rfl
theorem at2_arg4 : W2 m ρ c (Proc.devRef .tc main_arg4) = m ((c : Thread nD τ).loc main_arg4) := by
  show StableHlo.after hostOps1 (W1 m ρ c) (Proc.devRef .tc main_arg4) = _
  after_results
  exact at1_arg4 m ρ c
theorem at3_arg4 : W3 m ρ c (Proc.devRef .tc main_arg4) = m ((c : Thread nD τ).loc main_arg4) :=
  (W3_of_ne m ρ c main_arg4 (by decide)).trans (at2_arg4 m ρ c)
theorem at4_arg4 : W4 m ρ c (Proc.devRef .tc main_arg4) = m ((c : Thread nD τ).loc main_arg4) := by
  show StableHlo.after hostOps2 (W3 m ρ c) (Proc.devRef .tc main_arg4) = _
  after_results
  exact at3_arg4 m ρ c
theorem at5_arg4 : W5 m ρ c (Proc.devRef .tc main_arg4) = m ((c : Thread nD τ).loc main_arg4) :=
  (W5_of_ne m ρ c main_arg4 (by decide)).trans (at4_arg4 m ρ c)

theorem at1_arg6 : W1 m ρ c (Proc.devRef .tc main_arg6) = m ((c : Thread nD τ).loc main_arg6) :=
  (W1_of_ne m ρ c main_arg6 (by decide)).trans rfl
theorem at2_arg6 : W2 m ρ c (Proc.devRef .tc main_arg6) = m ((c : Thread nD τ).loc main_arg6) := by
  show StableHlo.after hostOps1 (W1 m ρ c) (Proc.devRef .tc main_arg6) = _
  after_results
  exact at1_arg6 m ρ c
theorem at3_arg6 : W3 m ρ c (Proc.devRef .tc main_arg6) = m ((c : Thread nD τ).loc main_arg6) :=
  (W3_of_ne m ρ c main_arg6 (by decide)).trans (at2_arg6 m ρ c)
theorem at4_arg6 : W4 m ρ c (Proc.devRef .tc main_arg6) = m ((c : Thread nD τ).loc main_arg6) := by
  show StableHlo.after hostOps2 (W3 m ρ c) (Proc.devRef .tc main_arg6) = _
  after_results
  exact at3_arg6 m ρ c
theorem at5_arg6 : W5 m ρ c (Proc.devRef .tc main_arg6) = m ((c : Thread nD τ).loc main_arg6) :=
  (W5_of_ne m ρ c main_arg6 (by decide)).trans (at4_arg6 m ρ c)
theorem at6_arg6 : W6 m ρ c (Proc.devRef .tc main_arg6) = m ((c : Thread nD τ).loc main_arg6) := by
  show StableHlo.after hostOps3 (W5 m ρ c) (Proc.devRef .tc main_arg6) = _
  after_results
  exact at5_arg6 m ρ c
theorem at7_arg6 : W7 m ρ c (Proc.devRef .tc main_arg6) = m ((c : Thread nD τ).loc main_arg6) :=
  (W7_of_ne m ρ c main_arg6 (by decide)).trans (at6_arg6 m ρ c)

theorem at1_arg8 : W1 m ρ c (Proc.devRef .tc main_arg8) = m ((c : Thread nD τ).loc main_arg8) :=
  (W1_of_ne m ρ c main_arg8 (by decide)).trans rfl
theorem at2_arg8 : W2 m ρ c (Proc.devRef .tc main_arg8) = m ((c : Thread nD τ).loc main_arg8) := by
  show StableHlo.after hostOps1 (W1 m ρ c) (Proc.devRef .tc main_arg8) = _
  after_results
  exact at1_arg8 m ρ c
theorem at3_arg8 : W3 m ρ c (Proc.devRef .tc main_arg8) = m ((c : Thread nD τ).loc main_arg8) :=
  (W3_of_ne m ρ c main_arg8 (by decide)).trans (at2_arg8 m ρ c)
theorem at4_arg8 : W4 m ρ c (Proc.devRef .tc main_arg8) = m ((c : Thread nD τ).loc main_arg8) := by
  show StableHlo.after hostOps2 (W3 m ρ c) (Proc.devRef .tc main_arg8) = _
  after_results
  exact at3_arg8 m ρ c
theorem at5_arg8 : W5 m ρ c (Proc.devRef .tc main_arg8) = m ((c : Thread nD τ).loc main_arg8) :=
  (W5_of_ne m ρ c main_arg8 (by decide)).trans (at4_arg8 m ρ c)
theorem at6_arg8 : W6 m ρ c (Proc.devRef .tc main_arg8) = m ((c : Thread nD τ).loc main_arg8) := by
  show StableHlo.after hostOps3 (W5 m ρ c) (Proc.devRef .tc main_arg8) = _
  after_results
  exact at5_arg8 m ρ c
theorem at7_arg8 : W7 m ρ c (Proc.devRef .tc main_arg8) = m ((c : Thread nD τ).loc main_arg8) :=
  (W7_of_ne m ρ c main_arg8 (by decide)).trans (at6_arg8 m ρ c)

theorem at1_arg10 : W1 m ρ c (Proc.devRef .tc main_arg10) = m ((c : Thread nD τ).loc main_arg10) :=
  (W1_of_ne m ρ c main_arg10 (by decide)).trans rfl
theorem at2_arg10 : W2 m ρ c (Proc.devRef .tc main_arg10) = m ((c : Thread nD τ).loc main_arg10) := by
  show StableHlo.after hostOps1 (W1 m ρ c) (Proc.devRef .tc main_arg10) = _
  after_results
  exact at1_arg10 m ρ c
theorem at3_arg10 : W3 m ρ c (Proc.devRef .tc main_arg10) = m ((c : Thread nD τ).loc main_arg10) :=
  (W3_of_ne m ρ c main_arg10 (by decide)).trans (at2_arg10 m ρ c)
theorem at4_arg10 : W4 m ρ c (Proc.devRef .tc main_arg10) = m ((c : Thread nD τ).loc main_arg10) := by
  show StableHlo.after hostOps2 (W3 m ρ c) (Proc.devRef .tc main_arg10) = _
  after_results
  exact at3_arg10 m ρ c
theorem at5_arg10 : W5 m ρ c (Proc.devRef .tc main_arg10) = m ((c : Thread nD τ).loc main_arg10) :=
  (W5_of_ne m ρ c main_arg10 (by decide)).trans (at4_arg10 m ρ c)
theorem at6_arg10 : W6 m ρ c (Proc.devRef .tc main_arg10) = m ((c : Thread nD τ).loc main_arg10) := by
  show StableHlo.after hostOps3 (W5 m ρ c) (Proc.devRef .tc main_arg10) = _
  after_results
  exact at5_arg10 m ρ c
theorem at7_arg10 : W7 m ρ c (Proc.devRef .tc main_arg10) = m ((c : Thread nD τ).loc main_arg10) :=
  (W7_of_ne m ρ c main_arg10 (by decide)).trans (at6_arg10 m ρ c)

theorem at1_arg12 : W1 m ρ c (Proc.devRef .tc main_arg12) = m ((c : Thread nD τ).loc main_arg12) :=
  (W1_of_ne m ρ c main_arg12 (by decide)).trans rfl
theorem at2_arg12 : W2 m ρ c (Proc.devRef .tc main_arg12) = m ((c : Thread nD τ).loc main_arg12) := by
  show StableHlo.after hostOps1 (W1 m ρ c) (Proc.devRef .tc main_arg12) = _
  after_results
  exact at1_arg12 m ρ c
theorem at3_arg12 : W3 m ρ c (Proc.devRef .tc main_arg12) = m ((c : Thread nD τ).loc main_arg12) :=
  (W3_of_ne m ρ c main_arg12 (by decide)).trans (at2_arg12 m ρ c)
theorem at4_arg12 : W4 m ρ c (Proc.devRef .tc main_arg12) = m ((c : Thread nD τ).loc main_arg12) := by
  show StableHlo.after hostOps2 (W3 m ρ c) (Proc.devRef .tc main_arg12) = _
  after_results
  exact at3_arg12 m ρ c
theorem at5_arg12 : W5 m ρ c (Proc.devRef .tc main_arg12) = m ((c : Thread nD τ).loc main_arg12) :=
  (W5_of_ne m ρ c main_arg12 (by decide)).trans (at4_arg12 m ρ c)
theorem at6_arg12 : W6 m ρ c (Proc.devRef .tc main_arg12) = m ((c : Thread nD τ).loc main_arg12) := by
  show StableHlo.after hostOps3 (W5 m ρ c) (Proc.devRef .tc main_arg12) = _
  after_results
  exact at5_arg12 m ρ c
theorem at7_arg12 : W7 m ρ c (Proc.devRef .tc main_arg12) = m ((c : Thread nD τ).loc main_arg12) :=
  (W7_of_ne m ρ c main_arg12 (by decide)).trans (at6_arg12 m ρ c)

theorem at1_arg3 : W1 m ρ c (Proc.devRef .tc main_arg3) = m ((c : Thread nD τ).loc main_arg3) :=
  (W1_of_ne m ρ c main_arg3 (by decide)).trans rfl
theorem at2_arg3 : W2 m ρ c (Proc.devRef .tc main_arg3) = m ((c : Thread nD τ).loc main_arg3) := by
  show StableHlo.after hostOps1 (W1 m ρ c) (Proc.devRef .tc main_arg3) = _
  after_results
  exact at1_arg3 m ρ c
theorem at3_arg3 : W3 m ρ c (Proc.devRef .tc main_arg3) = m ((c : Thread nD τ).loc main_arg3) :=
  (W3_arr m ρ c 1).trans (((dat1 (V2 m ρ) c).arrAt_in 1 rfl _).trans ((A_eq1 (V2 m ρ) c 1).trans (at2_arg3 m ρ c)))
theorem at4_arg3 : W4 m ρ c (Proc.devRef .tc main_arg3) = m ((c : Thread nD τ).loc main_arg3) := by
  show StableHlo.after hostOps2 (W3 m ρ c) (Proc.devRef .tc main_arg3) = _
  after_results
  exact at3_arg3 m ρ c

theorem at1_arg0 : W1 m ρ c (Proc.devRef .tc main_arg0) = m ((c : Thread nD τ).loc main_arg0) :=
  (W1_of_ne m ρ c main_arg0 (by decide)).trans rfl
theorem at2_arg0 : W2 m ρ c (Proc.devRef .tc main_arg0) = m ((c : Thread nD τ).loc main_arg0) := by
  show StableHlo.after hostOps1 (W1 m ρ c) (Proc.devRef .tc main_arg0) = _
  after_results
  exact at1_arg0 m ρ c
theorem at3_arg0 : W3 m ρ c (Proc.devRef .tc main_arg0) = m ((c : Thread nD τ).loc main_arg0) :=
  (W3_of_ne m ρ c main_arg0 (by decide)).trans (at2_arg0 m ρ c)
theorem at4_arg0 : W4 m ρ c (Proc.devRef .tc main_arg0) = m ((c : Thread nD τ).loc main_arg0) := by
  show StableHlo.after hostOps2 (W3 m ρ c) (Proc.devRef .tc main_arg0) = _
  after_results
  exact at3_arg0 m ρ c
theorem at5_arg0 : W5 m ρ c (Proc.devRef .tc main_arg0) = m ((c : Thread nD τ).loc main_arg0) :=
  (W5_of_ne m ρ c main_arg0 (by decide)).trans (at4_arg0 m ρ c)
theorem at6_arg0 : W6 m ρ c (Proc.devRef .tc main_arg0) = m ((c : Thread nD τ).loc main_arg0) := by
  show StableHlo.after hostOps3 (W5 m ρ c) (Proc.devRef .tc main_arg0) = _
  after_results
  exact at5_arg0 m ρ c

theorem at1_arg5 : W1 m ρ c (Proc.devRef .tc main_arg5) = m ((c : Thread nD τ).loc main_arg5) :=
  (W1_of_ne m ρ c main_arg5 (by decide)).trans rfl
theorem at2_arg5 : W2 m ρ c (Proc.devRef .tc main_arg5) = m ((c : Thread nD τ).loc main_arg5) := by
  show StableHlo.after hostOps1 (W1 m ρ c) (Proc.devRef .tc main_arg5) = _
  after_results
  exact at1_arg5 m ρ c
theorem at3_arg5 : W3 m ρ c (Proc.devRef .tc main_arg5) = m ((c : Thread nD τ).loc main_arg5) :=
  (W3_of_ne m ρ c main_arg5 (by decide)).trans (at2_arg5 m ρ c)
theorem at4_arg5 : W4 m ρ c (Proc.devRef .tc main_arg5) = m ((c : Thread nD τ).loc main_arg5) := by
  show StableHlo.after hostOps2 (W3 m ρ c) (Proc.devRef .tc main_arg5) = _
  after_results
  exact at3_arg5 m ρ c
theorem at5_arg5 : W5 m ρ c (Proc.devRef .tc main_arg5) = m ((c : Thread nD τ).loc main_arg5) :=
  (W5_of_ne m ρ c main_arg5 (by decide)).trans (at4_arg5 m ρ c)
theorem at6_arg5 : W6 m ρ c (Proc.devRef .tc main_arg5) = m ((c : Thread nD τ).loc main_arg5) := by
  show StableHlo.after hostOps3 (W5 m ρ c) (Proc.devRef .tc main_arg5) = _
  after_results
  exact at5_arg5 m ρ c
theorem at7_arg5 : W7 m ρ c (Proc.devRef .tc main_arg5) = m ((c : Thread nD τ).loc main_arg5) :=
  (W7_of_ne m ρ c main_arg5 (by decide)).trans (at6_arg5 m ρ c)
theorem at8_arg5 : W8 m ρ c (Proc.devRef .tc main_arg5) = m ((c : Thread nD τ).loc main_arg5) := by
  show StableHlo.after hostOps4 (W7 m ρ c) (Proc.devRef .tc main_arg5) = _
  after_results
  exact at7_arg5 m ρ c

theorem at1_arg7 : W1 m ρ c (Proc.devRef .tc main_arg7) = m ((c : Thread nD τ).loc main_arg7) :=
  (W1_of_ne m ρ c main_arg7 (by decide)).trans rfl
theorem at2_arg7 : W2 m ρ c (Proc.devRef .tc main_arg7) = m ((c : Thread nD τ).loc main_arg7) := by
  show StableHlo.after hostOps1 (W1 m ρ c) (Proc.devRef .tc main_arg7) = _
  after_results
  exact at1_arg7 m ρ c
theorem at3_arg7 : W3 m ρ c (Proc.devRef .tc main_arg7) = m ((c : Thread nD τ).loc main_arg7) :=
  (W3_of_ne m ρ c main_arg7 (by decide)).trans (at2_arg7 m ρ c)
theorem at4_arg7 : W4 m ρ c (Proc.devRef .tc main_arg7) = m ((c : Thread nD τ).loc main_arg7) := by
  show StableHlo.after hostOps2 (W3 m ρ c) (Proc.devRef .tc main_arg7) = _
  after_results
  exact at3_arg7 m ρ c
theorem at5_arg7 : W5 m ρ c (Proc.devRef .tc main_arg7) = m ((c : Thread nD τ).loc main_arg7) :=
  (W5_of_ne m ρ c main_arg7 (by decide)).trans (at4_arg7 m ρ c)
theorem at6_arg7 : W6 m ρ c (Proc.devRef .tc main_arg7) = m ((c : Thread nD τ).loc main_arg7) := by
  show StableHlo.after hostOps3 (W5 m ρ c) (Proc.devRef .tc main_arg7) = _
  after_results
  exact at5_arg7 m ρ c
theorem at7_arg7 : W7 m ρ c (Proc.devRef .tc main_arg7) = m ((c : Thread nD τ).loc main_arg7) :=
  (W7_of_ne m ρ c main_arg7 (by decide)).trans (at6_arg7 m ρ c)
theorem at8_arg7 : W8 m ρ c (Proc.devRef .tc main_arg7) = m ((c : Thread nD τ).loc main_arg7) := by
  show StableHlo.after hostOps4 (W7 m ρ c) (Proc.devRef .tc main_arg7) = _
  after_results
  exact at7_arg7 m ρ c

theorem at1_arg9 : W1 m ρ c (Proc.devRef .tc main_arg9) = m ((c : Thread nD τ).loc main_arg9) :=
  (W1_of_ne m ρ c main_arg9 (by decide)).trans rfl
theorem at2_arg9 : W2 m ρ c (Proc.devRef .tc main_arg9) = m ((c : Thread nD τ).loc main_arg9) := by
  show StableHlo.after hostOps1 (W1 m ρ c) (Proc.devRef .tc main_arg9) = _
  after_results
  exact at1_arg9 m ρ c
theorem at3_arg9 : W3 m ρ c (Proc.devRef .tc main_arg9) = m ((c : Thread nD τ).loc main_arg9) :=
  (W3_of_ne m ρ c main_arg9 (by decide)).trans (at2_arg9 m ρ c)
theorem at4_arg9 : W4 m ρ c (Proc.devRef .tc main_arg9) = m ((c : Thread nD τ).loc main_arg9) := by
  show StableHlo.after hostOps2 (W3 m ρ c) (Proc.devRef .tc main_arg9) = _
  after_results
  exact at3_arg9 m ρ c
theorem at5_arg9 : W5 m ρ c (Proc.devRef .tc main_arg9) = m ((c : Thread nD τ).loc main_arg9) :=
  (W5_of_ne m ρ c main_arg9 (by decide)).trans (at4_arg9 m ρ c)
theorem at6_arg9 : W6 m ρ c (Proc.devRef .tc main_arg9) = m ((c : Thread nD τ).loc main_arg9) := by
  show StableHlo.after hostOps3 (W5 m ρ c) (Proc.devRef .tc main_arg9) = _
  after_results
  exact at5_arg9 m ρ c
theorem at7_arg9 : W7 m ρ c (Proc.devRef .tc main_arg9) = m ((c : Thread nD τ).loc main_arg9) :=
  (W7_of_ne m ρ c main_arg9 (by decide)).trans (at6_arg9 m ρ c)
theorem at8_arg9 : W8 m ρ c (Proc.devRef .tc main_arg9) = m ((c : Thread nD τ).loc main_arg9) := by
  show StableHlo.after hostOps4 (W7 m ρ c) (Proc.devRef .tc main_arg9) = _
  after_results
  exact at7_arg9 m ρ c

theorem at1_arg11 : W1 m ρ c (Proc.devRef .tc main_arg11) = m ((c : Thread nD τ).loc main_arg11) :=
  (W1_of_ne m ρ c main_arg11 (by decide)).trans rfl
theorem at2_arg11 : W2 m ρ c (Proc.devRef .tc main_arg11) = m ((c : Thread nD τ).loc main_arg11) := by
  show StableHlo.after hostOps1 (W1 m ρ c) (Proc.devRef .tc main_arg11) = _
  after_results
  exact at1_arg11 m ρ c
theorem at3_arg11 : W3 m ρ c (Proc.devRef .tc main_arg11) = m ((c : Thread nD τ).loc main_arg11) :=
  (W3_of_ne m ρ c main_arg11 (by decide)).trans (at2_arg11 m ρ c)
theorem at4_arg11 : W4 m ρ c (Proc.devRef .tc main_arg11) = m ((c : Thread nD τ).loc main_arg11) := by
  show StableHlo.after hostOps2 (W3 m ρ c) (Proc.devRef .tc main_arg11) = _
  after_results
  exact at3_arg11 m ρ c
theorem at5_arg11 : W5 m ρ c (Proc.devRef .tc main_arg11) = m ((c : Thread nD τ).loc main_arg11) :=
  (W5_of_ne m ρ c main_arg11 (by decide)).trans (at4_arg11 m ρ c)
theorem at6_arg11 : W6 m ρ c (Proc.devRef .tc main_arg11) = m ((c : Thread nD τ).loc main_arg11) := by
  show StableHlo.after hostOps3 (W5 m ρ c) (Proc.devRef .tc main_arg11) = _
  after_results
  exact at5_arg11 m ρ c
theorem at7_arg11 : W7 m ρ c (Proc.devRef .tc main_arg11) = m ((c : Thread nD τ).loc main_arg11) :=
  (W7_of_ne m ρ c main_arg11 (by decide)).trans (at6_arg11 m ρ c)
theorem at8_arg11 : W8 m ρ c (Proc.devRef .tc main_arg11) = m ((c : Thread nD τ).loc main_arg11) := by
  show StableHlo.after hostOps4 (W7 m ρ c) (Proc.devRef .tc main_arg11) = _
  after_results
  exact at7_arg11 m ρ c

end Cert.KernelIdeal.Kept

end
-- ==== Proof.KernelGlue.lean ====
/-
  The kernel's host operations between its regions, as named terms.

  A segment sum of the bond messages over their destination atoms (a scatter-add into a zero splat), two row gathers at
  index columns (an index below zero first moved up by the axis' length) and their difference, and the per-molecule
  mean of the atom states (a segment sum divided by the segment sizes).  They are never opened: the reference applies
  the same operations.
-/
import proofs.«130696_j36455682408490_1_alg».proof.Proof.Gen.KernelIdeal

noncomputable section

namespace Cert.KernelIdeal.Glue

open Cert.KernelIdeal Cert.KernelIdeal.Gen Idealize.ShloMosaic Idealize.ShloMosaic.TcCoe

variable {F : FTy → Type} [FloatOps F]

/-- The segment sum of the bond messages over their destination atoms. -/
def toAtoms (dst : (⟨S131072, .i32⟩ : BufTy).Contents (Elt F)) (msg : (⟨S131072x512, .f32⟩ : BufTy).Contents (Elt F)) :
    (⟨S65536x512, .f32⟩ : BufTy).Contents (Elt F) :=
  Host.scatterAdd scatter_S65536x512_S131072x1_S131072x512_1_0_0_1
    (broadcastInDim S65536x512 ![] bcast_S_S65536x512 (constant S_ .f32 0x00000000#32))
    (broadcastInDim S131072x1 ![0] bcast_S131072_S131072x1_0 dst) msg

/-- An index column: an index below zero is first moved up by `n`. -/
def column (n : BitVec 32) (x : (⟨S131072, .i32⟩ : BufTy).Contents (Elt F)) : (⟨S131072x1, .i32⟩ : BufTy).Contents (Elt F) :=
  broadcastInDim S131072x1 ![0] bcast_S131072_S131072x1_0
    ((select : (⟨S131072, .i1⟩ : BufTy).Contents (Elt F) → (⟨S131072, .i32⟩ : BufTy).Contents (Elt F) → (⟨S131072, .i32⟩ : BufTy).Contents (Elt F) → (⟨S131072, .i32⟩ : BufTy).Contents (Elt F))
      ((cmpi .slt : (⟨S131072, .i32⟩ : BufTy).Contents (Elt F) → (⟨S131072, .i32⟩ : BufTy).Contents (Elt F) → (⟨S131072, .i1⟩ : BufTy).Contents (Elt F)) x
        (broadcastInDim S131072 ![] bcast_S_S131072 (constantI S_ 32 0#32)))
      ((addi : (⟨S131072, .i32⟩ : BufTy).Contents (Elt F) → (⟨S131072, .i32⟩ : BufTy).Contents (Elt F) → (⟨S131072, .i32⟩ : BufTy).Contents (Elt F)) x
        (broadcastInDim S131072 ![] bcast_S_S131072 (constantI S_ 32 n)))
      x)

/-- The message into a bond: the sum over the bonds into its source atom, less the reverse bond's message. -/
def incoming (src dst rev : (⟨S131072, .i32⟩ : BufTy).Contents (Elt F)) (msg : (⟨S131072x512, .f32⟩ : BufTy).Contents (Elt F)) :
    (⟨S131072x512, .f32⟩ : BufTy).Contents (Elt F) :=
  subf (Host.gather gather_S65536x512_S131072x1_S131072x512_1_0_n_n_0_1_1512 (toAtoms dst msg) (column 65536#32 src))
    (Host.gather gather_S131072x512_S131072x1_S131072x512_1_0_n_n_0_1_1512 msg (column 131072#32 rev))

/-- The per-molecule mean of the atom states: the segment sum over the molecules divided by the segment sizes. -/
def molMean (mol : (⟨S65536, .i32⟩ : BufTy).Contents (Elt F)) (h : (⟨S65536x512, .f32⟩ : BufTy).Contents (Elt F)) :
    (⟨S2048x512, .f32⟩ : BufTy).Contents (Elt F) :=
  Host.divf
    (Host.scatterAdd scatter_S2048x512_S65536x1_S65536x512_1_0_0_1
      (broadcastInDim S2048x512 ![] bcast_S_S2048x512 (constant S_ .f32 0x00000000#32))
      (broadcastInDim S65536x1 ![0] bcast_S65536_S65536x1_0 mol) h)
    (broadcastInDim S2048x512 ![0, 1] bcast_S2048x1_S2048x512_0_1
      (broadcastInDim S2048x1 ![0] bcast_S2048_S2048x1_0
        (Host.scatterAdd scatter_S2048_S65536x1_S65536_n_0_0_1
          (broadcastInDim S2048 ![] bcast_S_S2048 (constant S_ .f32 0x00000000#32))
          (broadcastInDim S65536x1 ![0] bcast_S65536_S65536x1_0 mol)
          (broadcastInDim S65536 ![] bcast_S_S65536 (constant S_ .f32 0x3F800000#32)))))

end Cert.KernelIdeal.Glue

end
-- ==== Proof.KernelFold.lean ====
/-
  What each kernel region is entered with.

  Between the regions @main runs plain host operations: a segment sum of the bond messages over their destination
  atoms (a scatter-add into a zero splat), two row gathers at index columns (an index below zero first moved up by the
  axis' length), their difference, two slices of the output weight, the per-molecule mean of the atom states (a segment
  sum divided by the segment sizes), and four casts of bias vectors to rows.  They are carried here as named terms and
  never opened: the reference applies the same operations.  Each theorem reads one input array of one region, at the
  region's entry, back through the fold to the launch contents of the arguments and to the earlier regions' outputs.
-/
import proofs.«130696_j36455682408490_1_alg».proof.Proof.Gen.KernelIdeal.Frame
import proofs.«130696_j36455682408490_1_alg».proof.Proof.KernelKept
import proofs.«130696_j36455682408490_1_alg».proof.Proof.KernelGlue
import Idealize.ShloMosaic.Lib.StableHlo.Run

set_option maxRecDepth 16384

noncomputable section

namespace Cert.KernelIdeal.Fold

open Cert.KernelIdeal Cert.KernelIdeal.Gen Cert.KernelIdeal.Kept Cert.KernelIdeal.Glue
open Idealize.ShloMosaic Idealize.ShloMosaic.TcCoe Idealize.ShloMosaic.StableHlo Idealize.SL.Sem
open Idealize.ShloMosaic.Pipeline (Dat)

variable {F : FTy → Type} [FloatOps F]
variable (m : (ℓ : Loc nD τ sig) → Buf (Elt F) ℓ) (ρ : Dev nD → PrngReg) (c : Dev nD)

/-! ## The first region: the bond features and the input weight, as launched -/

theorem entry0_x : V0 m ρ c main_arg1 = m ((c : Thread nD τ).loc main_arg1) := rfl
theorem entry0_w : V0 m ρ c main_arg2 = m ((c : Thread nD τ).loc main_arg2) := rfl

/-! ## The second region -/

set_option maxHeartbeats 2000000 in
theorem entry1_x : V2 m ρ c main_v18
    = incoming (m ((c : Thread nD τ).loc main_arg13)) (m ((c : Thread nD τ).loc main_arg14)) (m ((c : Thread nD τ).loc main_arg15))
        ((dat0 (V0 m ρ) c).arrAt 3 cfg0.N) := by
  show StableHlo.after hostOps1 (W1 m ρ c) (Proc.devRef .tc main_v18) = _
  after_results_simp
  rw [at1_arg13 m ρ c, at1_arg14 m ρ c, at1_arg15 m ρ c,
    show W1 m ρ c (Proc.devRef .tc main_v0_1) = (dat0 (V0 m ρ) c).arrAt 3 cfg0.N from W1_arr m ρ c 3]
  rfl

theorem entry1_w : V2 m ρ c main_arg3 = m ((c : Thread nD τ).loc main_arg3) := at2_arg3 m ρ c

theorem entry1_a : V2 m ρ c main_v0_0 = (dat0 (V0 m ρ) c).arrAt 2 cfg0.N := by
  show StableHlo.after hostOps1 (W1 m ρ c) (Proc.devRef .tc main_v0_0) = _
  after_results
  exact W1_arr m ρ c 2

/-! ## The third region -/

set_option maxHeartbeats 2000000 in
theorem entry2_x : V4 m ρ c main_v37
    = incoming (m ((c : Thread nD τ).loc main_arg13)) (m ((c : Thread nD τ).loc main_arg14)) (m ((c : Thread nD τ).loc main_arg15)) ((dat1 (V2 m ρ) c).arrAt 3 cfg1.N) := by
  show StableHlo.after hostOps2 (W3 m ρ c) (Proc.devRef .tc main_v37) = _
  after_results_simp
  rw [at3_arg13 m ρ c, at3_arg14 m ρ c, at3_arg15 m ρ c,
    show W3 m ρ c (Proc.devRef .tc main_v19) = (dat1 (V2 m ρ) c).arrAt 3 cfg1.N from W3_arr m ρ c 3]
  rfl

theorem entry2_w : V4 m ρ c main_arg3 = (m ((c : Thread nD τ).loc main_arg3)) := at4_arg3 m ρ c

theorem entry2_a : V4 m ρ c main_v0_0 = (dat0 (V0 m ρ) c).arrAt 2 cfg0.N := by
  show StableHlo.after hostOps2 (W3 m ρ c) (Proc.devRef .tc main_v0_0) = _
  after_results
  exact (W3_arr m ρ c 2).trans (((dat1 (V2 m ρ) c).arrAt_in 2 rfl _).trans ((A_eq1 (V2 m ρ) c 2).trans (entry1_a m ρ c)))

/-! ## The fourth region -/

theorem entry3_x : V6 m ρ c main_arg0 = (m ((c : Thread nD τ).loc main_arg0)) := at6_arg0 m ρ c

theorem entry3_w1 : V6 m ρ c main_v42
    = extractStridedSlice S133x512 ![0, 0] (m ((c : Thread nD τ).loc main_arg4)) slices_S645x512_S133x512_0_0 := by
  show StableHlo.after hostOps3 (W5 m ρ c) (Proc.devRef .tc main_v42) = _
  after_results
  rw [at5_arg4 m ρ c]

theorem entry3_h : V6 m ρ c main_v41 = toAtoms (m ((c : Thread nD τ).loc main_arg14)) ((dat2 (V4 m ρ) c).arrAt 3 cfg2.N) := by
  show StableHlo.after hostOps3 (W5 m ρ c) (Proc.devRef .tc main_v41) = _
  after_results
  rw [at5_arg14 m ρ c,
    show W5 m ρ c (Proc.devRef .tc main_v38) = (dat2 (V4 m ρ) c).arrAt 3 cfg2.N from W5_arr m ρ c 3]
  rfl

theorem entry3_w2 : V6 m ρ c main_v43
    = extractStridedSlice S512x512 ![133, 0] (m ((c : Thread nD τ).loc main_arg4)) slices_S645x512_S512x512_133_0 := by
  show StableHlo.after hostOps3 (W5 m ρ c) (Proc.devRef .tc main_v43) = _
  after_results
  rw [at5_arg4 m ρ c]

/-! ## The fifth region -/

set_option maxHeartbeats 2000000 in
theorem entry4_x : V8 m ρ c main_v54 = molMean (m ((c : Thread nD τ).loc main_arg16)) ((dat3 (V6 m ρ) c).arrAt 4 cfg3.N) := by
  show StableHlo.after hostOps4 (W7 m ρ c) (Proc.devRef .tc main_v54) = _
  after_results_simp
  rw [at7_arg16 m ρ c,
    show W7 m ρ c (Proc.devRef .tc main_v44) = (dat3 (V6 m ρ) c).arrAt 4 cfg3.N from W7_arr m ρ c 4]
  rfl

theorem entry4_w1 : V8 m ρ c main_arg5 = (m ((c : Thread nD τ).loc main_arg5)) := at8_arg5 m ρ c
theorem entry4_w2 : V8 m ρ c main_arg7 = (m ((c : Thread nD τ).loc main_arg7)) := at8_arg7 m ρ c
theorem entry4_w3 : V8 m ρ c main_arg9 = (m ((c : Thread nD τ).loc main_arg9)) := at8_arg9 m ρ c
theorem entry4_wo : V8 m ρ c main_arg11 = (m ((c : Thread nD τ).loc main_arg11)) := at8_arg11 m ρ c

theorem entry4_b1 : V8 m ρ c main_v55 = shapeCast S1x512 (m ((c : Thread nD τ).loc main_arg6)) shapeCasts_S512_S1x512 := by
  show StableHlo.after hostOps4 (W7 m ρ c) (Proc.devRef .tc main_v55) = _
  after_results
  rw [at7_arg6 m ρ c]
  rfl

theorem entry4_b2 : V8 m ρ c main_v56 = shapeCast S1x512 (m ((c : Thread nD τ).loc main_arg8)) shapeCasts_S512_S1x512 := by
  show StableHlo.after hostOps4 (W7 m ρ c) (Proc.devRef .tc main_v56) = _
  after_results
  rw [at7_arg8 m ρ c]
  rfl

theorem entry4_b3 : V8 m ρ c main_v57 = shapeCast S1x512 (m ((c : Thread nD τ).loc main_arg10)) shapeCasts_S512_S1x512 := by
  show StableHlo.after hostOps4 (W7 m ρ c) (Proc.devRef .tc main_v57) = _
  after_results
  rw [at7_arg10 m ρ c]
  rfl

theorem entry4_bo : V8 m ρ c main_v58 = shapeCast S1x1 (m ((c : Thread nD τ).loc main_arg12)) shapeCasts_S1_S1x1 := by
  show StableHlo.after hostOps4 (W7 m ρ c) (Proc.devRef .tc main_v58) = _
  after_results
  rw [at7_arg12 m ρ c]
  rfl

end Cert.KernelIdeal.Fold

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.Net.lean ====
/-
  The network's layers as functions on the extended reals, index by index.

  Every layer here is a dense map: for a row operand `X : [n, K]` and a weight `W : [K, d]` the entry (r, j) of the
  product is the finite sum `∑ k, X (r, k) * W (k, j)`.  The layers add to it another matrix of the same shape, a second
  product, or a bias row, and rectify against the value of the zero word.  A sum on the extended reals is a sum in a
  commutative monoid: no order, grouping or tiling of it matters, so nothing here asks for finite entries.

  The entry (r, j) of each layer reads row r of its row operands only: cutting the rows into tiles and computing each
  tile from the tile's rows gives the same entries (`*_rows`).
-/
import proofs.«130696_j36455682408490_1_alg».proof.Proof.LibDense

noncomputable section

namespace Cert.Net

open Idealize.ShloMosaic Idealize.ShloMosaic.ValueIdx Cert.LibDense

/-- The value of the zero word. -/
abbrev Z : EReal := Ideal.ofBits .f32 0x00000000#32

/-- `max (X · W, 0)`. -/
def linRelu {n K d : ℕ} (X : (⟨2, ![n, K]⟩ : Shape).Idx → EReal) (W : (⟨2, ![K, d]⟩ : Shape).Idx → EReal) :
    (⟨2, ![n, d]⟩ : Shape).Idx → EReal :=
  fun i => max (prod X W i) Z

/-- `max (X · W + A, 0)`. -/
def linAddRelu {n K d : ℕ} (X : (⟨2, ![n, K]⟩ : Shape).Idx → EReal) (W : (⟨2, ![K, d]⟩ : Shape).Idx → EReal)
    (A : (⟨2, ![n, d]⟩ : Shape).Idx → EReal) : (⟨2, ![n, d]⟩ : Shape).Idx → EReal :=
  fun i => max (prod X W i + A i) Z

/-- `max (X₁ · W₁ + X₂ · W₂, 0)`. -/
def dualRelu {n K₁ K₂ d : ℕ} (X₁ : (⟨2, ![n, K₁]⟩ : Shape).Idx → EReal) (W₁ : (⟨2, ![K₁, d]⟩ : Shape).Idx → EReal)
    (X₂ : (⟨2, ![n, K₂]⟩ : Shape).Idx → EReal) (W₂ : (⟨2, ![K₂, d]⟩ : Shape).Idx → EReal) :
    (⟨2, ![n, d]⟩ : Shape).Idx → EReal :=
  fun i => max (prod X₁ W₁ i + prod X₂ W₂ i) Z

/-- `X · W + b`, the row `b : [1, d]` added to every row. -/
def linRow {n K d : ℕ} (X : (⟨2, ![n, K]⟩ : Shape).Idx → EReal) (W : (⟨2, ![K, d]⟩ : Shape).Idx → EReal)
    (b : (⟨2, ![1, d]⟩ : Shape).Idx → EReal) : (⟨2, ![n, d]⟩ : Shape).Idx → EReal :=
  fun i => prod X W i + b (ix2 ⟨0, Nat.one_pos⟩ (i 1))

/-- `max (X · W + b, 0)`. -/
def linRowRelu {n K d : ℕ} (X : (⟨2, ![n, K]⟩ : Shape).Idx → EReal) (W : (⟨2, ![K, d]⟩ : Shape).Idx → EReal)
    (b : (⟨2, ![1, d]⟩ : Shape).Idx → EReal) : (⟨2, ![n, d]⟩ : Shape).Idx → EReal :=
  fun i => max (linRow X W b i) Z

/-- The rectifier alone. -/
def relu {n d : ℕ} (X : (⟨2, ![n, d]⟩ : Shape).Idx → EReal) : (⟨2, ![n, d]⟩ : Shape).Idx → EReal :=
  fun i => max (X i) Z

/-- The classifier: three rectified dense layers with bias rows, a rectifier once more, and a last dense layer with its
    bias row. -/
def head {n H C o : ℕ} (X : (⟨2, ![n, H]⟩ : Shape).Idx → EReal)
    (W₁ : (⟨2, ![H, C]⟩ : Shape).Idx → EReal) (b₁ : (⟨2, ![1, C]⟩ : Shape).Idx → EReal)
    (W₂ : (⟨2, ![C, C]⟩ : Shape).Idx → EReal) (b₂ : (⟨2, ![1, C]⟩ : Shape).Idx → EReal)
    (W₃ : (⟨2, ![C, C]⟩ : Shape).Idx → EReal) (b₃ : (⟨2, ![1, C]⟩ : Shape).Idx → EReal)
    (Wo : (⟨2, ![C, o]⟩ : Shape).Idx → EReal) (bo : (⟨2, ![1, o]⟩ : Shape).Idx → EReal) :
    (⟨2, ![n, o]⟩ : Shape).Idx → EReal :=
  linRow (relu (linRowRelu (linRowRelu (linRowRelu X W₁ b₁) W₂ b₂) W₃ b₃)) Wo bo

/-! ## An entry reads one row of the row operands -/

/-- If row `r'` of `X'` is row `r` of `X`, the products agree on those rows. -/
theorem prod_rows {n n' K d : ℕ} (X : (⟨2, ![n, K]⟩ : Shape).Idx → EReal) (X' : (⟨2, ![n', K]⟩ : Shape).Idx → EReal)
    (W : (⟨2, ![K, d]⟩ : Shape).Idx → EReal) (i : (⟨2, ![n, d]⟩ : Shape).Idx) (i' : (⟨2, ![n', d]⟩ : Shape).Idx)
    (hX : ∀ k : Fin K, X' (ix2 (i' 0) k) = X (ix2 (i 0) k)) (hj : i' 1 = i 1) :
    prod X' W i' = prod X W i := by
  unfold prod
  rw [hj]
  exact Finset.sum_congr rfl fun k _ => congrArg (· * W (ix2 k (i 1))) (hX k)

end Cert.Net

end
-- ==== Proof.Region0.lean ====
/-
  What the first dense layer leaves in its two output arrays.

  The layer's row operand `X : [131072, 147]` is cut into 128 tiles of 1024 rows; the weight `W : [147, 512]` is read whole
  at every tile.  Tile t of each result is computed from tile t of `X` and from `W`: the entry (r, j) of the tile's
  product is `∑ k, X (1024·t + r, k) * W (k, j)`, the entry (1024·t + r, j) of the product of the whole arrays, since an
  entry of a product reads one row of its row operand and one column of the weight.  The tiles fill the results' rows, so
  after the last tile the first result is `X · W` and the second `max (X · W, 0)`, whatever the results held before.
-/
import proofs.«130696_j36455682408490_1_alg».proof.Proof.Gen.KernelIdeal.Frame
import proofs.«130696_j36455682408490_1_alg».proof.Proof.Net
import Idealize.ShloMosaic.Lib.Pipeline.Value
import Idealize.ShloMosaic.Lib.ValueIdx

noncomputable section

namespace Cert.KernelIdeal.Region0

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-! ## A tile's two results, from the tile's rows and the weight -/

/-- The first result of a tile: the product of the tile's rows with the weight into the zero accumulator. -/
theorem tile_product (x : Vec Ideal S1024x147 .f32) (w : Vec Ideal S147x512 .f32) :
    k0_pay1 x w = Cert.LibDense.prod (n := 1024) (K := 147) (d := 512) x w := by
  funext i
  unfold k0_pay1
  show FloatOps.matmul (DotDims.plain 1024 147 512) none (truncf .bf16 x bitsLt_bf16_f32) (truncf .bf16 w bitsLt_bf16_f32)
      (constant (F := Ideal) ⟨2, ![1024, 512]⟩ .f32 0x00000000#32) i = _
  rw [Cert.LibDense.matmul_plain]
  rfl

/-- The second result of a tile: the first, rectified. -/
theorem tile_rectified (x : Vec Ideal S1024x147 .f32) (w : Vec Ideal S147x512 .f32) :
    k0_pay2 x w = Cert.Net.linRelu (n := 1024) (K := 147) (d := 512) x w := by
  funext i
  unfold k0_pay2 Cert.Net.linRelu
  show max (k0_pay1 x w i) _ = _
  rw [tile_product]
  rfl

/-! ## An entry of a tile's result is the entry of the whole arrays' result at the tile's place -/

/-- For the product: when the tile's row is the array's row there and the weights are the same. -/
theorem product_entry (X : (⟨2, ![131072, 147]⟩ : Shape).Idx → EReal) (W : (⟨2, ![147, 512]⟩ : Shape).Idx → EReal)
    (x : (⟨2, ![1024, 147]⟩ : Shape).Idx → EReal) (w : (⟨2, ![147, 512]⟩ : Shape).Idx → EReal)
    (y : (⟨2, ![1024, 512]⟩ : Shape).Idx) (i : (⟨2, ![131072, 512]⟩ : Shape).Idx)
    (hx : ∀ k : Fin 147, x (ix2 (y 0) k) = X (ix2 (i 0) k)) (hw : w = W) (hj : y 1 = i 1) :
    Cert.LibDense.prod x w y = Cert.LibDense.prod X W i := by
  subst hw
  exact Cert.Net.prod_rows X x w i y hx hj

/-- For the rectified product. -/
theorem rectified_entry (X : (⟨2, ![131072, 147]⟩ : Shape).Idx → EReal) (W : (⟨2, ![147, 512]⟩ : Shape).Idx → EReal)
    (x : (⟨2, ![1024, 147]⟩ : Shape).Idx → EReal) (w : (⟨2, ![147, 512]⟩ : Shape).Idx → EReal)
    (y : (⟨2, ![1024, 512]⟩ : Shape).Idx) (i : (⟨2, ![131072, 512]⟩ : Shape).Idx)
    (hx : ∀ k : Fin 147, x (ix2 (y 0) k) = X (ix2 (i 0) k)) (hw : w = W) (hj : y 1 = i 1) :
    Cert.Net.linRelu x w y = Cert.Net.linRelu X W i := by
  unfold Cert.Net.linRelu
  rw [product_entry X W x w y i hx hw hj]

/-! ## The tiles' places -/

/-- The printed index maps, decided over the 128 points: the row operand's and the results' tile at point t is tile t
    (one tile across), the weight's block is the whole weight. -/
theorem tile_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Every tile of a result is some point's. -/
theorem tile_onto : ∀ q : Fin 128, ∃ t : Fin cfg0.N, t.val = q.val :=
  (by decide +kernel : ∀ q : Fin 128, ∃ t : Fin grid0.N, t.val = q.val)

/-! ## What a point writes back -/

/-- To the first result: tile t of the product of the arrays as the region finds them. -/
theorem written_product (c : Dev nD) (t : Fin cfg0.N) :
    (dat0 V c).flushed 2 t = ((cfg0.win 2).blk t).view.read (Elt Ideal)
      (Cert.LibDense.prod (n := 131072) (K := 147) (d := 512) (V c main_arg1) (V c main_arg2)) := by
  show (cfg0.win 2).cut (grid0.coords t) ((dat0 V c).after 2 t) = _
  rw [after0_2]
  unfold out0_2
  rw [View.canon_unit_zero zero_offsets]
  simp only [View.ld_unit_zero (S := S1024x147) zero_offsets, View.ld_unit_zero (S := S147x512) zero_offsets]
  rw [tile_product]
  obtain ⟨e0, e1, e2, e3, e4, e5, e6, e7⟩ := tile_indices t
  funext y
  refine product_entry (V c main_arg1) (V c main_arg2) _ _ y (((cfg0.win 2).blk t).view.emb y) (fun k => ?_) ?_ ?_
  · show V c main_arg1 (((cfg0.win 0).blk t).view.emb (ix2 (y 0) k)) = V c main_arg1 (ix2 ((((cfg0.win 2).blk t).view.emb y) 0) k)
    refine congrArg (V c main_arg1) (funext fun a => Fin.ext ?_)
    match a with
    | ⟨0, _⟩ => show win0_0.index t (0 : Fin 2) * 1024 + 1 * (y 0).val = win0_2.index t (0 : Fin 2) * 1024 + 1 * (y 0).val; omega
    | ⟨1, _⟩ => show win0_0.index t (1 : Fin 2) * 147 + 1 * k.val = k.val; omega
  · funext j
    show V c main_arg2 (((cfg0.win 1).blk t).view.emb j) = V c main_arg2 j
    refine congrArg (V c main_arg2) (funext fun a => Fin.ext ?_)
    match a with
    | ⟨0, _⟩ => show win0_1.index t (0 : Fin 2) * 147 + 1 * (j 0).val = (j 0).val; omega
    | ⟨1, _⟩ => show win0_1.index t (1 : Fin 2) * 512 + 1 * (j 1).val = (j 1).val; omega
  · apply Fin.ext
    show (y 1).val = win0_2.index t (1 : Fin 2) * 512 + 1 * (y 1).val
    omega

/-- To the second result: tile t of the rectified product of the arrays as the region finds them. -/
theorem written_rectified (c : Dev nD) (t : Fin cfg0.N) :
    (dat0 V c).flushed 3 t = ((cfg0.win 3).blk t).view.read (Elt Ideal)
      (Cert.Net.linRelu (n := 131072) (K := 147) (d := 512) (V c main_arg1) (V c main_arg2)) := by
  show (cfg0.win 3).cut (grid0.coords t) ((dat0 V c).after 3 t) = _
  rw [after0_3]
  unfold out0_3
  rw [View.canon_unit_zero zero_offsets]
  simp only [View.ld_unit_zero (S := S1024x147) zero_offsets, View.ld_unit_zero (S := S147x512) zero_offsets]
  rw [tile_rectified]
  obtain ⟨e0, e1, e2, e3, e4, e5, e6, e7⟩ := tile_indices t
  funext y
  refine rectified_entry (V c main_arg1) (V c main_arg2) _ _ y (((cfg0.win 3).blk t).view.emb y) (fun k => ?_) ?_ ?_
  · show V c main_arg1 (((cfg0.win 0).blk t).view.emb (ix2 (y 0) k)) = V c main_arg1 (ix2 ((((cfg0.win 3).blk t).view.emb y) 0) k)
    refine congrArg (V c main_arg1) (funext fun a => Fin.ext ?_)
    match a with
    | ⟨0, _⟩ => show win0_0.index t (0 : Fin 2) * 1024 + 1 * (y 0).val = win0_3.index t (0 : Fin 2) * 1024 + 1 * (y 0).val; omega
    | ⟨1, _⟩ => show win0_0.index t (1 : Fin 2) * 147 + 1 * k.val = k.val; omega
  · funext j
    show V c main_arg2 (((cfg0.win 1).blk t).view.emb j) = V c main_arg2 j
    refine congrArg (V c main_arg2) (funext fun a => Fin.ext ?_)
    match a with
    | ⟨0, _⟩ => show win0_1.index t (0 : Fin 2) * 147 + 1 * (j 0).val = (j 0).val; omega
    | ⟨1, _⟩ => show win0_1.index t (1 : Fin 2) * 512 + 1 * (j 1).val = (j 1).val; omega
  · apply Fin.ext
    show (y 1).val = win0_3.index t (1 : Fin 2) * 512 + 1 * (y 1).val
    omega

/-! ## The tiles fill the results -/

/-- An index of the first result is in point t's tile iff each coordinate is in the tile's range on its axis. -/
theorem mem_tile_product (t : Fin cfg0.N) (i : S131072x512.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v0_0).slice (win0_2.rect t)).set ↔ _
  rw [View.set_slice_whole, Rect.mem_set_unit]
  exact Iff.rfl

/-- The same for the second result. -/
theorem mem_tile_rectified (t : Fin cfg0.N) (i : S131072x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v0_1).slice (win0_3.rect t)).set ↔ _
  rw [View.set_slice_whole, Rect.mem_set_unit]
  exact Iff.rfl

/-- Every index of the first result is in the tile of the point its row falls in. -/
theorem tiles_cover_product (i : S131072x512.Idx) :
    ∃ t : Fin cfg0.N, (cfg0.win 2).flush t = true ∧ i ∈ ((cfg0.win 2).blk t).view.set := by
  have hi0 : (i 0).val < 131072 := (i 0).isLt
  have hi1 : (i 1).val < 512 := (i 1).isLt
  obtain ⟨t, ht⟩ := tile_onto ⟨(i 0).val / 1024, by omega⟩
  have ht' : t.val = (i 0).val / 1024 := ht
  obtain ⟨e0, e1, e2, e3, e4, e5, e6, e7⟩ := tile_indices t
  refine ⟨t, flush0_2 t, ?_⟩
  rw [mem_tile_product]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-- The same for the second result. -/
theorem tiles_cover_rectified (i : S131072x512.Idx) :
    ∃ t : Fin cfg0.N, (cfg0.win 3).flush t = true ∧ i ∈ ((cfg0.win 3).blk t).view.set := by
  have hi0 : (i 0).val < 131072 := (i 0).isLt
  have hi1 : (i 1).val < 512 := (i 1).isLt
  obtain ⟨t, ht⟩ := tile_onto ⟨(i 0).val / 1024, by omega⟩
  have ht' : t.val = (i 0).val / 1024 := ht
  obtain ⟨e0, e1, e2, e3, e4, e5, e6, e7⟩ := tile_indices t
  refine ⟨t, flush0_3 t, ?_⟩
  rw [mem_tile_rectified]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-! ## The two arrays after the region -/

/-- The first output array after the region: the product of the arrays the region was entered with. -/
theorem inp (c : Dev nD) :
    (dat0 V c).arrAt 2 cfg0.N
      = Cert.LibDense.prod (n := 131072) (K := 147) (d := 512) (V c main_arg1) (V c main_arg2) :=
  (dat0 V c).arrAt_eq_of_cover 2 _ (fun t _ => written_product V c t) tiles_cover_product

/-- The second output array after the region: that product, rectified. -/
theorem msg (c : Dev nD) :
    (dat0 V c).arrAt 3 cfg0.N
      = Cert.Net.linRelu (n := 131072) (K := 147) (d := 512) (V c main_arg1) (V c main_arg2) :=
  (dat0 V c).arrAt_eq_of_cover 3 _ (fun t _ => written_rectified V c t) tiles_cover_rectified

end Cert.KernelIdeal.Region0

end
-- ==== Proof.Region1.lean ====
/-
  What the first message-passing update leaves in its output array.

  The update is `max (X · W + A, 0)` for a row operand `X : [131072, 512]`, a weight `W : [512, 512]` and a matrix `A` of
  the result's shape.  The rows are cut into 128 tiles of 1024 rows; the tile of the result at rows 1024·t … 1024·t + 1023
  is computed from the same rows of `X` and `A` and the whole of `W`.  An entry (r, j) of the update reads row r of `X`,
  column j of `W` and entry (r, j) of `A` only, so the tiles, put back at their rows, are the update of the whole arrays.
-/
import proofs.«130696_j36455682408490_1_alg».proof.Proof.Gen.KernelIdeal.Frame
import proofs.«130696_j36455682408490_1_alg».proof.Proof.Net
import Idealize.ShloMosaic.Lib.Pipeline.Value
import Idealize.ShloMosaic.Lib.ValueIdx

noncomputable section

namespace Cert.KernelIdeal.Region1

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The tile's value: the product of the tile's rows with the weight into the zero accumulator, plus the tile of `A`,
    rectified. -/
theorem tile_value (x : Vec Ideal S1024x512 .f32) (w : Vec Ideal S512x512 .f32) (a : Vec Ideal S1024x512 .f32) :
    k1_pay1 x w a = Cert.Net.linAddRelu (n := 1024) (K := 512) (d := 512) x w a := by
  funext i
  unfold k1_pay1 Cert.Net.linAddRelu
  simp only [shapeCast_self]
  show max (FloatOps.matmul (DotDims.plain 1024 512 512) none (truncf .bf16 x bitsLt_bf16_f32) (truncf .bf16 w bitsLt_bf16_f32)
      (constant (F := Ideal) ⟨2, ![1024, 512]⟩ .f32 0x00000000#32) i + a i) _ = _
  rw [Cert.LibDense.matmul_plain]
  rfl

/-- An entry of the update of a tile is the entry of the update of the whole arrays at the tile's place, when the
    tile's rows and entries are the arrays' there. -/
theorem tile_entry (X : (⟨2, ![131072, 512]⟩ : Shape).Idx → EReal) (W : (⟨2, ![512, 512]⟩ : Shape).Idx → EReal)
    (A : (⟨2, ![131072, 512]⟩ : Shape).Idx → EReal)
    (x : (⟨2, ![1024, 512]⟩ : Shape).Idx → EReal) (w : (⟨2, ![512, 512]⟩ : Shape).Idx → EReal)
    (a : (⟨2, ![1024, 512]⟩ : Shape).Idx → EReal)
    (y : (⟨2, ![1024, 512]⟩ : Shape).Idx) (i : (⟨2, ![131072, 512]⟩ : Shape).Idx)
    (hx : ∀ k : Fin 512, x (ix2 (y 0) k) = X (ix2 (i 0) k)) (hw : w = W) (hj : y 1 = i 1) (ha : a y = A i) :
    Cert.Net.linAddRelu x w a y = Cert.Net.linAddRelu X W A i := by
  subst hw
  unfold Cert.Net.linAddRelu
  rw [ha, Cert.Net.prod_rows X x w i y hx hj]

/-- The printed index maps, decided over the 128 points: the row operands' and the result's tile at point t is tile t
    (one tile across), the weight's block is the whole weight. -/
theorem tile_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Every tile of the result is some point's. -/
theorem tile_onto : ∀ q : Fin 128, ∃ t : Fin cfg1.N, t.val = q.val :=
  (by decide +kernel : ∀ q : Fin 128, ∃ t : Fin grid1.N, t.val = q.val)

/-- What point t writes back is tile t of the update of the arrays as the region finds them. -/
theorem written_tile (c : Dev nD) (t : Fin cfg1.N) :
    (dat1 V c).flushed 3 t = ((cfg1.win 3).blk t).view.read (Elt Ideal)
      (Cert.Net.linAddRelu (n := 131072) (K := 512) (d := 512) (V c main_v18) (V c main_arg3) (V c main_v0_0)) := by
  show (cfg1.win 3).cut (grid1.coords t) ((dat1 V c).after 3 t) = _
  rw [after1_3]
  unfold out1_3
  rw [View.canon_unit_zero zero_offsets]
  simp only [View.ld_unit_zero (S := S1024x512) zero_offsets, View.ld_unit_zero (S := S512x512) zero_offsets]
  rw [tile_value]
  obtain ⟨e0, e1, e2, e3, e4, e5, e6, e7⟩ := tile_indices t
  funext y
  refine tile_entry (V c main_v18) (V c main_arg3) (V c main_v0_0) _ _ _ y (((cfg1.win 3).blk t).view.emb y) (fun k => ?_) ?_ ?_ ?_
  · show V c main_v18 (((cfg1.win 0).blk t).view.emb (ix2 (y 0) k)) = V c main_v18 (ix2 ((((cfg1.win 3).blk t).view.emb y) 0) k)
    refine congrArg (V c main_v18) (funext fun a => Fin.ext ?_)
    match a with
    | ⟨0, _⟩ => show win1_0.index t (0 : Fin 2) * 1024 + 1 * (y 0).val = win1_3.index t (0 : Fin 2) * 1024 + 1 * (y 0).val; omega
    | ⟨1, _⟩ => show win1_0.index t (1 : Fin 2) * 512 + 1 * k.val = k.val; omega
  · funext j
    show V c main_arg3 (((cfg1.win 1).blk t).view.emb j) = V c main_arg3 j
    refine congrArg (V c main_arg3) (funext fun a => Fin.ext ?_)
    match a with
    | ⟨0, _⟩ => show win1_1.index t (0 : Fin 2) * 512 + 1 * (j 0).val = (j 0).val; omega
    | ⟨1, _⟩ => show win1_1.index t (1 : Fin 2) * 512 + 1 * (j 1).val = (j 1).val; omega
  · apply Fin.ext
    show (y 1).val = win1_3.index t (1 : Fin 2) * 512 + 1 * (y 1).val
    omega
  · show V c main_v0_0 (((cfg1.win 2).blk t).view.emb y) = V c main_v0_0 (((cfg1.win 3).blk t).view.emb y)
    refine congrArg (V c main_v0_0) (funext fun a => Fin.ext ?_)
    match a with
    | ⟨0, _⟩ => show win1_2.index t (0 : Fin 2) * 1024 + 1 * (y 0).val = win1_3.index t (0 : Fin 2) * 1024 + 1 * (y 0).val; omega
    | ⟨1, _⟩ => show win1_2.index t (1 : Fin 2) * 512 + 1 * (y 1).val = win1_3.index t (1 : Fin 2) * 512 + 1 * (y 1).val; omega

/-- An index of the result is in point t's tile iff each coordinate is in the tile's range on its axis. -/
theorem mem_tile (t : Fin cfg1.N) (i : S131072x512.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v19).slice (win1_3.rect t)).set ↔ _
  rw [View.set_slice_whole, Rect.mem_set_unit]
  exact Iff.rfl

/-- Every index of the result is in the tile of the point its row falls in. -/
theorem tiles_cover (i : S131072x512.Idx) :
    ∃ t : Fin cfg1.N, (cfg1.win 3).flush t = true ∧ i ∈ ((cfg1.win 3).blk t).view.set := by
  have hi0 : (i 0).val < 131072 := (i 0).isLt
  have hi1 : (i 1).val < 512 := (i 1).isLt
  obtain ⟨t, ht⟩ := tile_onto ⟨(i 0).val / 1024, by omega⟩
  have ht' : t.val = (i 0).val / 1024 := ht
  obtain ⟨e0, e1, e2, e3, e4, e5, e6, e7⟩ := tile_indices t
  refine ⟨t, flush1_3 t, ?_⟩
  rw [mem_tile]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 512 ≤ (i 1).val ∧ (i 1).val < win1_3.index t (1 : Fin 2) * 512 + 512; omega

/-- The output array after the region: the update of the arrays the region was entered with. -/
theorem update (c : Dev nD) :
    (dat1 V c).arrAt 3 cfg1.N
      = Cert.Net.linAddRelu (n := 131072) (K := 512) (d := 512) (V c main_v18) (V c main_arg3) (V c main_v0_0) :=
  (dat1 V c).arrAt_eq_of_cover 3 _ (fun t _ => written_tile V c t) tiles_cover

end Cert.KernelIdeal.Region1

end
-- ==== Proof.Region2.lean ====
/-
  What the second message-passing update leaves in its output array.

  The update is `max (X · W + A, 0)` for a row operand `X : [131072, 512]`, a weight `W : [512, 512]` and a matrix `A` of
  the result's shape.  The rows are cut into 128 tiles of 1024 rows; the tile of the result at rows 1024·t … 1024·t + 1023
  is computed from the same rows of `X` and `A` and the whole of `W`.  An entry (r, j) of the update reads row r of `X`,
  column j of `W` and entry (r, j) of `A` only, so the tiles, put back at their rows, are the update of the whole arrays.
-/
import proofs.«130696_j36455682408490_1_alg».proof.Proof.Gen.KernelIdeal.Frame
import proofs.«130696_j36455682408490_1_alg».proof.Proof.Net
import Idealize.ShloMosaic.Lib.Pipeline.Value
import Idealize.ShloMosaic.Lib.ValueIdx

noncomputable section

namespace Cert.KernelIdeal.Region2

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The tile's value: the product of the tile's rows with the weight into the zero accumulator, plus the tile of `A`,
    rectified. -/
theorem tile_value (x : Vec Ideal S1024x512 .f32) (w : Vec Ideal S512x512 .f32) (a : Vec Ideal S1024x512 .f32) :
    k2_pay1 x w a = Cert.Net.linAddRelu (n := 1024) (K := 512) (d := 512) x w a := by
  funext i
  unfold k2_pay1 Cert.Net.linAddRelu
  simp only [shapeCast_self]
  show max (FloatOps.matmul (DotDims.plain 1024 512 512) none (truncf .bf16 x bitsLt_bf16_f32) (truncf .bf16 w bitsLt_bf16_f32)
      (constant (F := Ideal) ⟨2, ![1024, 512]⟩ .f32 0x00000000#32) i + a i) _ = _
  rw [Cert.LibDense.matmul_plain]
  rfl

/-- An entry of the update of a tile is the entry of the update of the whole arrays at the tile's place, when the
    tile's rows and entries are the arrays' there. -/
theorem tile_entry (X : (⟨2, ![131072, 512]⟩ : Shape).Idx → EReal) (W : (⟨2, ![512, 512]⟩ : Shape).Idx → EReal)
    (A : (⟨2, ![131072, 512]⟩ : Shape).Idx → EReal)
    (x : (⟨2, ![1024, 512]⟩ : Shape).Idx → EReal) (w : (⟨2, ![512, 512]⟩ : Shape).Idx → EReal)
    (a : (⟨2, ![1024, 512]⟩ : Shape).Idx → EReal)
    (y : (⟨2, ![1024, 512]⟩ : Shape).Idx) (i : (⟨2, ![131072, 512]⟩ : Shape).Idx)
    (hx : ∀ k : Fin 512, x (ix2 (y 0) k) = X (ix2 (i 0) k)) (hw : w = W) (hj : y 1 = i 1) (ha : a y = A i) :
    Cert.Net.linAddRelu x w a y = Cert.Net.linAddRelu X W A i := by
  subst hw
  unfold Cert.Net.linAddRelu
  rw [ha, Cert.Net.prod_rows X x w i y hx hj]

/-- The printed index maps, decided over the 128 points: the row operands' and the result's tile at point t is tile t
    (one tile across), the weight's block is the whole weight. -/
theorem tile_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Every tile of the result is some point's. -/
theorem tile_onto : ∀ q : Fin 128, ∃ t : Fin cfg2.N, t.val = q.val :=
  (by decide +kernel : ∀ q : Fin 128, ∃ t : Fin grid2.N, t.val = q.val)

/-- What point t writes back is tile t of the update of the arrays as the region finds them. -/
theorem written_tile (c : Dev nD) (t : Fin cfg2.N) :
    (dat2 V c).flushed 3 t = ((cfg2.win 3).blk t).view.read (Elt Ideal)
      (Cert.Net.linAddRelu (n := 131072) (K := 512) (d := 512) (V c main_v37) (V c main_arg3) (V c main_v0_0)) := by
  show (cfg2.win 3).cut (grid2.coords t) ((dat2 V c).after 3 t) = _
  rw [after2_3]
  unfold out2_3
  rw [View.canon_unit_zero zero_offsets]
  simp only [View.ld_unit_zero (S := S1024x512) zero_offsets, View.ld_unit_zero (S := S512x512) zero_offsets]
  rw [tile_value]
  obtain ⟨e0, e1, e2, e3, e4, e5, e6, e7⟩ := tile_indices t
  funext y
  refine tile_entry (V c main_v37) (V c main_arg3) (V c main_v0_0) _ _ _ y (((cfg2.win 3).blk t).view.emb y) (fun k => ?_) ?_ ?_ ?_
  · show V c main_v37 (((cfg2.win 0).blk t).view.emb (ix2 (y 0) k)) = V c main_v37 (ix2 ((((cfg2.win 3).blk t).view.emb y) 0) k)
    refine congrArg (V c main_v37) (funext fun a => Fin.ext ?_)
    match a with
    | ⟨0, _⟩ => show win2_0.index t (0 : Fin 2) * 1024 + 1 * (y 0).val = win2_3.index t (0 : Fin 2) * 1024 + 1 * (y 0).val; omega
    | ⟨1, _⟩ => show win2_0.index t (1 : Fin 2) * 512 + 1 * k.val = k.val; omega
  · funext j
    show V c main_arg3 (((cfg2.win 1).blk t).view.emb j) = V c main_arg3 j
    refine congrArg (V c main_arg3) (funext fun a => Fin.ext ?_)
    match a with
    | ⟨0, _⟩ => show win2_1.index t (0 : Fin 2) * 512 + 1 * (j 0).val = (j 0).val; omega
    | ⟨1, _⟩ => show win2_1.index t (1 : Fin 2) * 512 + 1 * (j 1).val = (j 1).val; omega
  · apply Fin.ext
    show (y 1).val = win2_3.index t (1 : Fin 2) * 512 + 1 * (y 1).val
    omega
  · show V c main_v0_0 (((cfg2.win 2).blk t).view.emb y) = V c main_v0_0 (((cfg2.win 3).blk t).view.emb y)
    refine congrArg (V c main_v0_0) (funext fun a => Fin.ext ?_)
    match a with
    | ⟨0, _⟩ => show win2_2.index t (0 : Fin 2) * 1024 + 1 * (y 0).val = win2_3.index t (0 : Fin 2) * 1024 + 1 * (y 0).val; omega
    | ⟨1, _⟩ => show win2_2.index t (1 : Fin 2) * 512 + 1 * (y 1).val = win2_3.index t (1 : Fin 2) * 512 + 1 * (y 1).val; omega

/-- An index of the result is in point t's tile iff each coordinate is in the tile's range on its axis. -/
theorem mem_tile (t : Fin cfg2.N) (i : S131072x512.Idx) :
    i ∈ ((cfg2.win 3).blk t).view.set ↔ ∀ a : Fin 2, win2_3.index t a * S1024x512.size a ≤ (i a).val ∧ (i a).val < win2_3.index t a * S1024x512.size a + S1024x512.size a := by
  show i ∈ ((View.whole main_v38).slice (win2_3.rect t)).set ↔ _
  rw [View.set_slice_whole, Rect.mem_set_unit]
  exact Iff.rfl

/-- Every index of the result is in the tile of the point its row falls in. -/
theorem tiles_cover (i : S131072x512.Idx) :
    ∃ t : Fin cfg2.N, (cfg2.win 3).flush t = true ∧ i ∈ ((cfg2.win 3).blk t).view.set := by
  have hi0 : (i 0).val < 131072 := (i 0).isLt
  have hi1 : (i 1).val < 512 := (i 1).isLt
  obtain ⟨t, ht⟩ := tile_onto ⟨(i 0).val / 1024, by omega⟩
  have ht' : t.val = (i 0).val / 1024 := ht
  obtain ⟨e0, e1, e2, e3, e4, e5, e6, e7⟩ := tile_indices t
  refine ⟨t, flush2_3 t, ?_⟩
  rw [mem_tile]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 512 ≤ (i 1).val ∧ (i 1).val < win2_3.index t (1 : Fin 2) * 512 + 512; omega

/-- The output array after the region: the update of the arrays the region was entered with. -/
theorem update (c : Dev nD) :
    (dat2 V c).arrAt 3 cfg2.N
      = Cert.Net.linAddRelu (n := 131072) (K := 512) (d := 512) (V c main_v37) (V c main_arg3) (V c main_v0_0) :=
  (dat2 V c).arrAt_eq_of_cover 3 _ (fun t _ => written_tile V c t) tiles_cover

end Cert.KernelIdeal.Region2

end
-- ==== Proof.Region3.lean ====
/-
  What the atom update leaves in its output array.

  The update is `max (X · W + H · U, 0)` for row operands `X : [65536, 133]` and `H : [65536, 512]` and weights
  `W : [133, 512]` and `U : [512, 512]`.  The rows are cut into 64 tiles of 1024 rows; the tile of the result at rows
  1024·t … 1024·t + 1023 is computed from the same rows of `X` and `H` and the whole of `W` and `U`.  An entry (r, j) of the
  update reads row r of `X` and of `H` and column j of `W` and of `U` only, so the tiles, put back at their rows, are the update
  of the whole arrays; they fill the result, so nothing of what the result held before is left.
-/
import proofs.«130696_j36455682408490_1_alg».proof.Proof.Gen.KernelIdeal.Frame
import proofs.«130696_j36455682408490_1_alg».proof.Proof.Net
import Idealize.ShloMosaic.Lib.Pipeline.Value
import Idealize.ShloMosaic.Lib.ValueIdx

noncomputable section

namespace Cert.KernelIdeal.Region3

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The tile's value: the two products of the tile's rows with the weights, each into the zero accumulator, added and
    rectified. -/
theorem tile_value (x : Vec Ideal S1024x133 .f32) (w : Vec Ideal S133x512 .f32) (h : Vec Ideal S1024x512 .f32)
    (u : Vec Ideal S512x512 .f32) :
    k3_pay1 x w h u = Cert.Net.dualRelu (n := 1024) (K₁ := 133) (K₂ := 512) (d := 512) x w h u := by
  funext i
  unfold k3_pay1 Cert.Net.dualRelu
  simp only [shapeCast_self]
  show max (FloatOps.matmul (DotDims.plain 1024 133 512) none (truncf .bf16 x bitsLt_bf16_f32) (truncf .bf16 w bitsLt_bf16_f32)
        (constant (F := Ideal) ⟨2, ![1024, 512]⟩ .f32 0x00000000#32) i
      + FloatOps.matmul (DotDims.plain 1024 512 512) none (truncf .bf16 h bitsLt_bf16_f32) (truncf .bf16 u bitsLt_bf16_f32)
        (constant (F := Ideal) ⟨2, ![1024, 512]⟩ .f32 0x00000000#32) i) _ = _
  rw [Cert.LibDense.matmul_plain, Cert.LibDense.matmul_plain]
  rfl

/-- An entry of the update of a tile is the entry of the update of the whole arrays at the tile's place, when the
    tile's rows are the arrays' there and the weights are the same. -/
theorem tile_entry (X : (⟨2, ![65536, 133]⟩ : Shape).Idx → EReal) (W : (⟨2, ![133, 512]⟩ : Shape).Idx → EReal)
    (H : (⟨2, ![65536, 512]⟩ : Shape).Idx → EReal) (U : (⟨2, ![512, 512]⟩ : Shape).Idx → EReal)
    (x : (⟨2, ![1024, 133]⟩ : Shape).Idx → EReal) (w : (⟨2, ![133, 512]⟩ : Shape).Idx → EReal)
    (h : (⟨2, ![1024, 512]⟩ : Shape).Idx → EReal) (u : (⟨2, ![512, 512]⟩ : Shape).Idx → EReal)
    (y : (⟨2, ![1024, 512]⟩ : Shape).Idx) (i : (⟨2, ![65536, 512]⟩ : Shape).Idx)
    (hx : ∀ k : Fin 133, x (ix2 (y 0) k) = X (ix2 (i 0) k)) (hw : w = W)
    (hh : ∀ k : Fin 512, h (ix2 (y 0) k) = H (ix2 (i 0) k)) (hu : u = U) (hj : y 1 = i 1) :
    Cert.Net.dualRelu x w h u y = Cert.Net.dualRelu X W H U i := by
  subst hw
  subst hu
  unfold Cert.Net.dualRelu
  rw [Cert.Net.prod_rows X x w i y hx hj, Cert.Net.prod_rows H h u i y hh hj]

/-- The printed index maps, decided over the 64 points: the row operands' and the result's tile at point t is tile t
    (one tile across), each weight's block is the whole weight. -/
theorem tile_indices : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Every tile of the result is some point's. -/
theorem tile_onto : ∀ q : Fin 64, ∃ t : Fin cfg3.N, t.val = q.val :=
  (by decide +kernel : ∀ q : Fin 64, ∃ t : Fin grid3.N, t.val = q.val)

/-- What point t writes back is tile t of the update of the arrays as the region finds them. -/
theorem written_tile (c : Dev nD) (t : Fin cfg3.N) :
    (dat3 V c).flushed 4 t = ((cfg3.win 4).blk t).view.read (Elt Ideal)
      (Cert.Net.dualRelu (n := 65536) (K₁ := 133) (K₂ := 512) (d := 512)
        (V c main_arg0) (V c main_v42) (V c main_v41) (V c main_v43)) := by
  show (cfg3.win 4).cut (grid3.coords t) ((dat3 V c).after 4 t) = _
  rw [after3_4]
  unfold out3_4
  rw [View.canon_unit_zero zero_offsets]
  simp only [View.ld_unit_zero (S := S1024x133) zero_offsets, View.ld_unit_zero (S := S133x512) zero_offsets,
    View.ld_unit_zero (S := S1024x512) zero_offsets, View.ld_unit_zero (S := S512x512) zero_offsets]
  rw [tile_value]
  obtain ⟨e0, e1, e2, e3, e4, e5, e6, e7, e8, e9⟩ := tile_indices t
  funext y
  refine tile_entry (V c main_arg0) (V c main_v42) (V c main_v41) (V c main_v43) _ _ _ _ y (((cfg3.win 4).blk t).view.emb y)
    (fun k => ?_) ?_ (fun k => ?_) ?_ ?_
  · show V c main_arg0 (((cfg3.win 0).blk t).view.emb (ix2 (y 0) k)) = V c main_arg0 (ix2 ((((cfg3.win 4).blk t).view.emb y) 0) k)
    refine congrArg (V c main_arg0) (funext fun a => Fin.ext ?_)
    match a with
    | ⟨0, _⟩ => show win3_0.index t (0 : Fin 2) * 1024 + 1 * (y 0).val = win3_4.index t (0 : Fin 2) * 1024 + 1 * (y 0).val; omega
    | ⟨1, _⟩ => show win3_0.index t (1 : Fin 2) * 133 + 1 * k.val = k.val; omega
  · funext j
    show V c main_v42 (((cfg3.win 1).blk t).view.emb j) = V c main_v42 j
    refine congrArg (V c main_v42) (funext fun a => Fin.ext ?_)
    match a with
    | ⟨0, _⟩ => show win3_1.index t (0 : Fin 2) * 133 + 1 * (j 0).val = (j 0).val; omega
    | ⟨1, _⟩ => show win3_1.index t (1 : Fin 2) * 512 + 1 * (j 1).val = (j 1).val; omega
  · show V c main_v41 (((cfg3.win 2).blk t).view.emb (ix2 (y 0) k)) = V c main_v41 (ix2 ((((cfg3.win 4).blk t).view.emb y) 0) k)
    refine congrArg (V c main_v41) (funext fun a => Fin.ext ?_)
    match a with
    | ⟨0, _⟩ => show win3_2.index t (0 : Fin 2) * 1024 + 1 * (y 0).val = win3_4.index t (0 : Fin 2) * 1024 + 1 * (y 0).val; omega
    | ⟨1, _⟩ => show win3_2.index t (1 : Fin 2) * 512 + 1 * k.val = k.val; omega
  · funext j
    show V c main_v43 (((cfg3.win 3).blk t).view.emb j) = V c main_v43 j
    refine congrArg (V c main_v43) (funext fun a => Fin.ext ?_)
    match a with
    | ⟨0, _⟩ => show win3_3.index t (0 : Fin 2) * 512 + 1 * (j 0).val = (j 0).val; omega
    | ⟨1, _⟩ => show win3_3.index t (1 : Fin 2) * 512 + 1 * (j 1).val = (j 1).val; omega
  · apply Fin.ext
    show (y 1).val = win3_4.index t (1 : Fin 2) * 512 + 1 * (y 1).val
    omega

/-- An index of the result is in point t's tile iff each coordinate is in the tile's range on its axis. -/
theorem mem_tile (t : Fin cfg3.N) (i : S65536x512.Idx) :
    i ∈ ((cfg3.win 4).blk t).view.set ↔ ∀ a : Fin 2, win3_4.index t a * S1024x512.size a ≤ (i a).val ∧ (i a).val < win3_4.index t a * S1024x512.size a + S1024x512.size a := by
  show i ∈ ((View.whole main_v44).slice (win3_4.rect t)).set ↔ _
  rw [View.set_slice_whole, Rect.mem_set_unit]
  exact Iff.rfl

/-- Every index of the result is in the tile of the point its row falls in. -/
theorem tiles_cover (i : S65536x512.Idx) :
    ∃ t : Fin cfg3.N, (cfg3.win 4).flush t = true ∧ i ∈ ((cfg3.win 4).blk t).view.set := by
  have hi0 : (i 0).val < 65536 := (i 0).isLt
  have hi1 : (i 1).val < 512 := (i 1).isLt
  obtain ⟨t, ht⟩ := tile_onto ⟨(i 0).val / 1024, by omega⟩
  have ht' : t.val = (i 0).val / 1024 := ht
  obtain ⟨e0, e1, e2, e3, e4, e5, e6, e7, e8, e9⟩ := tile_indices t
  refine ⟨t, flush3_4 t, ?_⟩
  rw [mem_tile]
  intro a
  match a with
  | ⟨0, _⟩ => show win3_4.index t (0 : Fin 2) * 1024 ≤ (i 0).val ∧ (i 0).val < win3_4.index t (0 : Fin 2) * 1024 + 1024; omega
  | ⟨1, _⟩ => show win3_4.index t (1 : Fin 2) * 512 ≤ (i 1).val ∧ (i 1).val < win3_4.index t (1 : Fin 2) * 512 + 512; omega

/-- The output array after the region: the update of the arrays the region was entered with. -/
theorem atoms (c : Dev nD) :
    (dat3 V c).arrAt 4 cfg3.N
      = Cert.Net.dualRelu (n := 65536) (K₁ := 133) (K₂ := 512) (d := 512)
          (V c main_arg0) (V c main_v42) (V c main_v41) (V c main_v43) :=
  (dat3 V c).arrAt_eq_of_cover 4 _ (fun t _ => written_tile V c t) tiles_cover

end Cert.KernelIdeal.Region3

end
-- ==== Proof.LibMatmulPlain.lean ====
/-
  A rows-by-columns matrix product into a zero accumulator, read at an index on the extended reals.

  For `A : [M, K]` and `B : [K, N]` contracted on `A`'s last and `B`'s first axis, the product accumulated into the
  zero splat is, at `(i, j)`, the finite sum `∑ k, A (i, k) * B (k, j)`: no rounding and no chunk order is left at the
  exact values, and the contraction index with its one axis is the coordinate `k`.
-/
import Idealize.ShloMosaic.PureOps.Ideal
import Idealize.ShloMosaic.PureOps.Ideal.Laws
import Idealize.ShloMosaic.Lib.ValueIdx

noncomputable section

namespace Cert.LibMatmulPlain

open Idealize.ShloMosaic Idealize.ShloMosaic.ValueIdx

/-- The plain product `[M, K] × [K, N]` into the zero accumulator at `(i, j)` is `∑ k, A (i, k) * B (k, j)`. -/
theorem matmul_zero_apply {M K N : ℕ} {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ k : Fin K, A (ix2 i k) * B (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.LibMatmulPlain

end
-- ==== Proof.LibBiasRows.lean ====
/-
  A bias row added to every row of a matrix, with or without a rectifier, on the extended reals.

  For `a : [n, d]` and a row `b : [1, d]` the sum's entry (r, j) is `a (r, j) + b (0, j)`; the rectified layer takes the
  larger of that and the zero word's value.  The vector unit spells the sum as a cast of each operand to its own shape,
  a broadcast of the row down the n rows and an elementwise addition, and the rectifier as an elementwise maximum
  against a broadcast scalar.  An entry reads one entry of the matrix and one of the row, which the congruence lemmas
  record.  Nothing here needs finiteness.
-/
import Idealize.ShloMosaic.PureOps.Ideal
import Idealize.ShloMosaic.Lib.ValueIdx
import Idealize.ShloMosaic.Lib.Pipeline.Value

noncomputable section

namespace Cert.LibBiasRows

open Idealize.ShloMosaic Idealize.ShloMosaic.ValueIdx

/-- Entry (r, j) of the matrix with the row added to each of its rows. -/
def addRow {n d : ℕ} (a : (⟨2, ![n, d]⟩ : Shape).Idx → EReal) (b : (⟨2, ![1, d]⟩ : Shape).Idx → EReal) :
    (⟨2, ![n, d]⟩ : Shape).Idx → EReal :=
  fun i => a i + b (ix2 ⟨0, Nat.one_pos⟩ (i 1))

/-- The same followed by the rectifier: the larger of the sum and the zero word's value. -/
def reluRow {n d : ℕ} (a : (⟨2, ![n, d]⟩ : Shape).Idx → EReal) (b : (⟨2, ![1, d]⟩ : Shape).Idx → EReal) :
    (⟨2, ![n, d]⟩ : Shape).Idx → EReal :=
  fun i => max (addRow a b i) (Ideal.ofBits .f32 0x00000000#32)

/-- An entry of the sum reads the matrix at that entry and the row at its column. -/
theorem addRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    addRow a b i = addRow a' b' i' := by
  unfold addRow
  rw [ha, hb]

/-- The same for the rectified layer. -/
theorem reluRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    reluRow a b i = reluRow a' b' i' := by
  unfold reluRow
  rw [addRow_congr a a' b b' i i' ha hb]

/-- A row `[1, d]` broadcast down n rows, at entry (r, j), is the row at (0, j). -/
theorem row_broadcast {n d : ℕ} (b : (⟨2, ![1, d]⟩ : Shape).Idx → EReal)
    (h : (⟨2, ![1, d]⟩ : Shape).Broadcasts ⟨2, ![n, d]⟩) (i : (⟨2, ![n, d]⟩ : Shape).Idx) :
    broadcastTo ⟨2, ![n, d]⟩ b h i = b (ix2 ⟨0, Nat.one_pos⟩ (i 1)) := by
  refine broadcastTo_apply b h i (ix2 ⟨0, Nat.one_pos⟩ (i 1)) (fun a => ?_)
  match a with
  | ⟨0, _⟩ => exact (if_pos rfl).symm
  | ⟨1, _⟩ =>
    show (i 1).val = if d = 1 then 0 else (i 1).val
    have hlt : (i 1).val < d := idx2_lt1 i
    split
    · omega
    · rfl

/-- A vector `[d]` laid out as a row `[1, d]`, at (0, j), is the vector at j. -/
theorem row_of_vector {d : ℕ} (b : (⟨1, ![d]⟩ : Shape).Idx → EReal) (h : (⟨1, ![d]⟩ : Shape).ShapeCasts ⟨2, ![1, d]⟩)
    (j : Fin d) : shapeCast ⟨2, ![1, d]⟩ b h (ix2 ⟨0, Nat.one_pos⟩ j) = b (ix1 j) := by
  refine (shapeCast_addUnit_apply ![d] b h _).trans (congrArg b (funext fun a => ?_))
  match a with
  | ⟨0, _⟩ => rfl

/-- The vector unit's spelling of the sum, at an entry. -/
theorem vec_addRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    addf (shapeCast ⟨2, ![n, d]⟩ x h0) (broadcastTo ⟨2, ![n, d]⟩ (shapeCast ⟨2, ![1, d]⟩ b h1) h2) i = addRow x b i := by
  rw [shapeCast_self, shapeCast_self]
  show x i + broadcastTo ⟨2, ![n, d]⟩ b h2 i = x i + b (ix2 ⟨0, Nat.one_pos⟩ (i 1))
  rw [row_broadcast]

/-- The vector unit's spelling of the rectified layer, at an entry. -/
theorem vec_reluRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    maximumf (addf (shapeCast ⟨2, ![n, d]⟩ x h0) (broadcastTo ⟨2, ![n, d]⟩ (shapeCast ⟨2, ![1, d]⟩ b h1) h2))
        (broadcast ⟨2, ![n, d]⟩ (FloatOps.ofBits (F := Ideal) .f32 0x00000000#32)) i = reluRow x b i := by
  show max (addf (shapeCast ⟨2, ![n, d]⟩ x h0) (broadcastTo ⟨2, ![n, d]⟩ (shapeCast ⟨2, ![1, d]⟩ b h1) h2) i) _ = max (addRow x b i) _
  rw [vec_addRow]
  rfl

end Cert.LibBiasRows

end
-- ==== Proof.LibDenseRelu.lean ====
/-
  A dense map with a bias row and a rectifier, as a vector unit spells it, read at an entry on the extended reals.

  For `a : [n, K]`, `w : [K, d]` and a bias row `b : [1, d]`, the product accumulated into the zero splat, plus the row
  broadcast down the n rows, rectified against the splat of the zero word, is at (r, j)
      max( ∑ k, a (r, k) · w (k, j) + b (0, j), 0 ).
  The operands may be in any float format (a change of format is the identity at the exact values); nothing here
  needs finiteness, and the extents are arbitrary.
-/
import Idealize.ShloMosaic.PureOps.Ideal
import Idealize.ShloMosaic.PureOps.Ideal.Laws
import Idealize.ShloMosaic.Lib.ValueIdx
import Idealize.ShloMosaic.Lib.Pipeline.Value
import proofs.«130696_j36455682408490_1_alg».proof.Proof.LibMatmulPlain
import proofs.«130696_j36455682408490_1_alg».proof.Proof.LibBiasRows

noncomputable section

namespace Cert.LibDenseRelu

open Idealize.ShloMosaic Idealize.ShloMosaic.ValueIdx

/-- The affine part: product into the zero accumulator plus the broadcast bias row (the row cast to its own shape
    first, as the vector unit prints it), at (r, j). -/
theorem vec_dense {n K d : ℕ} {φ₁ φ₂ : FTy} (prec : Option ContractPrecision)
    (a : FVec Ideal ⟨2, ![n, K]⟩ φ₁) (w : FVec Ideal ⟨2, ![K, d]⟩ φ₂) (b : FVec Ideal ⟨2, ![1, d]⟩ .f32)
    (h1 : (⟨2, ![1, d]⟩ : Shape).ShapeCasts ⟨2, ![1, d]⟩) (h2 : (⟨2, ![1, d]⟩ : Shape).Broadcasts ⟨2, ![n, d]⟩)
    (r : Fin n) (j : Fin d) :
    addf (FloatOps.matmul (DotDims.plain n K d) prec a w (constant ⟨2, ![n, d]⟩ .f32 0x00000000#32))
        (broadcastTo ⟨2, ![n, d]⟩ (shapeCast ⟨2, ![1, d]⟩ b h1) h2) (ix2 r j)
      = (∑ k : Fin K, a (ix2 r k) * w (ix2 k j)) + b (ix2 ⟨0, Nat.one_pos⟩ j) := by
  show FloatOps.matmul (DotDims.plain n K d) prec a w (constant ⟨2, ![n, d]⟩ .f32 0x00000000#32) (ix2 r j)
      + broadcastTo ⟨2, ![n, d]⟩ (shapeCast ⟨2, ![1, d]⟩ b h1) h2 (ix2 r j) = _
  rw [Cert.LibMatmulPlain.matmul_zero_apply, shapeCast_self, Cert.LibBiasRows.row_broadcast]
  rfl

/-- The rectified layer at (r, j). -/
theorem vec_dense_relu {n K d : ℕ} {φ₁ φ₂ : FTy} (prec : Option ContractPrecision)
    (a : FVec Ideal ⟨2, ![n, K]⟩ φ₁) (w : FVec Ideal ⟨2, ![K, d]⟩ φ₂) (b : FVec Ideal ⟨2, ![1, d]⟩ .f32)
    (h1 : (⟨2, ![1, d]⟩ : Shape).ShapeCasts ⟨2, ![1, d]⟩) (h2 : (⟨2, ![1, d]⟩ : Shape).Broadcasts ⟨2, ![n, d]⟩)
    (r : Fin n) (j : Fin d) :
    maximumf (addf (FloatOps.matmul (DotDims.plain n K d) prec a w (constant ⟨2, ![n, d]⟩ .f32 0x00000000#32))
        (broadcastTo ⟨2, ![n, d]⟩ (shapeCast ⟨2, ![1, d]⟩ b h1) h2))
        (broadcast ⟨2, ![n, d]⟩ (FloatOps.ofBits (F := Ideal) .f32 0x00000000#32)) (ix2 r j)
      = max ((∑ k : Fin K, a (ix2 r k) * w (ix2 k j)) + b (ix2 ⟨0, Nat.one_pos⟩ j)) (Ideal.ofBits .f32 0x00000000#32) := by
  show max (addf (FloatOps.matmul (DotDims.plain n K d) prec a w (constant ⟨2, ![n, d]⟩ .f32 0x00000000#32))
        (broadcastTo ⟨2, ![n, d]⟩ (shapeCast ⟨2, ![1, d]⟩ b h1) h2) (ix2 r j)) _ = _
  rw [vec_dense]
  rfl

end Cert.LibDenseRelu

end
-- ==== Proof.Region4.lean ====
/-
  What the classifier leaves in its output array.

  The classifier is three rectified dense layers with bias rows, a rectifier once more, and a last dense layer
  `[512, 1]` with its bias, applied to a row operand `X : [2048, 512]`.  The rows are cut into 2 tiles of 1024 rows; the tile
  of the result at rows 1024·t … 1024·t + 1023 is computed from the same rows of `X` and the whole of every weight and
  bias row.  An entry (r, j) of each layer reads row r of the layer's row operand only, so by induction through the
  layers the entry (r, 0) of the classifier reads row r of `X` only, and the tiles, put back at their rows, are the
  classifier of the whole arrays.
-/
import proofs.«130696_j36455682408490_1_alg».proof.Proof.Gen.KernelIdeal.Frame
import proofs.«130696_j36455682408490_1_alg».proof.Proof.Net
import proofs.«130696_j36455682408490_1_alg».proof.Proof.LibDenseRelu
import Idealize.ShloMosaic.Lib.Pipeline.Value
import Idealize.ShloMosaic.Lib.ValueIdx

noncomputable section

namespace Cert.KernelIdeal.Region4

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-! ## One tile's value -/

/-- One hidden layer as the vector unit spells it: the product of the rows with the weight into the zero accumulator,
    plus the bias row down the rows, rectified. -/
theorem hidden_layer (a : FVec Ideal S1024x512 .f32) (w : Vec Ideal S512x512 .f32) (b : Vec Ideal S1x512 .f32) :
    maximumf (addf (FloatOps.matmul dot_S1024x512_S512x512_S1024x512_1_0_0_1_n_n none (truncf .bf16 a bitsLt_bf16_f32)
          (truncf .bf16 w bitsLt_bf16_f32) (constant S1024x512 .f32 0x00000000#32))
        (broadcastTo S1024x512 (shapeCast S1x512 b shapeCasts_S1x512_S1x512) broadcasts_S1x512_S1024x512))
      (broadcast S1024x512 (Scalar.ofBits .f32 0x00000000#32))
      = Cert.Net.linRowRelu (n := 1024) (K := 512) (d := 512) a w b := by
  funext i
  obtain ⟨r, j, rfl⟩ : ∃ (r : Fin 1024) (j : Fin 512), i = ix2 r j := ⟨i 0, i 1, eq_ix2 i⟩
  show maximumf (addf (FloatOps.matmul (DotDims.plain 1024 512 512) none (truncf .bf16 a bitsLt_bf16_f32)
          (truncf .bf16 w bitsLt_bf16_f32) (constant (F := Ideal) ⟨2, ![1024, 512]⟩ .f32 0x00000000#32))
        (broadcastTo ⟨2, ![1024, 512]⟩ (shapeCast ⟨2, ![1, 512]⟩ b shapeCasts_S1x512_S1x512) broadcasts_S1x512_S1024x512))
      (broadcast ⟨2, ![1024, 512]⟩ (FloatOps.ofBits (F := Ideal) .f32 0x00000000#32)) (ix2 r j) = _
  rw [Cert.LibDenseRelu.vec_dense_relu]
  rfl

/-- The last layer as the vector unit spells it: the product with the `[512, 1]` weight into the zero accumulator plus
    the bias down the rows. -/
theorem last_layer (a : FVec Ideal S1024x512 .f32) (w : Vec Ideal S512x1 .f32) (b : Vec Ideal S1x1 .f32) :
    k4_pay1 a (k4_pay3 w) b = Cert.Net.linRow (n := 1024) (K := 512) (d := 1) a w b := by
  funext i
  obtain ⟨r, j, rfl⟩ : ∃ (r : Fin 1024) (j : Fin 1), i = ix2 r j := ⟨i 0, i 1, eq_ix2 i⟩
  show addf (FloatOps.matmul (DotDims.plain 1024 512 1) none (truncf .bf16 a bitsLt_bf16_f32)
          (truncf .bf16 w bitsLt_bf16_f32) (constant (F := Ideal) ⟨2, ![1024, 1]⟩ .f32 0x00000000#32))
        (broadcastTo ⟨2, ![1024, 1]⟩ (shapeCast ⟨2, ![1, 1]⟩ b shapeCasts_S1x1_S1x1) broadcasts_S1x1_S1024x1) (ix2 r j) = _
  rw [Cert.LibDenseRelu.vec_dense]
  rfl

/-- The three hidden layers and the rectifier after them, layer by layer. -/
theorem hidden_layers (x0 : Vec Ideal S1024x512 .f32) (x1 : Vec Ideal S512x512 .f32) (x2 : Vec Ideal S1x512 .f32)
    (x3 : Vec Ideal S512x512 .f32) (x4 : Vec Ideal S1x512 .f32) (x5 : Vec Ideal S512x512 .f32) (x6 : Vec Ideal S1x512 .f32) :
    k4_pay2 x0 x1 x2 x3 x4 x5 x6
      = Cert.Net.relu (n := 1024) (d := 512) (Cert.Net.linRowRelu (n := 1024) (K := 512) (d := 512)
          (Cert.Net.linRowRelu (n := 1024) (K := 512) (d := 512)
            (Cert.Net.linRowRelu (n := 1024) (K := 512) (d := 512) x0 x1 x2) x3 x4) x5 x6) := by
  unfold k4_pay2
  dsimp only
  rw [shapeCast_self x0, hidden_layer, hidden_layer, hidden_layer]
  rfl

/-- The tile's value: the classifier of the tile's rows and the whole weights and bias rows. -/
theorem tile_value (x0 : Vec Ideal S1024x512 .f32) (x1 : Vec Ideal S512x512 .f32) (x2 : Vec Ideal S1x512 .f32)
    (x3 : Vec Ideal S512x512 .f32) (x4 : Vec Ideal S1x512 .f32) (x5 : Vec Ideal S512x512 .f32) (x6 : Vec Ideal S1x512 .f32)
    (x7 : Vec Ideal S512x1 .f32) (x8 : Vec Ideal S1x1 .f32) :
    k4_pay1 (k4_pay2 x0 x1 x2 x3 x4 x5 x6) (k4_pay3 x7) x8
      = Cert.Net.head (n := 1024) (H := 512) (C := 512) (o := 1) x0 x1 x2 x3 x4 x5 x6 x7 x8 := by
  rw [last_layer, hidden_layers]
  rfl

/-! ## A tile's entry is the whole arrays' entry at the tile's place -/

/-- An entry of a rectified dense layer with a bias row reads one row of the row operand: if row `r'` of `X'` is row `r`
    of `X`, the layers agree on those rows. -/
theorem linRowRelu_rows {n n' K d : ℕ} (X : (⟨2, ![n, K]⟩ : Shape).Idx → EReal) (X' : (⟨2, ![n', K]⟩ : Shape).Idx → EReal)
    (W : (⟨2, ![K, d]⟩ : Shape).Idx → EReal) (b : (⟨2, ![1, d]⟩ : Shape).Idx → EReal) (r : Fin n) (r' : Fin n')
    (hX : ∀ k : Fin K, X' (ix2 r' k) = X (ix2 r k)) (j : Fin d) :
    Cert.Net.linRowRelu X' W b (ix2 r' j) = Cert.Net.linRowRelu X W b (ix2 r j) := by
  unfold Cert.Net.linRowRelu Cert.Net.linRow
  rw [Cert.Net.prod_rows X X' W (ix2 r j) (ix2 r' j) hX rfl]
  rfl

/-- An entry of the classifier of a tile is the entry of the classifier of the whole arrays at the tile's place, when the
    tile's rows are the row operand's there and the tile's weights and bias rows are the whole ones: by the rows of each
    layer in turn. -/
theorem tile_entry (X : (⟨2, ![2048, 512]⟩ : Shape).Idx → EReal)
    (W₁ : (⟨2, ![512, 512]⟩ : Shape).Idx → EReal) (B₁ : (⟨2, ![1, 512]⟩ : Shape).Idx → EReal)
    (W₂ : (⟨2, ![512, 512]⟩ : Shape).Idx → EReal) (B₂ : (⟨2, ![1, 512]⟩ : Shape).Idx → EReal)
    (W₃ : (⟨2, ![512, 512]⟩ : Shape).Idx → EReal) (B₃ : (⟨2, ![1, 512]⟩ : Shape).Idx → EReal)
    (Wo : (⟨2, ![512, 1]⟩ : Shape).Idx → EReal) (Bo : (⟨2, ![1, 1]⟩ : Shape).Idx → EReal)
    (x : (⟨2, ![1024, 512]⟩ : Shape).Idx → EReal)
    (w₁ : (⟨2, ![512, 512]⟩ : Shape).Idx → EReal) (b₁ : (⟨2, ![1, 512]⟩ : Shape).Idx → EReal)
    (w₂ : (⟨2, ![512, 512]⟩ : Shape).Idx → EReal) (b₂ : (⟨2, ![1, 512]⟩ : Shape).Idx → EReal)
    (w₃ : (⟨2, ![512, 512]⟩ : Shape).Idx → EReal) (b₃ : (⟨2, ![1, 512]⟩ : Shape).Idx → EReal)
    (wo : (⟨2, ![512, 1]⟩ : Shape).Idx → EReal) (bo : (⟨2, ![1, 1]⟩ : Shape).Idx → EReal)
    (y : (⟨2, ![1024, 1]⟩ : Shape).Idx) (i : (⟨2, ![2048, 1]⟩ : Shape).Idx)
    (hx : ∀ k : Fin 512, x (ix2 (y 0) k) = X (ix2 (i 0) k)) (hj : y 1 = i 1)
    (h₁ : w₁ = W₁) (g₁ : b₁ = B₁) (h₂ : w₂ = W₂) (g₂ : b₂ = B₂) (h₃ : w₃ = W₃) (g₃ : b₃ = B₃) (ho : wo = Wo) (go : bo = Bo) :
    Cert.Net.head x w₁ b₁ w₂ b₂ w₃ b₃ wo bo y = Cert.Net.head X W₁ B₁ W₂ B₂ W₃ B₃ Wo Bo i := by
  subst h₁ g₁ h₂ g₂ h₃ g₃ ho go
  unfold Cert.Net.head Cert.Net.linRow
  refine congrArg₂ (· + ·) (Cert.Net.prod_rows _ _ wo i y (fun k => ?_) hj) (by rw [hj])
  unfold Cert.Net.relu
  refine congrArg (max · Cert.Net.Z) ?_
  exact linRowRelu_rows _ _ w₃ b₃ (i 0) (y 0)
    (fun k₃ => linRowRelu_rows _ _ w₂ b₂ (i 0) (y 0) (fun k₂ => linRowRelu_rows X x w₁ b₁ (i 0) (y 0) hx k₂) k₃) k

/-! ## The tiles, put back at their rows -/

/-- The printed index maps, decided over the 2 points: the row operand's and the result's tile at point t is tile t (one
    tile across), every weight's and bias row's block is the whole of it. -/
theorem tile_indices : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = t.val ∧ win4_9.index t (1 : Fin 2) = 0 :=
  (by decide +kernel : ∀ t : Fin grid4.N, _)

/-- Every tile of the result is some point's. -/
theorem tile_onto : ∀ q : Fin 2, ∃ t : Fin cfg4.N, t.val = q.val :=
  (by decide +kernel : ∀ q : Fin 2, ∃ t : Fin grid4.N, t.val = q.val)

/-- Row `y 0` of the row operand's tile at point t is the row of the whole operand that the result's tile puts `y` at. -/
theorem row_block (c : Dev nD) (t : Fin cfg4.N) (y : (⟨2, ![1024, 1]⟩ : Shape).Idx) (k : Fin 512) :
    (iblk4 V c 0 t : (⟨2, ![1024, 512]⟩ : Shape).Idx → EReal) (ix2 (y 0) k)
      = V c main_v54 (ix2 ((((cfg4.win 9).blk t).view.emb y) 0) k) := by
  obtain ⟨e00, e01, -, -, -, -, -, -, -, -, -, -, -, -, -, -, -, -, e90, e91⟩ := tile_indices t
  show V c main_v54 (((cfg4.win 0).blk t).view.emb (ix2 (y 0) k)) = V c main_v54 (ix2 ((((cfg4.win 9).blk t).view.emb y) 0) k)
  refine congrArg (V c main_v54) (funext fun a => Fin.ext ?_)
  match a with
  | ⟨0, _⟩ => show win4_0.index t (0 : Fin 2) * 1024 + 1 * (y 0).val = win4_9.index t (0 : Fin 2) * 1024 + 1 * (y 0).val; omega
  | ⟨1, _⟩ => show win4_0.index t (1 : Fin 2) * 512 + 1 * k.val = k.val; omega

/-- The result's tile has one column, the result's. -/
theorem col_block (t : Fin cfg4.N) (y : (⟨2, ![1024, 1]⟩ : Shape).Idx) :
    y 1 = (((cfg4.win 9).blk t).view.emb y : (⟨2, ![2048, 1]⟩ : Shape).Idx) 1 := by
  obtain ⟨-, -, -, -, -, -, -, -, -, -, -, -, -, -, -, -, -, -, e90, e91⟩ := tile_indices t
  apply Fin.ext
  show (y 1).val = win4_9.index t (1 : Fin 2) * 1 + 1 * (y 1).val
  omega

/-- The block of the first weight at any point is the whole of it. -/
theorem whole_block1 (c : Dev nD) (t : Fin cfg4.N) : (iblk4 V c 1 t : (⟨2, ![512, 512]⟩ : Shape).Idx → EReal) = V c main_arg5 := by
  obtain ⟨-, -, e0, e1, -, -, -, -, -, -, -, -, -, -, -, -, -, -, -, -⟩ := tile_indices t
  funext j
  show V c main_arg5 (((cfg4.win 1).blk t).view.emb j) = V c main_arg5 j
  refine congrArg (V c main_arg5) (funext fun a => Fin.ext ?_)
  match a with
  | ⟨0, _⟩ => show win4_1.index t (0 : Fin 2) * 512 + 1 * (j 0).val = (j 0).val; omega
  | ⟨1, _⟩ => show win4_1.index t (1 : Fin 2) * 512 + 1 * (j 1).val = (j 1).val; omega

/-- The block of the first bias row at any point is the whole of it. -/
theorem whole_block2 (c : Dev nD) (t : Fin cfg4.N) : (iblk4 V c 2 t : (⟨2, ![1, 512]⟩ : Shape).Idx → EReal) = V c main_v55 := by
  obtain ⟨-, -, -, -, e0, e1, -, -, -, -, -, -, -, -, -, -, -, -, -, -⟩ := tile_indices t
  funext j
  show V c main_v55 (((cfg4.win 2).blk t).view.emb j) = V c main_v55 j
  refine congrArg (V c main_v55) (funext fun a => Fin.ext ?_)
  match a with
  | ⟨0, _⟩ => show win4_2.index t (0 : Fin 2) * 1 + 1 * (j 0).val = (j 0).val; omega
  | ⟨1, _⟩ => show win4_2.index t (1 : Fin 2) * 512 + 1 * (j 1).val = (j 1).val; omega

/-- The block of the second weight at any point is the whole of it. -/
theorem whole_block3 (c : Dev nD) (t : Fin cfg4.N) : (iblk4 V c 3 t : (⟨2, ![512, 512]⟩ : Shape).Idx → EReal) = V c main_arg7 := by
  obtain ⟨-, -, -, -, -, -, e0, e1, -, -, -, -, -, -, -, -, -, -, -, -⟩ := tile_indices t
  funext j
  show V c main_arg7 (((cfg4.win 3).blk t).view.emb j) = V c main_arg7 j
  refine congrArg (V c main_arg7) (funext fun a => Fin.ext ?_)
  match a with
  | ⟨0, _⟩ => show win4_3.index t (0 : Fin 2) * 512 + 1 * (j 0).val = (j 0).val; omega
  | ⟨1, _⟩ => show win4_3.index t (1 : Fin 2) * 512 + 1 * (j 1).val = (j 1).val; omega

/-- The block of the second bias row at any point is the whole of it. -/
theorem whole_block4 (c : Dev nD) (t : Fin cfg4.N) : (iblk4 V c 4 t : (⟨2, ![1, 512]⟩ : Shape).Idx → EReal) = V c main_v56 := by
  obtain ⟨-, -, -, -, -, -, -, -, e0, e1, -, -, -, -, -, -, -, -, -, -⟩ := tile_indices t
  funext j
  show V c main_v56 (((cfg4.win 4).blk t).view.emb j) = V c main_v56 j
  refine congrArg (V c main_v56) (funext fun a => Fin.ext ?_)
  match a with
  | ⟨0, _⟩ => show win4_4.index t (0 : Fin 2) * 1 + 1 * (j 0).val = (j 0).val; omega
  | ⟨1, _⟩ => show win4_4.index t (1 : Fin 2) * 512 + 1 * (j 1).val = (j 1).val; omega

/-- The block of the third weight at any point is the whole of it. -/
theorem whole_block5 (c : Dev nD) (t : Fin cfg4.N) : (iblk4 V c 5 t : (⟨2, ![512, 512]⟩ : Shape).Idx → EReal) = V c main_arg9 := by
  obtain ⟨-, -, -, -, -, -, -, -, -, -, e0, e1, -, -, -, -, -, -, -, -⟩ := tile_indices t
  funext j
  show V c main_arg9 (((cfg4.win 5).blk t).view.emb j) = V c main_arg9 j
  refine congrArg (V c main_arg9) (funext fun a => Fin.ext ?_)
  match a with
  | ⟨0, _⟩ => show win4_5.index t (0 : Fin 2) * 512 + 1 * (j 0).val = (j 0).val; omega
  | ⟨1, _⟩ => show win4_5.index t (1 : Fin 2) * 512 + 1 * (j 1).val = (j 1).val; omega

/-- The block of the third bias row at any point is the whole of it. -/
theorem whole_block6 (c : Dev nD) (t : Fin cfg4.N) : (iblk4 V c 6 t : (⟨2, ![1, 512]⟩ : Shape).Idx → EReal) = V c main_v57 := by
  obtain ⟨-, -, -, -, -, -, -, -, -, -, -, -, e0, e1, -, -, -, -, -, -⟩ := tile_indices t
  funext j
  show V c main_v57 (((cfg4.win 6).blk t).view.emb j) = V c main_v57 j
  refine congrArg (V c main_v57) (funext fun a => Fin.ext ?_)
  match a with
  | ⟨0, _⟩ => show win4_6.index t (0 : Fin 2) * 1 + 1 * (j 0).val = (j 0).val; omega
  | ⟨1, _⟩ => show win4_6.index t (1 : Fin 2) * 512 + 1 * (j 1).val = (j 1).val; omega

/-- The block of the last weight at any point is the whole of it. -/
theorem whole_block7 (c : Dev nD) (t : Fin cfg4.N) : (iblk4 V c 7 t : (⟨2, ![512, 1]⟩ : Shape).Idx → EReal) = V c main_arg11 := by
  obtain ⟨-, -, -, -, -, -, -, -, -, -, -, -, -, -, e0, e1, -, -, -, -⟩ := tile_indices t
  funext j
  show V c main_arg11 (((cfg4.win 7).blk t).view.emb j) = V c main_arg11 j
  refine congrArg (V c main_arg11) (funext fun a => Fin.ext ?_)
  match a with
  | ⟨0, _⟩ => show win4_7.index t (0 : Fin 2) * 512 + 1 * (j 0).val = (j 0).val; omega
  | ⟨1, _⟩ => show win4_7.index t (1 : Fin 2) * 1 + 1 * (j 1).val = (j 1).val; omega

/-- The block of the last bias at any point is the whole of it. -/
theorem whole_block8 (c : Dev nD) (t : Fin cfg4.N) : (iblk4 V c 8 t : (⟨2, ![1, 1]⟩ : Shape).Idx → EReal) = V c main_v58 := by
  obtain ⟨-, -, -, -, -, -, -, -, -, -, -, -, -, -, -, -, e0, e1, -, -⟩ := tile_indices t
  funext j
  show V c main_v58 (((cfg4.win 8).blk t).view.emb j) = V c main_v58 j
  refine congrArg (V c main_v58) (funext fun a => Fin.ext ?_)
  match a with
  | ⟨0, _⟩ => show win4_8.index t (0 : Fin 2) * 1 + 1 * (j 0).val = (j 0).val; omega
  | ⟨1, _⟩ => show win4_8.index t (1 : Fin 2) * 1 + 1 * (j 1).val = (j 1).val; omega

/-- What point t writes back is tile t of the classifier of the arrays as the region finds them. -/
theorem written_tile (c : Dev nD) (t : Fin cfg4.N) :
    (dat4 V c).flushed 9 t = ((cfg4.win 9).blk t).view.read (Elt Ideal)
      (Cert.Net.head (n := 2048) (H := 512) (C := 512) (o := 1) (V c main_v54) (V c main_arg5) (V c main_v55) (V c main_arg7)
        (V c main_v56) (V c main_arg9) (V c main_v57) (V c main_arg11) (V c main_v58)) := by
  show (cfg4.win 9).cut (grid4.coords t) ((dat4 V c).after 9 t) = _
  rw [after4_9]
  unfold out4_9
  rw [View.canon_unit_zero zero_offsets]
  simp only [View.ld_unit_zero (S := S1024x512) zero_offsets, View.ld_unit_zero (S := S512x512) zero_offsets,
    View.ld_unit_zero (S := S1x512) zero_offsets, View.ld_unit_zero (S := S512x1) zero_offsets,
    View.ld_unit_zero (S := S1x1) zero_offsets]
  rw [tile_value]
  funext y
  exact tile_entry (V c main_v54) (V c main_arg5) (V c main_v55) (V c main_arg7) (V c main_v56) (V c main_arg9)
    (V c main_v57) (V c main_arg11) (V c main_v58) _ _ _ _ _ _ _ _ _ y (((cfg4.win 9).blk t).view.emb y)
    (row_block V c t y) (col_block t y) (whole_block1 V c t) (whole_block2 V c t) (whole_block3 V c t) (whole_block4 V c t)
    (whole_block5 V c t) (whole_block6 V c t) (whole_block7 V c t) (whole_block8 V c t)

/-- An index of the result is in point t's tile iff each coordinate is in the tile's range on its axis. -/
theorem mem_tile (t : Fin cfg4.N) (i : S2048x1.Idx) :
    i ∈ ((cfg4.win 9).blk t).view.set ↔ ∀ a : Fin 2, win4_9.index t a * S1024x1.size a ≤ (i a).val ∧ (i a).val < win4_9.index t a * S1024x1.size a + S1024x1.size a := by
  show i ∈ ((View.whole main_v59).slice (win4_9.rect t)).set ↔ _
  rw [View.set_slice_whole, Rect.mem_set_unit]
  exact Iff.rfl

/-- Every index of the result is in the tile of the point its row falls in. -/
theorem tiles_cover (i : S2048x1.Idx) :
    ∃ t : Fin cfg4.N, (cfg4.win 9).flush t = true ∧ i ∈ ((cfg4.win 9).blk t).view.set := by
  have hi0 : (i 0).val < 2048 := (i 0).isLt
  have hi1 : (i 1).val < 1 := (i 1).isLt
  obtain ⟨t, ht⟩ := tile_onto ⟨(i 0).val / 1024, by omega⟩
  have ht' : t.val = (i 0).val / 1024 := ht
  obtain ⟨-, -, -, -, -, -, -, -, -, -, -, -, -, -, -, -, -, -, e90, e91⟩ := tile_indices t
  refine ⟨t, flush4_9 t, ?_⟩
  rw [mem_tile]
  intro a
  match a with
  | ⟨0, _⟩ => show win4_9.index t (0 : Fin 2) * 1024 ≤ (i 0).val ∧ (i 0).val < win4_9.index t (0 : Fin 2) * 1024 + 1024; omega
  | ⟨1, _⟩ => show win4_9.index t (1 : Fin 2) * 1 ≤ (i 1).val ∧ (i 1).val < win4_9.index t (1 : Fin 2) * 1 + 1; omega

/-- The output array after the region: the classifier of the arrays the region was entered with. -/
theorem logits (c : Dev nD) :
    (dat4 (F := Ideal) V c).arrAt 9 cfg4.N
      = Cert.Net.head (V c main_v54) (V c main_arg5) (V c main_v55) (V c main_arg7) (V c main_v56) (V c main_arg9)
          (V c main_v57) (V c main_arg11) (V c main_v58) :=
  (dat4 V c).arrAt_eq_of_cover 9 _ (fun t _ => written_tile V c t) tiles_cover

end Cert.KernelIdeal.Region4

end
-- ==== Proof.KernelValue.lean ====
/-
  The idealized kernel's result as the network.

  The five regions' outputs, each the layer of the arrays its region was entered with, and the host operations between
  them, read back to the launch contents of the arguments, compose to the whole network: the input layer, two
  message-passing updates, the atom layer, the per-molecule mean, the classifier.
-/
import proofs.«130696_j36455682408490_1_alg».proof.Proof.KernelFold
import proofs.«130696_j36455682408490_1_alg».proof.Proof.Region0
import proofs.«130696_j36455682408490_1_alg».proof.Proof.Region1
import proofs.«130696_j36455682408490_1_alg».proof.Proof.Region2
import proofs.«130696_j36455682408490_1_alg».proof.Proof.Region3
import proofs.«130696_j36455682408490_1_alg».proof.Proof.Region4
import proofs.«130696_j36455682408490_1_alg».proof.Proof.Net

noncomputable section

namespace Cert.KernelIdeal.Whole

open Cert.KernelIdeal Cert.KernelIdeal.Gen Cert.KernelIdeal.Glue Cert.KernelIdeal.Fold
open Idealize.ShloMosaic Idealize.ShloMosaic.TcCoe

/-- The network, over the kernel's host operations: `fa` the atom features, `fb` the bond features, `wi wh wo` the
    message-passing weights, `c1w … ob` the classifier's, `src dst rev mol` the graph's index arrays. -/
def net (fa : S65536x133.Idx → EReal) (fb : S131072x147.Idx → EReal) (wi : S147x512.Idx → EReal) (wh : S512x512.Idx → EReal)
    (wo : S645x512.Idx → EReal) (c1w : S512x512.Idx → EReal) (c1b : S512.Idx → EReal) (c2w : S512x512.Idx → EReal)
    (c2b : S512.Idx → EReal) (c3w : S512x512.Idx → EReal) (c3b : S512.Idx → EReal) (ow : S512x1.Idx → EReal) (ob : S1.Idx → EReal)
    (src dst rev : (⟨S131072, .i32⟩ : BufTy).Contents (Elt Ideal)) (mol : (⟨S65536, .i32⟩ : BufTy).Contents (Elt Ideal)) :
    S2048x1.Idx → EReal :=
  Cert.Net.head (n := 2048) (H := 512) (C := 512) (o := 1)
    (molMean (F := Ideal) mol
      (Cert.Net.dualRelu (n := 65536) (K₁ := 133) (K₂ := 512) (d := 512) fa
        (extractStridedSlice S133x512 ![0, 0] wo slices_S645x512_S133x512_0_0)
        (toAtoms (F := Ideal) dst
          (Cert.Net.linAddRelu (n := 131072) (K := 512) (d := 512)
            (incoming (F := Ideal) src dst rev
              (Cert.Net.linAddRelu (n := 131072) (K := 512) (d := 512)
                (incoming (F := Ideal) src dst rev (Cert.Net.linRelu (n := 131072) (K := 147) (d := 512) fb wi))
                wh (Cert.LibDense.prod (n := 131072) (K := 147) (d := 512) fb wi)))
            wh (Cert.LibDense.prod (n := 131072) (K := 147) (d := 512) fb wi)))
        (extractStridedSlice S512x512 ![133, 0] wo slices_S645x512_S512x512_133_0)))
    c1w (shapeCast S1x512 c1b shapeCasts_S512_S1x512) c2w (shapeCast S1x512 c2b shapeCasts_S512_S1x512)
    c3w (shapeCast S1x512 c3b shapeCasts_S512_S1x512) ow (shapeCast S1x1 ob shapeCasts_S1_S1x1)

variable (m : (ℓ : Loc nD τ sig) → Buf (Elt Ideal) ℓ) (ρ : Dev nD → PrngReg) (c : Dev nD)

set_option maxHeartbeats 4000000 in
/-- The last region's output array, as its write-backs leave it, is the network of the launch contents. -/
theorem result_eq : (dat4 (F := Ideal) (V8 m ρ) c).arrAt 9 cfg4.N
    = net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14))
        (m ((c : Thread nD τ).loc main_arg15)) (m ((c : Thread nD τ).loc main_arg16)) := by
  rw [Region4.logits (V8 m ρ) c, entry4_x, entry4_w1, entry4_w2, entry4_w3, entry4_wo, entry4_b1, entry4_b2, entry4_b3, entry4_bo]
  rw [Region3.atoms (V6 m ρ) c, entry3_x, entry3_w1, entry3_h, entry3_w2]
  rw [Region2.update (V4 m ρ) c, entry2_x, entry2_w, entry2_a]
  rw [Region1.update (V2 m ρ) c, entry1_x, entry1_w, entry1_a]
  rw [Region0.msg (V0 m ρ) c, Region0.inp (V0 m ρ) c, entry0_x, entry0_w]
  rfl

end Cert.KernelIdeal.Whole

end
-- ==== Proof.RefNet.lean ====
/-
  The reference program's result as the network's layers.

  The reference's result is one closed term of its seventeen arguments: five kinds of dense stage (a matrix product,
  possibly with another matrix or a bias row added, possibly rectified) set among index-driven sums and row
  selections.  Here that term is shown equal to the layers of `Cert.Net` applied around the index-driven parts,
  which are kept as named terms and never opened:

    toAtoms dst msg       the rows of `msg` summed into the atom named by `dst`
    agg src dst rev msg   for each bond, the atom sum at its source less the message of its reverse bond
    pool mol h            the mean of the rows of `h` over each molecule
    cat fa am             the atom features beside the atom sums, along the columns
    row512 b, row1 b      a bias vector as a one-row matrix

  On the extended reals every operation is exact and entrywise, so each dense stage is read entry by entry: the
  host's product is the row-by-column sum, the larger of a matrix and the spread zero word is the rectifier, a
  one-row matrix spread down the rows adds its entry of the same column.  The only algebra is commutativity of
  the sum, where the reference adds the input before the product and the layer adds it after.
-/
import proofs.«130696_j36455682408490_1_alg».proof.Proof.Gen.ReferenceIdeal.Run
import proofs.«130696_j36455682408490_1_alg».proof.Proof.Net
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefNet

open Cert.ReferenceIdeal Cert.ReferenceIdeal.Gen Cert.ReferenceIdeal.Value Idealize.ShloMosaic Idealize.ShloMosaic.ValueIdx
open Idealize.SL.Sem Idealize.ShloMosaic.TcCoe

/-- The sum of the bond messages arriving at each atom. -/
def toAtoms (dst : (⟨S131072, .i32⟩ : BufTy).Contents (Elt Ideal)) (msg : (⟨S131072x512, .f32⟩ : BufTy).Contents (Elt Ideal)) :
    (⟨S65536x512, .f32⟩ : BufTy).Contents (Elt Ideal) :=
  Host.scatterAdd scatter_S65536x512_S131072x1_S131072x512_1_0_0_1
    (broadcastInDim S65536x512 ![] bcast_S_S65536x512 (constant (F := Ideal) S_ .f32 0x00000000#32))
    (broadcastInDim S131072x1 ![0] bcast_S131072_S131072x1_0 dst) msg

/-- For each bond, the sum at its source atom less the message of the reverse bond. -/
def agg (src dst rev : (⟨S131072, .i32⟩ : BufTy).Contents (Elt Ideal)) (msg : (⟨S131072x512, .f32⟩ : BufTy).Contents (Elt Ideal)) :
    (⟨S131072x512, .f32⟩ : BufTy).Contents (Elt Ideal) :=
  subf (F := Ideal) (φ := .f32)
    (Host.gather gather_S65536x512_S131072x1_S131072x512_1_0_n_n_0_1_1512 (toAtoms dst msg)
      (broadcastInDim S131072x1 ![0] bcast_S131072_S131072x1_0
        (select (cmpi .slt src (broadcastInDim S131072 ![] bcast_S_S131072 (constantI S_ 32 0#32)))
          (addi src (broadcastInDim S131072 ![] bcast_S_S131072 (constantI S_ 32 65536#32))) src)))
    (Host.gather gather_S131072x512_S131072x1_S131072x512_1_0_n_n_0_1_1512 msg
      (broadcastInDim S131072x1 ![0] bcast_S131072_S131072x1_0
        (select (cmpi .slt rev (broadcastInDim S131072 ![] bcast_S_S131072 (constantI S_ 32 0#32)))
          (addi rev (broadcastInDim S131072 ![] bcast_S_S131072 (constantI S_ 32 131072#32))) rev)))

/-- The mean of the atom rows of each molecule. -/
def pool (mol : (⟨S65536, .i32⟩ : BufTy).Contents (Elt Ideal)) (h : (⟨S65536x512, .f32⟩ : BufTy).Contents (Elt Ideal)) :
    (⟨S2048x512, .f32⟩ : BufTy).Contents (Elt Ideal) :=
  Host.divf
    (Host.scatterAdd scatter_S2048x512_S65536x1_S65536x512_1_0_0_1
      (broadcastInDim S2048x512 ![] bcast_S_S2048x512 (constant (F := Ideal) S_ .f32 0x00000000#32))
      (broadcastInDim S65536x1 ![0] bcast_S65536_S65536x1_0 mol) h)
    (broadcastInDim S2048x512 ![0, 1] bcast_S2048x1_S2048x512_0_1
      (broadcastInDim S2048x1 ![0] bcast_S2048_S2048x1_0
        (Host.scatterAdd scatter_S2048_S65536x1_S65536_n_0_0_1
          (broadcastInDim S2048 ![] bcast_S_S2048 (constant (F := Ideal) S_ .f32 0x00000000#32))
          (broadcastInDim S65536x1 ![0] bcast_S65536_S65536x1_0 mol)
          (broadcastInDim S65536 ![] bcast_S_S65536 (constant (F := Ideal) S_ .f32 0x3F800000#32)))))

/-- The atom features beside the atom sums, along the columns. -/
def cat (fa : (⟨S65536x133, .f32⟩ : BufTy).Contents (Elt Ideal)) (am : (⟨S65536x512, .f32⟩ : BufTy).Contents (Elt Ideal)) :
    (⟨S65536x645, .f32⟩ : BufTy).Contents (Elt Ideal) :=
  concatenate S65536x645 1 [⟨S65536x133, fa⟩, ⟨S65536x512, am⟩] concatenates_S65536x133_S65536x512_S65536x645_d1

/-- A bias vector as a one-row matrix. -/
def row512 (b : (⟨S512, .f32⟩ : BufTy).Contents (Elt Ideal)) : (⟨S1x512, .f32⟩ : BufTy).Contents (Elt Ideal) :=
  broadcastInDim S1x512 ![1] bcast_S512_S1x512_1 b

def row1 (b : (⟨S1, .f32⟩ : BufTy).Contents (Elt Ideal)) : (⟨S1x1, .f32⟩ : BufTy).Contents (Elt Ideal) :=
  broadcastInDim S1x1 ![1] bcast_S1_S1x1_1 b

/-! ## The dense stages, one lemma per kind -/

/-- The host's product of two matrices is the row-by-column sum. -/
theorem dot0 (X : (⟨S131072x147, .f32⟩ : BufTy).Contents (Elt Ideal)) (W : (⟨S147x512, .f32⟩ : BufTy).Contents (Elt Ideal)) :
    Host.dotGeneral (F := Ideal) (φ₁ := .f32) (φ₂ := .f32) dot_S131072x147_S147x512_S131072x512_1_0_0_1_n_n none X W = Cert.LibDense.prod X W :=
  funext fun i => Cert.LibDense.dotGeneral_plain .single X W i

theorem dot1 (X : (⟨S131072x512, .f32⟩ : BufTy).Contents (Elt Ideal)) (W : (⟨S512x512, .f32⟩ : BufTy).Contents (Elt Ideal)) :
    Host.dotGeneral (F := Ideal) (φ₁ := .f32) (φ₂ := .f32) dot_S131072x512_S512x512_S131072x512_1_0_0_1_n_n none X W = Cert.LibDense.prod X W :=
  funext fun i => Cert.LibDense.dotGeneral_plain .single X W i

theorem dot2 (X : (⟨S65536x645, .f32⟩ : BufTy).Contents (Elt Ideal)) (W : (⟨S645x512, .f32⟩ : BufTy).Contents (Elt Ideal)) :
    Host.dotGeneral (F := Ideal) (φ₁ := .f32) (φ₂ := .f32) dot_S65536x645_S645x512_S65536x512_1_0_0_1_n_n none X W = Cert.LibDense.prod X W :=
  funext fun i => Cert.LibDense.dotGeneral_plain .single X W i

theorem dot3 (X : (⟨S2048x512, .f32⟩ : BufTy).Contents (Elt Ideal)) (W : (⟨S512x512, .f32⟩ : BufTy).Contents (Elt Ideal)) :
    Host.dotGeneral (F := Ideal) (φ₁ := .f32) (φ₂ := .f32) dot_S2048x512_S512x512_S2048x512_1_0_0_1_n_n none X W = Cert.LibDense.prod X W :=
  funext fun i => Cert.LibDense.dotGeneral_plain .single X W i

theorem dot4 (X : (⟨S2048x512, .f32⟩ : BufTy).Contents (Elt Ideal)) (W : (⟨S512x1, .f32⟩ : BufTy).Contents (Elt Ideal)) :
    Host.dotGeneral (F := Ideal) (φ₁ := .f32) (φ₂ := .f32) dot_S2048x512_S512x1_S2048x1_1_0_0_1_n_n none X W = Cert.LibDense.prod X W :=
  funext fun i => Cert.LibDense.dotGeneral_plain .single X W i

/-- The larger of a matrix and the zero word spread over its shape is the rectifier. -/
theorem relu_eq {n d : ℕ} (x : (⟨2, ![n, d]⟩ : Shape).Idx → EReal) (h : S_.BroadcastsInDim ⟨2, ![n, d]⟩ (![] : Fin 0 → Fin 2)) :
    maximumf (F := Ideal) (φ := .f32) x (broadcastInDim ⟨2, ![n, d]⟩ ![] h (constant (F := Ideal) S_ .f32 0x00000000#32)) = Cert.Net.relu x :=
  funext fun i => by
    rw [maximumf_apply, broadcastInDim_apply _ h _ i ix0 (fun a => a.elim0)]
    rfl

/-- The rectifier of a product is the rectified dense layer. -/
theorem relu_prod {n K d : ℕ} (X : (⟨2, ![n, K]⟩ : Shape).Idx → EReal) (W : (⟨2, ![K, d]⟩ : Shape).Idx → EReal) :
    Cert.Net.relu (Cert.LibDense.prod X W) = Cert.Net.linRelu X W := rfl

/-- A matrix added before a product, rectified: the sum commutes. -/
theorem relu_add {n K d : ℕ} (A : (⟨2, ![n, d]⟩ : Shape).Idx → EReal) (X : (⟨2, ![n, K]⟩ : Shape).Idx → EReal) (W : (⟨2, ![K, d]⟩ : Shape).Idx → EReal) :
    Cert.Net.relu (addf (F := Ideal) (φ := .f32) A (Cert.LibDense.prod X W)) = Cert.Net.linAddRelu X W A :=
  funext fun i => by
    show max (A i + Cert.LibDense.prod X W i) Cert.Net.Z = max (Cert.LibDense.prod X W i + A i) Cert.Net.Z
    rw [add_comm]

/-- A one-row matrix spread down the rows and added to a product: the dense layer with a bias row. -/
theorem add_row {n K d : ℕ} (X : (⟨2, ![n, K]⟩ : Shape).Idx → EReal) (W : (⟨2, ![K, d]⟩ : Shape).Idx → EReal)
    (b : (⟨2, ![1, d]⟩ : Shape).Idx → EReal)
    (h : (⟨2, ![1, d]⟩ : Shape).BroadcastsInDim ⟨2, ![n, d]⟩ (![0, 1] : Fin 2 → Fin 2)) :
    addf (F := Ideal) (φ := .f32) (Cert.LibDense.prod X W) (broadcastInDim ⟨2, ![n, d]⟩ ![0, 1] h b) = Cert.Net.linRow X W b :=
  funext fun i => by
    rw [addf_apply]
    refine congrArg (Cert.LibDense.prod X W i + ·) ?_
    refine broadcastInDim_apply _ h b i (ix2 ⟨0, Nat.one_pos⟩ (i 1)) (fun a => ?_)
    match a with
    | ⟨0, _⟩ => exact (if_pos rfl).symm
    | ⟨1, _⟩ =>
      show (i 1).val = if d = 1 then 0 else (i 1).val
      have hlt : (i 1).val < d := idx2_lt1 i
      split
      · omega
      · rfl

/-- The rectifier of a dense layer with a bias row. -/
theorem relu_row {n K d : ℕ} (X : (⟨2, ![n, K]⟩ : Shape).Idx → EReal) (W : (⟨2, ![K, d]⟩ : Shape).Idx → EReal)
    (b : (⟨2, ![1, d]⟩ : Shape).Idx → EReal) :
    Cert.Net.relu (Cert.Net.linRow X W b) = Cert.Net.linRowRelu X W b := rfl

/-! ## The stages with their operands carried along

Each lemma takes the equation already proved for the operand inside, so that the layers compose from the inside out. -/

/-- The larger of a matrix and the zero word spread over its shape, the matrix already rewritten. -/
theorem relu_of {n d : ℕ} (x x' : (⟨2, ![n, d]⟩ : Shape).Idx → EReal) (hx : x = x')
    {h : S_.BroadcastsInDim ⟨2, ![n, d]⟩ (![] : Fin 0 → Fin 2)} :
    maximumf (F := Ideal) (φ := .f32) x (broadcastInDim ⟨2, ![n, d]⟩ ![] h (constant (F := Ideal) S_ .f32 0x00000000#32)) = Cert.Net.relu x' :=
  hx ▸ relu_eq x h

/-- The bond messages before any round of passing. -/
theorem msg0_eq (fb : (⟨S131072x147, .f32⟩ : BufTy).Contents (Elt Ideal)) (wi : (⟨S147x512, .f32⟩ : BufTy).Contents (Elt Ideal)) :
    maximumf (F := Ideal) (φ := .f32)
        (Host.dotGeneral (F := Ideal) (φ₁ := .f32) (φ₂ := .f32) dot_S131072x147_S147x512_S131072x512_1_0_0_1_n_n none fb wi)
        (broadcastInDim S131072x512 ![] bcast_S_S131072x512 (constant (F := Ideal) S_ .f32 0x00000000#32))
      = Cert.Net.linRelu fb wi :=
  relu_of _ _ (dot0 fb wi)

/-- One round of passing: the input plus the aggregated messages through the hidden weights, rectified. -/
theorem step_eq (fb : (⟨S131072x147, .f32⟩ : BufTy).Contents (Elt Ideal)) (wi : (⟨S147x512, .f32⟩ : BufTy).Contents (Elt Ideal))
    (wh : (⟨S512x512, .f32⟩ : BufTy).Contents (Elt Ideal)) (A A' : (⟨S131072x512, .f32⟩ : BufTy).Contents (Elt Ideal)) (hA : A = A') :
    maximumf (F := Ideal) (φ := .f32)
        (addf (F := Ideal) (φ := .f32)
          (Host.dotGeneral (F := Ideal) (φ₁ := .f32) (φ₂ := .f32) dot_S131072x147_S147x512_S131072x512_1_0_0_1_n_n none fb wi)
          (Host.dotGeneral (F := Ideal) (φ₁ := .f32) (φ₂ := .f32) dot_S131072x512_S512x512_S131072x512_1_0_0_1_n_n none A wh))
        (broadcastInDim S131072x512 ![] bcast_S_S131072x512 (constant (F := Ideal) S_ .f32 0x00000000#32))
      = Cert.Net.linAddRelu A' wh (Cert.LibDense.prod fb wi) := by
  subst hA
  rw [dot0, dot1]
  exact (relu_eq _ _).trans (relu_add _ _ _)

/-- The atom layer: the joined features through the output weights, rectified. -/
theorem atom_eq (X X' : (⟨S65536x645, .f32⟩ : BufTy).Contents (Elt Ideal)) (wo : (⟨S645x512, .f32⟩ : BufTy).Contents (Elt Ideal)) (hX : X = X') :
    maximumf (F := Ideal) (φ := .f32)
        (Host.dotGeneral (F := Ideal) (φ₁ := .f32) (φ₂ := .f32) dot_S65536x645_S645x512_S65536x512_1_0_0_1_n_n none X wo)
        (broadcastInDim S65536x512 ![] bcast_S_S65536x512 (constant (F := Ideal) S_ .f32 0x00000000#32))
      = Cert.Net.linRelu X' wo :=
  hX ▸ relu_of _ _ (dot2 X wo)

/-- A rectified classifier layer with its bias row. -/
theorem layer_eq (X X' : (⟨S2048x512, .f32⟩ : BufTy).Contents (Elt Ideal)) (W : (⟨S512x512, .f32⟩ : BufTy).Contents (Elt Ideal))
    (r : (⟨S1x512, .f32⟩ : BufTy).Contents (Elt Ideal)) (hX : X = X') :
    maximumf (F := Ideal) (φ := .f32)
        (addf (F := Ideal) (φ := .f32)
          (Host.dotGeneral (F := Ideal) (φ₁ := .f32) (φ₂ := .f32) dot_S2048x512_S512x512_S2048x512_1_0_0_1_n_n none X W)
          (broadcastInDim S2048x512 ![0, 1] bcast_S1x512_S2048x512_0_1 r))
        (broadcastInDim S2048x512 ![] bcast_S_S2048x512 (constant (F := Ideal) S_ .f32 0x00000000#32))
      = Cert.Net.linRowRelu X' W r := by
  subst hX
  rw [dot3]
  exact relu_of _ _ (add_row X W r _)

/-- The last layer with its bias row. -/
theorem out_eq (Y Y' : (⟨S2048x512, .f32⟩ : BufTy).Contents (Elt Ideal)) (W : (⟨S512x1, .f32⟩ : BufTy).Contents (Elt Ideal))
    (r : (⟨S1x1, .f32⟩ : BufTy).Contents (Elt Ideal)) (hY : Y = Y') :
    addf (F := Ideal) (φ := .f32)
        (Host.dotGeneral (F := Ideal) (φ₁ := .f32) (φ₂ := .f32) dot_S2048x512_S512x1_S2048x1_1_0_0_1_n_n none Y W)
        (broadcastInDim S2048x1 ![0, 1] bcast_S1x1_S2048x1_0_1 r)
      = Cert.Net.linRow Y' W r := by
  subst hY
  rw [dot4]
  exact add_row Y W r _

/-! ## The reference's result is the network -/

/-- The reference's result: the classifier over the molecule means of the atom layer, the atom layer over the atom
    features joined with the atom sums of the messages after two rounds of passing. -/
theorem res_eq (m : (ℓ : Loc nD τ sig) → Buf (Elt Ideal) ℓ) (c : Dev nD) :
    res_main_v79 (F := Ideal) m c
      = Cert.Net.head
      (pool (m ((c.tc : Thread nD τ).loc main_arg16))
        (Cert.Net.linRelu (cat (m ((c.tc : Thread nD τ).loc main_arg0)) (toAtoms (m ((c.tc : Thread nD τ).loc main_arg14))
          (Cert.Net.linAddRelu (agg (m ((c.tc : Thread nD τ).loc main_arg13)) (m ((c.tc : Thread nD τ).loc main_arg14)) (m ((c.tc : Thread nD τ).loc main_arg15)) (Cert.Net.linAddRelu (agg (m ((c.tc : Thread nD τ).loc main_arg13)) (m ((c.tc : Thread nD τ).loc main_arg14)) (m ((c.tc : Thread nD τ).loc main_arg15)) (Cert.Net.linRelu (m ((c.tc : Thread nD τ).loc main_arg1)) (m ((c.tc : Thread nD τ).loc main_arg2)))) (m ((c.tc : Thread nD τ).loc main_arg3)) (Cert.LibDense.prod (m ((c.tc : Thread nD τ).loc main_arg1)) (m ((c.tc : Thread nD τ).loc main_arg2))))) (m ((c.tc : Thread nD τ).loc main_arg3)) (Cert.LibDense.prod (m ((c.tc : Thread nD τ).loc main_arg1)) (m ((c.tc : Thread nD τ).loc main_arg2)))))) (m ((c.tc : Thread nD τ).loc main_arg4))))
      (m ((c.tc : Thread nD τ).loc main_arg5)) (row512 (m ((c.tc : Thread nD τ).loc main_arg6)))
      (m ((c.tc : Thread nD τ).loc main_arg7)) (row512 (m ((c.tc : Thread nD τ).loc main_arg8)))
      (m ((c.tc : Thread nD τ).loc main_arg9)) (row512 (m ((c.tc : Thread nD τ).loc main_arg10)))
      (m ((c.tc : Thread nD τ).loc main_arg11)) (row1 (m ((c.tc : Thread nD τ).loc main_arg12))) := by
  unfold res_main_v79
  refine out_eq _ _ _ _ ?_
  refine relu_of _ _ ?_
  refine layer_eq _ _ _ _ ?_
  refine layer_eq _ _ _ _ ?_
  refine layer_eq _ _ _ _ ?_
  refine congrArg (pool _) ?_
  refine atom_eq _ _ _ ?_
  refine congrArg (cat _) ?_
  refine congrArg (toAtoms _) ?_
  refine step_eq _ _ _ _ _ ?_
  refine congrArg (agg _ _ _) ?_
  refine step_eq _ _ _ _ _ ?_
  refine congrArg (agg _ _ _) ?_
  exact msg0_eq _ _

end Cert.ReferenceIdeal.RefNet

end
-- ==== Proof.CatSplit.lean ====
/-
  A product against a concatenation along the contracted axis.

  For row operands `A : [n, 133]` and `M : [n, 512]` set side by side, `[A | M] : [n, 645]`, and a weight `W : [645, 512]` cut
  into its first 133 rows `W₁` and its last 512 rows `W₂`, the entry (r, j) of `[A | M] · W` is the sum over k < 645 of
  `[A | M] (r, k) * W (k, j)`.  The terms with k < 133 are `A (r, k) * W₁ (k, j)` and those with k = 133 + k' are
  `M (r, k') * W₂ (k', j)`, so the sum is `(A · W₁ + M · W₂) (r, j)`.  Only the splitting of a finite sum in a commutative
  monoid is used; nothing asks for finite entries.
-/
import proofs.«130696_j36455682408490_1_alg».proof.KernelIdeal
import proofs.«130696_j36455682408490_1_alg».proof.ReferenceIdeal
import proofs.«130696_j36455682408490_1_alg».proof.Proof.LibDense
import Idealize.ShloMosaic.Lib.Pipeline.Value
import Idealize.ShloMosaic.Lib.ValueIdx

noncomputable section

namespace Cert.CatSplit

open Idealize.ShloMosaic Idealize.ShloMosaic.ValueIdx Cert.LibDense

/-- A sum over 645 terms is the sum of its first 133 and of its last 512. -/
theorem sum_split (f : Fin 645 → EReal) :
    ∑ k : Fin 645, f k
      = ∑ k : Fin 133, f ⟨k.val, by omega⟩ + ∑ k : Fin 512, f ⟨133 + k.val, by omega⟩ :=
  Fin.sum_univ_add (a := 133) (b := 512) f

/-- The concatenation at a column below 133 is the first operand there. -/
theorem cat_left (fa : (⟨2, ![65536, 133]⟩ : Shape).Idx → EReal) (am : (⟨2, ![65536, 512]⟩ : Shape).Idx → EReal)
    (hc : Shape.Concatenates [(⟨2, ![65536, 133]⟩ : Shape), ⟨2, ![65536, 512]⟩] ⟨2, ![65536, 645]⟩ 1)
    (r : Fin 65536) (k : Fin 133) :
    concatenate (⟨2, ![65536, 645]⟩ : Shape) 1 [⟨⟨2, ![65536, 133]⟩, fa⟩, ⟨⟨2, ![65536, 512]⟩, am⟩] hc (ix2 r ⟨k.val, by omega⟩)
      = fa (ix2 r k) :=
  concatenate_pair_apply_left 1 fa am hc _ rfl (ix2 r k) fun b => by
    match b with
    | ⟨0, _⟩ => rfl
    | ⟨1, _⟩ => rfl

/-- The concatenation at column 133 + k is the second operand at column k. -/
theorem cat_right (fa : (⟨2, ![65536, 133]⟩ : Shape).Idx → EReal) (am : (⟨2, ![65536, 512]⟩ : Shape).Idx → EReal)
    (hc : Shape.Concatenates [(⟨2, ![65536, 133]⟩ : Shape), ⟨2, ![65536, 512]⟩] ⟨2, ![65536, 645]⟩ 1)
    (r : Fin 65536) (k : Fin 512) :
    concatenate (⟨2, ![65536, 645]⟩ : Shape) 1 [⟨⟨2, ![65536, 133]⟩, fa⟩, ⟨⟨2, ![65536, 512]⟩, am⟩] hc (ix2 r ⟨133 + k.val, by omega⟩)
      = am (ix2 r k) :=
  concatenate_pair_apply_right 1 fa am hc _ rfl rfl (ix2 r k)
    (fun b hb => by
      match b with
      | ⟨0, _⟩ => rfl
      | ⟨1, _⟩ => exact absurd rfl hb)
    (by show k.val + 133 = 133 + k.val; omega)

/-- The first 133 rows of the weight, at row k, are the weight at row k. -/
theorem rows_first (wo : (⟨2, ![645, 512]⟩ : Shape).Idx → EReal)
    (h1 : (⟨2, ![645, 512]⟩ : Shape).Slices ![0, 0] ⟨2, ![133, 512]⟩) (k : Fin 133) (j : Fin 512) :
    extractStridedSlice (⟨2, ![133, 512]⟩ : Shape) ![0, 0] wo h1 (ix2 k j) = wo (ix2 ⟨k.val, by omega⟩ j) :=
  extractStridedSlice_apply ![0, 0] wo h1 (ix2 k j) _ fun a => by
    match a with
    | ⟨0, _⟩ => show k.val = 0 + k.val; omega
    | ⟨1, _⟩ => show j.val = 0 + j.val; omega

/-- The last 512 rows of the weight, at row k, are the weight at row 133 + k. -/
theorem rows_last (wo : (⟨2, ![645, 512]⟩ : Shape).Idx → EReal)
    (h2 : (⟨2, ![645, 512]⟩ : Shape).Slices ![133, 0] ⟨2, ![512, 512]⟩) (k : Fin 512) (j : Fin 512) :
    extractStridedSlice (⟨2, ![512, 512]⟩ : Shape) ![133, 0] wo h2 (ix2 k j) = wo (ix2 ⟨133 + k.val, by omega⟩ j) :=
  extractStridedSlice_apply ![133, 0] wo h2 (ix2 k j) _ fun a => by
    match a with
    | ⟨0, _⟩ => show 133 + k.val = 133 + k.val; rfl
    | ⟨1, _⟩ => show j.val = 0 + j.val; omega

/-- The product against the concatenation is the sum of the products against the two cuts of the weight. -/
theorem prod_cat_split (fa : Cert.ReferenceIdeal.S65536x133.Idx → EReal) (am : Cert.ReferenceIdeal.S65536x512.Idx → EReal)
    (wo : Cert.ReferenceIdeal.S645x512.Idx → EReal)
    (hc : Shape.Concatenates [Cert.ReferenceIdeal.S65536x133, Cert.ReferenceIdeal.S65536x512] Cert.ReferenceIdeal.S65536x645 1)
    (h1 : Cert.KernelIdeal.S645x512.Slices ![0, 0] Cert.KernelIdeal.S133x512)
    (h2 : Cert.KernelIdeal.S645x512.Slices ![133, 0] Cert.KernelIdeal.S512x512) :
    prod (n := 65536) (K := 645) (d := 512)
        (concatenate Cert.ReferenceIdeal.S65536x645 1
          [⟨Cert.ReferenceIdeal.S65536x133, fa⟩, ⟨Cert.ReferenceIdeal.S65536x512, am⟩] hc) wo
      = fun i => prod (n := 65536) (K := 133) (d := 512) fa (extractStridedSlice Cert.KernelIdeal.S133x512 ![0, 0] wo h1) i
          + prod (n := 65536) (K := 512) (d := 512) am (extractStridedSlice Cert.KernelIdeal.S512x512 ![133, 0] wo h2) i := by
  funext i
  unfold prod
  rw [sum_split]
  refine congrArg₂ (· + ·) (Finset.sum_congr rfl fun k _ => ?_) (Finset.sum_congr rfl fun k _ => ?_)
  · rw [cat_left fa am hc (i 0) k, rows_first wo h1 k (i 1)]
  · rw [cat_right fa am hc (i 0) k, rows_last wo h2 k (i 1)]

end Cert.CatSplit

end
-- ==== Proof.BridgeRows.lean ====
/-
  Three readings that set the two programs' spellings of the same arrays side by side.

  A vector `b : [d]` viewed as the row `[1, d]` by a reshape and the same vector broadcast into a `[1, d]` array along its
  second axis are the same row: both read `b j` at (0, j).  And the atom layer written with the weight cut in two,
  `max (A · W₁ + M · W₂, 0)`, is the layer written with the operands set side by side, `max ([A | M] · W, 0)`: the product
  against a concatenation along the contracted axis is the sum of the two products.
-/
import proofs.«130696_j36455682408490_1_alg».proof.Proof.CatSplit
import proofs.«130696_j36455682408490_1_alg».proof.Proof.Net
import proofs.«130696_j36455682408490_1_alg».proof.KernelIdeal
import proofs.«130696_j36455682408490_1_alg».proof.ReferenceIdeal
import Idealize.ShloMosaic.Lib.Pipeline.Value
import Idealize.ShloMosaic.Lib.ValueIdx

noncomputable section

namespace Cert.BridgeRows

open Idealize.ShloMosaic Idealize.ShloMosaic.ValueIdx

/-- A vector of 512 entries reshaped to a row is the vector broadcast into a row. -/
theorem row_eq (b : Cert.KernelIdeal.S512.Idx → EReal) (h : Cert.KernelIdeal.S512.ShapeCasts Cert.KernelIdeal.S1x512)
    (h' : Cert.ReferenceIdeal.S512.BroadcastsInDim Cert.ReferenceIdeal.S1x512 ![1]) :
    shapeCast Cert.KernelIdeal.S1x512 b h = broadcastInDim Cert.ReferenceIdeal.S1x512 ![1] h' b := by
  funext i
  refine (shapeCast_addUnit_apply ![512] b h i).trans ?_
  refine Eq.symm (broadcastInDim_apply _ h' b i (fun a => i a.succ) fun a => ?_)
  match a with
  | ⟨0, _⟩ =>
    show (i 1).val = if (512 : Nat) = 1 then 0 else (i 1).val
    rw [if_neg (by decide)]

/-- The same for a vector of one entry. -/
theorem row1_eq (b : Cert.KernelIdeal.S1.Idx → EReal) (h : Cert.KernelIdeal.S1.ShapeCasts Cert.KernelIdeal.S1x1)
    (h' : Cert.ReferenceIdeal.S1.BroadcastsInDim Cert.ReferenceIdeal.S1x1 ![1]) :
    shapeCast Cert.KernelIdeal.S1x1 b h = broadcastInDim Cert.ReferenceIdeal.S1x1 ![1] h' b := by
  funext i
  refine (shapeCast_addUnit_apply ![1] b h i).trans ?_
  refine Eq.symm (broadcastInDim_apply _ h' b i (fun a => i a.succ) fun a => ?_)
  match a with
  | ⟨0, _⟩ =>
    show (i 1).val = if (1 : Nat) = 1 then 0 else (i 1).val
    rw [if_pos rfl]
    have hlt : (i 1).val < 1 := idx2_lt1 i
    omega

/-- The atom layer with the weight cut in two is the layer with the operands set side by side. -/
theorem atoms_eq (fa : Cert.ReferenceIdeal.S65536x133.Idx → EReal) (am : Cert.ReferenceIdeal.S65536x512.Idx → EReal)
    (wo : Cert.ReferenceIdeal.S645x512.Idx → EReal)
    (hc : Shape.Concatenates [Cert.ReferenceIdeal.S65536x133, Cert.ReferenceIdeal.S65536x512] Cert.ReferenceIdeal.S65536x645 1)
    (h1 : Cert.KernelIdeal.S645x512.Slices ![0, 0] Cert.KernelIdeal.S133x512)
    (h2 : Cert.KernelIdeal.S645x512.Slices ![133, 0] Cert.KernelIdeal.S512x512) :
    Cert.Net.dualRelu (n := 65536) (K₁ := 133) (K₂ := 512) (d := 512)
        fa (extractStridedSlice Cert.KernelIdeal.S133x512 ![0, 0] wo h1)
        am (extractStridedSlice Cert.KernelIdeal.S512x512 ![133, 0] wo h2)
      = Cert.Net.linRelu (n := 65536) (K := 645) (d := 512)
          (concatenate Cert.ReferenceIdeal.S65536x645 1
            [⟨Cert.ReferenceIdeal.S65536x133, fa⟩, ⟨Cert.ReferenceIdeal.S65536x512, am⟩] hc) wo := by
  funext i
  unfold Cert.Net.dualRelu Cert.Net.linRelu
  exact congrArg (fun x => max x Cert.Net.Z) (congrFun (Cert.CatSplit.prod_cat_split fa am wo hc h1 h2) i).symm

end Cert.BridgeRows

end
-- ==== Proof.Bridge.lean ====
/-
  The kernel's network is the reference's network.

  Both programs apply the same host operations between their dense stages: they differ only in the names of the
  dimension records the two printed programs carry, which are the same records.  What is left is the atom layer, where
  the reference multiplies the concatenation of the atom features and the atom sums by the whole output weight and the
  kernel adds the two products against the weight's two row slices (the sum over the 645 columns split at 133), and
  the bias vectors, which the kernel casts to rows and the reference broadcasts into rows.
-/
import proofs.«130696_j36455682408490_1_alg».proof.Proof.KernelValue
import proofs.«130696_j36455682408490_1_alg».proof.Proof.RefNet
import proofs.«130696_j36455682408490_1_alg».proof.Proof.BridgeRows

noncomputable section

namespace Cert.Bridge

open Idealize.ShloMosaic Idealize.ShloMosaic.TcCoe

/-- The segment sum over the destination atoms is the same operation in both programs. -/
theorem toAtoms_eq (dst : (⟨Cert.KernelIdeal.S131072, .i32⟩ : BufTy).Contents (Elt Ideal))
    (msg : (⟨Cert.KernelIdeal.S131072x512, .f32⟩ : BufTy).Contents (Elt Ideal)) :
    Cert.KernelIdeal.Glue.toAtoms (F := Ideal) dst msg = Cert.ReferenceIdeal.RefNet.toAtoms dst msg := rfl

/-- The message into a bond is the same operation in both programs. -/
theorem incoming_eq (src dst rev : (⟨Cert.KernelIdeal.S131072, .i32⟩ : BufTy).Contents (Elt Ideal))
    (msg : (⟨Cert.KernelIdeal.S131072x512, .f32⟩ : BufTy).Contents (Elt Ideal)) :
    Cert.KernelIdeal.Glue.incoming (F := Ideal) src dst rev msg = Cert.ReferenceIdeal.RefNet.agg src dst rev msg := rfl

/-- The per-molecule mean is the same operation in both programs. -/
theorem molMean_eq (mol : (⟨Cert.KernelIdeal.S65536, .i32⟩ : BufTy).Contents (Elt Ideal))
    (h : (⟨Cert.KernelIdeal.S65536x512, .f32⟩ : BufTy).Contents (Elt Ideal)) :
    Cert.KernelIdeal.Glue.molMean (F := Ideal) mol h = Cert.ReferenceIdeal.RefNet.pool mol h := rfl

open Cert.ReferenceIdeal.RefNet in
/-- The kernel's network of the arguments is the reference's. -/
theorem net_eq (fa : Cert.KernelIdeal.S65536x133.Idx → EReal) (fb : Cert.KernelIdeal.S131072x147.Idx → EReal)
    (wi : Cert.KernelIdeal.S147x512.Idx → EReal) (wh : Cert.KernelIdeal.S512x512.Idx → EReal)
    (wo : Cert.KernelIdeal.S645x512.Idx → EReal) (c1w : Cert.KernelIdeal.S512x512.Idx → EReal) (c1b : Cert.KernelIdeal.S512.Idx → EReal)
    (c2w : Cert.KernelIdeal.S512x512.Idx → EReal) (c2b : Cert.KernelIdeal.S512.Idx → EReal)
    (c3w : Cert.KernelIdeal.S512x512.Idx → EReal) (c3b : Cert.KernelIdeal.S512.Idx → EReal)
    (ow : Cert.KernelIdeal.S512x1.Idx → EReal) (ob : Cert.KernelIdeal.S1.Idx → EReal)
    (src dst rev : (⟨Cert.KernelIdeal.S131072, .i32⟩ : BufTy).Contents (Elt Ideal))
    (mol : (⟨Cert.KernelIdeal.S65536, .i32⟩ : BufTy).Contents (Elt Ideal)) :
    Cert.KernelIdeal.Whole.net fa fb wi wh wo c1w c1b c2w c2b c3w c3b ow ob src dst rev mol
      = Cert.Net.head
          (pool mol (Cert.Net.linRelu (cat fa (toAtoms dst
            (Cert.Net.linAddRelu (agg src dst rev (Cert.Net.linAddRelu (agg src dst rev (Cert.Net.linRelu fb wi)) wh (Cert.LibDense.prod fb wi)))
              wh (Cert.LibDense.prod fb wi)))) wo))
          c1w (row512 c1b) c2w (row512 c2b) c3w (row512 c3b) ow (row1 ob) := by
  unfold Cert.KernelIdeal.Whole.net
  rw [incoming_eq, incoming_eq, toAtoms_eq, molMean_eq,
    Cert.BridgeRows.row_eq c1b _ Cert.ReferenceIdeal.Gen.bcast_S512_S1x512_1,
    Cert.BridgeRows.row_eq c2b _ Cert.ReferenceIdeal.Gen.bcast_S512_S1x512_1,
    Cert.BridgeRows.row_eq c3b _ Cert.ReferenceIdeal.Gen.bcast_S512_S1x512_1,
    Cert.BridgeRows.row1_eq ob _ Cert.ReferenceIdeal.Gen.bcast_S1_S1x1_1,
    Cert.BridgeRows.atoms_eq fa _ wo Cert.ReferenceIdeal.Gen.concatenates_S65536x133_S65536x512_S65536x645_d1 _ _]
  rfl

end Cert.Bridge

end
-- ==== Proof.lean ====
/-
  The certificate of the message-passing network kernel against its plain reference.

  The kernel computes the network in five tiled dense stages (the input layer with its rectified copy, two
  message-passing updates, the atom layer, the classifier) among host segment sums and row gathers; the reference
  computes the same stages as whole-array products among the same host operations.  On the extended reals a change of
  float format is the identity and a product's entry is a finite sum, so each tiled stage is the whole-array stage
  (an entry reads one row of the row operand, and the tiles partition the rows); the update adds its input after the
  product where the reference adds it before (the sum commutes); the atom layer multiplies the atom features and the atom
  sums by the two row slices of the output weight where the reference multiplies their concatenation by the whole weight
  (the sum over the 645 columns split at 133); the bias vectors are cast to rows where the reference broadcasts them.
  No step needs a finite entry, so the precondition is never opened.

  The three frames: the two kernels' by their frame certificates, the reference's by its run with the result dropped.
  Nothing was rewritten between the kernel and its idealization beyond format changes into the matrix unit, so
  `preserves` asks nothing.
-/
import proofs.«130696_j36455682408490_1_alg».proof.Defs
import proofs.«130696_j36455682408490_1_alg».proof.Proof.Gen.Kernel
import proofs.«130696_j36455682408490_1_alg».proof.Proof.Gen.Kernel.Skeleton
import proofs.«130696_j36455682408490_1_alg».proof.Proof.Gen.Kernel.Launch
import proofs.«130696_j36455682408490_1_alg».proof.Proof.Gen.Kernel.Points
import proofs.«130696_j36455682408490_1_alg».proof.Proof.Gen.Kernel.Frame
import proofs.«130696_j36455682408490_1_alg».proof.Proof.Gen.KernelIdeal
import proofs.«130696_j36455682408490_1_alg».proof.Proof.Gen.KernelIdeal.Skeleton
import proofs.«130696_j36455682408490_1_alg».proof.Proof.Gen.KernelIdeal.Launch
import proofs.«130696_j36455682408490_1_alg».proof.Proof.Gen.KernelIdeal.Points
import proofs.«130696_j36455682408490_1_alg».proof.Proof.Gen.KernelIdeal.Frame
import proofs.«130696_j36455682408490_1_alg».proof.Proof.Gen.ReferenceIdeal
import proofs.«130696_j36455682408490_1_alg».proof.Proof.Gen.ReferenceIdeal.Run
import proofs.«130696_j36455682408490_1_alg».proof.Proof.Gen.Pre_finite_inputs
import proofs.«130696_j36455682408490_1_alg».proof.Proof.KernelRun
import proofs.«130696_j36455682408490_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

set_option maxHeartbeats 4000000 in
/-- Both idealized programs, run from memories agreeing on the arguments, end with the network of the arguments in
    their result arrays: the kernel's last region's output read through the regions and the host operations between
    them, the reference's composed term read stage by stage, and the two networks one function. -/
theorem algebraic : Cert.algebraic_KernelIdeal_ReferenceIdeal := by
  intro m ρ m' ρ' _ hagree
  refine ⟨fun c => (Cert.KernelIdeal.Gen.dat4 (F := Ideal) (Cert.KernelIdeal.Gen.V8 m ρ) c).arrAt 9 Cert.KernelIdeal.cfg4.N,
    Cert.KernelIdeal.WholeRun.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16⟩ := hagree c
  refine (Cert.ReferenceIdeal.RefNet.res_eq m' c).trans (Eq.trans ?_ (Cert.KernelIdeal.Whole.result_eq m ρ c).symm)
  rw [Cert.Bridge.net_eq, h0, h1, h2, h3, h4, h5, h6, h7, h8, h9, h10, h11, h12, h13, h14, h15, h16]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
